-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20000x2 : Shape := ⟨3, ![8, 20000, 2]⟩
abbrev S8x1x20000 : Shape := ⟨3, ![8, 1, 20000]⟩
abbrev S8x2x320000 : Shape := ⟨3, ![8, 2, 320000]⟩
abbrev S3x128 : Shape := ⟨2, ![3, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x20000 : Shape := ⟨2, ![128, 20000]⟩
abbrev S20000 : Shape := ⟨1, ![20000]⟩
abbrev S_ : Shape := ⟨0, ![]⟩

class Facts : Prop where
  bcast_S_S8x20000x2 : S_.BroadcastsInDim S8x20000x2 (![] : Fin 0 → Fin S8x20000x2.rank)
  reducesTo_S8x20000x2_S_d0_1_2 : S8x20000x2.ReducesTo [0, 1, 2] S_
  h_S_ : 0 < S_.numel
  bcast_S_S8x1x20000 : S_.BroadcastsInDim S8x1x20000 (![] : Fin 0 → Fin S8x1x20000.rank)
  reducesTo_S8x1x20000_S_d0_1_2 : S8x1x20000.ReducesTo [0, 1, 2] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x20000 : S_.BroadcastsInDim S128x20000 (![] : Fin 0 → Fin S128x20000.rank)
  reducesTo_S128x20000_S_d0_1 : S128x20000.ReducesTo [0, 1] S_
  bcast_S_S20000 : S_.BroadcastsInDim S20000 (![] : Fin 0 → Fin S20000.rank)
  reducesTo_S20000_S_d0 : S20000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x20000 .f32) (main_arg14 : FVec F S20000 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x20000 .f32 := Host.absf main_arg13
  let main_cst_22 : FVec F S_ .f32 := constant S_ .f32 0x7F800000#32
  let main_v60 : FVec F S128x20000 .f32 := broadcastInDim S128x20000 ![] bcast_S_S128x20000 main_cst_22
  let main_v61 : IVec S128x20000 1 := cmpf .olt main_v59 main_v60
  let main_c_23 : IVec S_ 1 := constantI S_ 1 1#1
  let main_v62 : IVec S_ 1 := (fun x v => Host.reduce IntOp.andi x v reducesTo_S128x20000_S_d0_1 h_S_) main_v61 main_c_23
  let main_v63 : IVec S_ 1 := andi main_v58 main_v62
  let main_v64 : FVec F S20000 .f32 := Host.absf main_arg14
  let main_cst_24 : FVec F S_ .f32 := constant S_ .f32 0x7F800000#32
  let main_v65 : FVec F S20000 .f32 := broadcastInDim S20000 ![] bcast_S_S20000 main_cst_24
  let main_v66 : IVec S20000 1 := cmpf .olt main_v64 main_v65
  let main_c_25 : IVec S_ 1 := constantI S_ 1 1#1
  let main_v67 : IVec S_ 1 := (fun x v => Host.reduce IntOp.andi x v reducesTo_S20000_S_d0 h_S_) main_v66 main_c_25
  fn_part4 (F := F) main_v63 main_v67

def fn_part2 {F : FTy → Type} [FloatOps F] (main_arg8 : FVec F S128 .f32) (main_arg9 : FVec F S128x64 .f32) (main_arg10 : FVec F S64 .f32) (main_arg11 : FVec F S64x128 .f32) (main_arg12 : FVec F S128 .f32) (main_arg13 : FVec F S128x20000 .f32) (main_arg14 : FVec F S20000 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_v48 main_v49 main_v50

def fn_part1 {F : FTy → Type} [FloatOps F] (main_arg5 : FVec F S128x64 .f32) (main_arg6 : FVec F S64 .f32) (main_arg7 : FVec F S64x128 .f32) (main_arg8 : FVec F S128 .f32) (main_arg9 : FVec F S128x64 .f32) (main_arg10 : FVec F S64 .f32) (main_arg11 : FVec F S64x128 .f32) (main_arg12 : FVec F S128 .f32) (main_arg13 : FVec F S128x20000 .f32) (main_arg14 : FVec F S20000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S8x20000x2 .f32) (main_arg1 : FVec F S8x1x20000 .f32) (main_arg2 : IVec S8x2x320000 32) (main_arg3 : FVec F S3x128 .f32) (main_arg4 : FVec F S128 .f32) (main_arg5 : FVec F S128x64 .f32) (main_arg6 : FVec F S64 .f32) (main_arg7 : FVec F S64x128 .f32) (main_arg8 : FVec F S128 .f32) (main_arg9 : FVec F S128x64 .f32) (main_arg10 : FVec F S64 .f32) (main_arg11 : FVec F S64x128 .f32) (main_arg12 : FVec F S128 .f32) (main_arg13 : FVec F S128x20000 .f32) (main_arg14 : FVec F S20000 .f32) : IVec S_ 1 :=
  let main_v0 : FVec F S8x20000x2 .f32 := Host.absf main_arg0
  let main_cst : FVec F S_ .f32 := constant S_ .f32 0x7F800000#32
  let main_v1 : FVec F S8x20000x2 .f32 := broadcastInDim S8x20000x2 ![] bcast_S_S8x20000x2 main_cst
  let main_v2 : IVec S8x20000x2 1 := cmpf .olt main_v0 main_v1
  let main_c : IVec S_ 1 := constantI S_ 1 1#1
  let main_v3 : IVec S_ 1 := (fun x v => Host.reduce IntOp.andi x v reducesTo_S8x20000x2_S_d0_1_2 h_S_) main_v2 main_c
  let main_v4 : FVec F S8x1x20000 .f32 := Host.absf main_arg1
  let main_cst_0 : FVec F S_ .f32 := constant S_ .f32 0x7F800000#32
  let main_v5 : FVec F S8x1x20000 .f32 := broadcastInDim S8x1x20000 ![] bcast_S_S8x1x20000 main_cst_0
  let main_v6 : IVec S8x1x20000 1 := cmpf .olt main_v4 main_v5
  let main_c_1 : IVec S_ 1 := constantI S_ 1 1#1
  let main_v7 : IVec S_ 1 := (fun x v => Host.reduce IntOp.andi x v reducesTo_S8x1x20000_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S8x20000x2 : Shape := ⟨3, ![8, 20000, 2]⟩
abbrev S8x1x20000 : Shape := ⟨3, ![8, 1, 20000]⟩
abbrev S8x2x320000 : Shape := ⟨3, ![8, 2, 320000]⟩
abbrev S3x128 : Shape := ⟨2, ![3, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x20000 : Shape := ⟨2, ![128, 20000]⟩
abbrev S20000 : Shape := ⟨1, ![20000]⟩
abbrev S8x20000 : Shape := ⟨2, ![8, 20000]⟩
abbrev S8x20000x1 : Shape := ⟨3, ![8, 20000, 1]⟩
abbrev S8x20000x3 : Shape := ⟨3, ![8, 20000, 3]⟩
abbrev S160000x3 : Shape := ⟨2, ![160000, 3]⟩
abbrev S8 : Shape := ⟨1, ![8]⟩
abbrev S_ : Shape := ⟨0, ![]⟩
abbrev S8x1x1 : Shape := ⟨3, ![8, 1, 1]⟩
abbrev S2x2560000 : Shape := ⟨2, ![2, 2560000]⟩
abbrev S1x2560000 : Shape := ⟨2, ![1, 2560000]⟩
abbrev S2560000 : Shape := ⟨1, ![2560000]⟩
abbrev S2560000x1 : Shape := ⟨2, ![2560000, 1]⟩
abbrev S2560000x3 : Shape := ⟨2, ![2560000, 3]⟩
abbrev S160000x64 : Shape := ⟨2, ![160000, 64]⟩
abbrev S8000x3 : Shape := ⟨2, ![8000, 3]⟩
abbrev S8000x64 : Shape := ⟨2, ![8000, 64]⟩
abbrev S8000x128 : Shape := ⟨2, ![8000, 128]⟩
abbrev S1x128 : Shape := ⟨2, ![1, 128]⟩
abbrev S1x64 : Shape := ⟨2, ![1, 64]⟩
abbrev S2560000x64 : Shape := ⟨2, ![2560000, 64]⟩
abbrev S8x20000x64 : Shape := ⟨3, ![8, 20000, 64]⟩
abbrev S8x64 : Shape := ⟨2, ![8, 64]⟩
abbrev S8x1000x64 : Shape := ⟨3, ![8, 1000, 64]⟩
abbrev S8x128 : Shape := ⟨2, ![8, 128]⟩
abbrev S1x20000 : Shape := ⟨2, ![1, 20000]⟩

abbrev nBuf : Space → Nat
  | .hbm => 82
  | .vmem => 26
  | .smem => 0
  | _ => 0

abbrev bufTy : (tb : Table) → Fin (tcTables nBuf tb) → BufTy
  | .hbm, ⟨0, _⟩ => ⟨S8x20000x2, .f32⟩
  | .hbm, ⟨1, _⟩ => ⟨S8x1x20000, .f32⟩
  | .hbm, ⟨2, _⟩ => ⟨S8x2x320000, .i32⟩
  | .hbm, ⟨3, _⟩ => ⟨S3x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x20000, .f32⟩
  | .hbm, ⟨14, _⟩ => ⟨S20000, .f32⟩
  | .hbm, ⟨15, _⟩ => ⟨S8x20000, .f32⟩
  | .hbm, ⟨16, _⟩ => ⟨S8x20000x1, .f32⟩
  | .hbm, ⟨17, _⟩ => ⟨S8x20000, .f32⟩
  | .hbm, ⟨18, _⟩ => ⟨S8x20000x1, .f32⟩
  | .hbm, ⟨19, _⟩ => ⟨S8x20000, .f32⟩
  | .hbm, ⟨20, _⟩ => ⟨S8x20000x1, .f32⟩
  | .hbm, ⟨21, _⟩ => ⟨S8x20000x1, .f32⟩
  | .hbm, ⟨22, _⟩ => ⟨S8x20000x1, .f32⟩
  | .hbm, ⟨23, _⟩ => ⟨S8x20000x3, .f32⟩
  | .hbm, ⟨24, _⟩ => ⟨S160000x3, .f32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8x1x1, .i32⟩
  | .hbm, ⟨30, _⟩ => ⟨S8x2x320000, .i32⟩
  | .hbm, ⟨31, _⟩ => ⟨S8x2x320000, .i32⟩
  | .hbm, ⟨32, _⟩ => ⟨S2x2560000, .i32⟩
  | .hbm, ⟨33, _⟩ => ⟨S1x2560000, .i32⟩
  | .hbm, ⟨34, _⟩ => ⟨S2560000, .i32⟩
  | .hbm, ⟨35, _⟩ => ⟨S1x2560000, .i32⟩
  | .hbm, ⟨36, _⟩ => ⟨S2560000, .i32⟩
  | .hbm, ⟨37, _⟩ => ⟨S_, .f32⟩
  | .hbm, ⟨38, _⟩ => ⟨S160000x3, .f32⟩
  | .hbm, ⟨39, _⟩ => ⟨S_, .i32⟩
  | .hbm, ⟨40, _⟩ => ⟨S2560000, .i32⟩
  | .hbm, ⟨41, _⟩ => ⟨S2560000, .i1⟩
  | .hbm, ⟨42, _⟩ => ⟨S_, .i32⟩
  | .hbm, ⟨43, _⟩ => ⟨S2560000, .i32⟩
  | .hbm, ⟨44, _⟩ => ⟨S2560000, .i32⟩
  | .hbm, ⟨45, _⟩ => ⟨S2560000, .i32⟩
  | .hbm, ⟨46, _⟩ => ⟨S2560000x1, .i32⟩
  | .hbm, ⟨47, _⟩ => ⟨S2560000x3, .f32⟩
  | .hbm, ⟨48, _⟩ => ⟨S_, .i32⟩
  | .hbm, ⟨49, _⟩ => ⟨S2560000, .i32⟩
  | .hbm, ⟨50, _⟩ => ⟨S2560000, .i1⟩
  | .hbm, ⟨51, _⟩ => ⟨S_, .i32⟩
  | .hbm, ⟨52, _⟩ => ⟨S2560000, .i32⟩
  | .hbm, ⟨53, _⟩ => ⟨S2560000, .i32⟩
  | .hbm, ⟨54, _⟩ => ⟨S2560000, .i32⟩
  | .hbm, ⟨55, _⟩ => ⟨S2560000x1, .i32⟩
  | .hbm, ⟨56, _⟩ => ⟨S160000x3, .f32⟩
  | .hbm, ⟨57, _⟩ => ⟨S160000x64, .f32⟩
  | .hbm, ⟨58, _⟩ => ⟨S_, .f32⟩
  | .hbm, ⟨59, _⟩ => ⟨S160000x64, .f32⟩
  | .hbm, ⟨60, _⟩ => ⟨S_, .i32⟩
  | .hbm, ⟨61, _⟩ => ⟨S2560000, .i32⟩
  | .hbm, ⟨62, _⟩ => ⟨S2560000, .i1⟩
  | .hbm, ⟨63, _⟩ => ⟨S_, .i32⟩
  | .hbm, ⟨64, _⟩ => ⟨S2560000, .i32⟩
  | .hbm, ⟨65, _⟩ => ⟨S2560000, .i32⟩
  | .hbm, ⟨66, _⟩ => ⟨S2560000, .i32⟩
  | .hbm, ⟨67, _⟩ => ⟨S2560000x1, .i32⟩
  | .hbm, ⟨68, _⟩ => ⟨S2560000x64, .f32⟩
  | .hbm, ⟨69, _⟩ => ⟨S_, .i32⟩
  | .hbm, ⟨70, _⟩ => ⟨S2560000, .i32⟩
  | .hbm, ⟨71, _⟩ => ⟨S2560000, .i1⟩
  | .hbm, ⟨72, _⟩ => ⟨S_, .i32⟩
  | .hbm, ⟨73, _⟩ => ⟨S2560000, .i32⟩
  | .hbm, ⟨74, _⟩ => ⟨S2560000, .i32⟩
  | .hbm, ⟨75, _⟩ => ⟨S2560000, .i32⟩
  | .hbm, ⟨76, _⟩ => ⟨S2560000x1, .i32⟩
  | .hbm, ⟨77, _⟩ => ⟨S160000x64, .f32⟩
  | .hbm, ⟨78, _⟩ => ⟨S8x20000x64, .f32⟩
  | .hbm, ⟨79, _⟩ => ⟨S8x20000x64, .f32⟩
  | .hbm, ⟨80, _⟩ => ⟨S8x64, .f32⟩
  | .hbm, ⟨81, _⟩ => ⟨S8x20000, .f32⟩
  | .local _ .vmem, ⟨0, _⟩ => ⟨S8000x3, .f32⟩
  | .local _ .vmem, ⟨1, _⟩ => ⟨S8000x3, .f32⟩
  | .local _ .vmem, ⟨2, _⟩ => ⟨S8000x3, .f32⟩
  | .local _ .vmem, ⟨3, _⟩ => ⟨S8000x3, .f32⟩
  | .local _ .vmem, ⟨4, _⟩ => ⟨S3x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S8000x64, .f32⟩
  | .local _ .vmem, ⟨9, _⟩ => ⟨S8000x64, .f32⟩
  | .local _ .vmem, ⟨10, _⟩ => ⟨S8x1000x64, .f32⟩
  | .local _ .vmem, ⟨11, _⟩ => ⟨S8x1000x64, .f32⟩
  | .local _ .vmem, ⟨12, _⟩ => ⟨S8x1000x64, .f32⟩
  | .local _ .vmem, ⟨13, _⟩ => ⟨S8x1000x64, .f32⟩
  | .local _ .vmem, ⟨14, _⟩ => ⟨S64x128, .f32⟩
  | .local _ .vmem, ⟨15, _⟩ => ⟨S128, .f32⟩
  | .local _ .vmem, ⟨16, _⟩ => ⟨S128x64, .f32⟩
  | .local _ .vmem, ⟨17, _⟩ => ⟨S64, .f32⟩
  | .local _ .vmem, ⟨18, _⟩ => ⟨S8x64, .f32⟩
  | .local _ .vmem, ⟨19, _⟩ => ⟨S8x64, .f32⟩
  | .local _ .vmem, ⟨20, _⟩ => ⟨S8x64, .f32⟩
  | .local _ .vmem, ⟨21, _⟩ => ⟨S64x128, .f32⟩
  | .local _ .vmem, ⟨22, _⟩ => ⟨S128, .f32⟩
  | .local _ .vmem, ⟨23, _⟩ => ⟨S128x20000, .f32⟩
  | .local _ .vmem, ⟨24, _⟩ => ⟨S20000, .f32⟩
  | .local _ .vmem, ⟨25, _⟩ => ⟨S8x20000, .f32⟩
  | _, _ => ⟨S8x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_20 : BitVec 32 := 0#32
  let v40 : BitVec 1 := Scalar.cmpi .ne v39 c0_i32_20
  v40

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x20000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S20000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x20000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  shapeCasts_S8x1x20000_S8x20000 : S8x1x20000.ShapeCasts S8x20000
  slices_S8x20000x2_S8x20000x1_0_0_0 : S8x20000x2.Slices ![0, 0, 0] S8x20000x1
  shapeCasts_S8x20000x1_S8x20000 : S8x20000x1.ShapeCasts S8x20000
  slices_S8x20000x2_S8x20000x1_0_0_1 : S8x20000x2.Slices ![0, 0, 1] S8x20000x1
  bcast_S8x20000_S8x20000x1_0_1 : S8x20000.BroadcastsInDim S8x20000x1 (![0, 1] : Fin 2 → Fin S8x20000x1.rank)
  concatenates_S8x20000x1_S8x20000x1_S8x20000x1_S8x20000x3_d2 : Shape.Concatenates [S8x20000x1, S8x20000x1, S8x20000x1] S8x20000x3 2
  shapeCasts_S8x20000x3_S160000x3 : S8x20000x3.ShapeCasts S160000x3
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x2x320000_0_1_2 : S8x1x1.BroadcastsInDim S8x2x320000 (![0, 1, 2] : Fin 3 → Fin S8x2x320000.rank)
  shapeCasts_S8x2x320000_S2x2560000 : S8x2x320000.ShapeCasts S2x2560000
  slices_S2x2560000_S1x2560000_0_0 : S2x2560000.Slices ![0, 0] S1x2560000
  shapeCasts_S1x2560000_S2560000 : S1x2560000.ShapeCasts S2560000
  slices_S2x2560000_S1x2560000_1_0 : S2x2560000.Slices ![1, 0] S1x2560000
  bcast_S_S160000x3 : S_.BroadcastsInDim S160000x3 (![] : Fin 0 → Fin S160000x3.rank)
  bcast_S_S2560000 : S_.BroadcastsInDim S2560000 (![] : Fin 0 → Fin S2560000.rank)
  bcast_S2560000_S2560000x1_0 : S2560000.BroadcastsInDim S2560000x1 (![0] : Fin 1 → Fin S2560000x1.rank)
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S160000x64 : S_.BroadcastsInDim S160000x64 (![] : Fin 0 → Fin S160000x64.rank)
  shapeCasts_S160000x64_S8x20000x64 : S160000x64.ShapeCasts S8x20000x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1000x64_S8x1000x64_0_0_0 : ∀ a, (![0, 0, 0] : Fin 3 → Nat) a + S8x1000x64.size a ≤ S8x1000x64.size a
  h_S8x1000x64 : 0 < S8x1000x64.numel
  shapeCasts_S8x1000x64_S8x1000x64 : S8x1000x64.ShapeCasts S8x1000x64
  shapeCasts_S8x1000x64_S8000x64 : S8x1000x64.ShapeCasts S8000x64
  inb_S64x128_S64x128_0_0 : ∀ a, (![0, 0] : Fin 2 → Nat) a + S64x128.size a ≤ S64x128.size a
  h_S64x128 : 0 < S64x128.numel
  shapeCasts_S8000x64_S8x1000x64 : S8000x64.ShapeCasts S8x1000x64
  reduces_S8x1000x64_S8x64 : S8x1000x64.Reduces [1] S8x64
  broadcasts_S1x128_S8x128 : S1x128.Broadcasts S8x128
  inb_S128x20000_S128x20000_0_0 : ∀ a, (![0, 0] : Fin 2 → Nat) a + S128x20000.size a ≤ S128x20000.size a
  h_S128x20000 : 0 < S128x20000.numel
  inb_S20000_S20000_0 : ∀ a, (![0] : Fin 1 → Nat) a + S20000.size a ≤ S20000.size a
  h_S20000 : 0 < S20000.numel
  shapeCasts_S20000_S1x20000 : S20000.ShapeCasts S1x20000
  broadcasts_S1x20000_S8x20000 : S1x20000.Broadcasts S8x20000
  inb_S8x20000_S8x20000_0_0 : ∀ a, (![0, 0] : Fin 2 → Nat) a + S8x20000.size a ≤ S8x20000.size a
  h_S8x20000 : 0 < S8x20000.numel
  gather_S160000x3_S2560000x1_S2560000x3_1_0_n_n_0_1_13_wf : GatherDims.WF S160000x3 S2560000x1 S2560000x3 [1] [0] [] [0] [] 1 ![1, 3]
  scatter_S160000x3_S2560000x1_S2560000x3_1_0_0_1_wf : ScatterDims.WF S160000x3 S2560000x1 S2560000x3 [1] [0] [0] 1
  dot_S8000x3_S3x128_S8000x128_1_0_0_1_n_n_wf : DotDims.WF S8000x3 S3x128 S8000x128 [1] [0] [0] [1] [] []
  dot_S8000x128_S128x64_S8000x64_1_0_0_1_n_n_wf : DotDims.WF S8000x128 S128x64 S8000x64 [1] [0] [0] [1] [] []
  gather_S160000x64_S2560000x1_S2560000x64_1_0_n_n_0_1_164_wf : GatherDims.WF S160000x64 S2560000x1 S2560000x64 [1] [0] [] [0] [] 1 ![1, 64]
  scatter_S160000x64_S2560000x1_S2560000x64_1_0_0_1_wf : ScatterDims.WF S160000x64 S2560000x1 S2560000x64 [1] [0] [0] 1
  dot_S8000x64_S64x128_S8000x128_1_0_0_1_n_n_wf : DotDims.WF S8000x64 S64x128 S8000x128 [1] [0] [0] [1] [] []
  dot_S8x64_S64x128_S8x128_1_0_0_1_n_n_wf : DotDims.WF S8x64 S64x128 S8x128 [1] [0] [0] [1] [] []
  dot_S8x128_S128x20000_S8x20000_1_0_0_1_n_n_wf : DotDims.WF S8x128 S128x20000 S8x20000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S160000x3.size a
  hwx0_0 : ∀ i : grid0.Coords, EltTy.bits .f32 = 32 ∨ (Rect.block (s := S160000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S160000x3.size a
  hwx0_1 : ∀ i : grid0.Coords, EltTy.bits .f32 = 32 ∨ (Rect.block (s := S160000x3) S8000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S160000x64.size a
  hwx0_6 : ∀ i : grid0.Coords, EltTy.bits .f32 = 32 ∨ (Rect.block (s := S160000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1000x64.size a ≤ S8x20000x64.size a
  hwx1_0 : ∀ i : grid1.Coords, EltTy.bits .f32 = 32 ∨ (Rect.block (s := S8x20000x64) S8x1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1000x64.size a ≤ S8x20000x64.size a
  hwx1_1 : ∀ i : grid1.Coords, EltTy.bits .f32 = 32 ∨ (Rect.block (s := S8x20000x64) S8x1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S8x64.size a
  hwx1_6 : ∀ i : grid1.Coords, EltTy.bits .f32 = 32 ∨ (Rect.block (s := S8x64) S8x64.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x64.size a ≤ S8x64.size a
  hwx2_0 : ∀ i : grid2.Coords, EltTy.bits .f32 = 32 ∨ (Rect.block (s := S8x64) S8x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x20000.size a ≤ S128x20000.size a
  hwx2_3 : ∀ i : grid2.Coords, EltTy.bits .f32 = 32 ∨ (Rect.block (s := S128x20000) S128x20000.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S20000.size a ≤ S20000.size a
  hwx2_4 : ∀ i : grid2.Coords, EltTy.bits .f32 = 32 ∨ (Rect.block (s := S20000) S20000.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x20000.size a ≤ S8x20000.size a
  hwx2_5 : ∀ i : grid2.Coords, EltTy.bits .f32 = 32 ∨ (Rect.block (s := S8x20000) S8x20000.size (cc2_transform_5 i) (hinb2_5 i)).WholeWords (EltTy.packing .f32)

variable [Facts₀]

def gather_S160000x3_S2560000x1_S2560000x3_1_0_n_n_0_1_13 : GatherDims S160000x3 S2560000x1 S2560000x3 where
  offsetDims := [1]
  collapsedSliceDims := [0]
  operandBatchingDims := []
  startIndicesBatchingDims := []
  startIndexMap := [0]
  indexVectorDim := 1
  sliceSizes := ![1, 3]
  wf := gather_S160000x3_S2560000x1_S2560000x3_1_0_n_n_0_1_13_wf
def scatter_S160000x3_S2560000x1_S2560000x3_1_0_0_1 : ScatterDims S160000x3 S2560000x1 S2560000x3 where
  updateWindowDims := [1]
  insertedWindowDims := [0]
  scatterDimsToOperandDims := [0]
  indexVectorDim := 1
  wf := scatter_S160000x3_S2560000x1_S2560000x3_1_0_0_1_wf
def dot_S8000x3_S3x128_S8000x128_1_0_0_1_n_n : DotDims S8000x3 S3x128 S8000x128 where
  lhsContracting := [1]
  rhsContracting := [0]
  lhsNonContracting := [0]
  rhsNonContracting := [1]
  lhsBatch := []
  rhsBatch := []
  wf := dot_S8000x3_S3x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S160000x64_S2560000x1_S2560000x64_1_0_n_n_0_1_164 : GatherDims S160000x64 S2560000x1 S2560000x64 where
  offsetDims := [1]
  collapsedSliceDims := [0]
  operandBatchingDims := []
  startIndicesBatchingDims := []
  startIndexMap := [0]
  indexVectorDim := 1
  sliceSizes := ![1, 64]
  wf := gather_S160000x64_S2560000x1_S2560000x64_1_0_n_n_0_1_164_wf
def scatter_S160000x64_S2560000x1_S2560000x64_1_0_0_1 : ScatterDims S160000x64 S2560000x1 S2560000x64 where
  updateWindowDims := [1]
  insertedWindowDims := [0]
  scatterDimsToOperandDims := [0]
  indexVectorDim := 1
  wf := scatter_S160000x64_S2560000x1_S2560000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf
def dot_S8x128_S128x20000_S8x20000_1_0_0_1_n_n : DotDims S8x128 S128x20000 S8x20000 where
  lhsContracting := [1]
  rhsContracting := [0]
  lhsNonContracting := [0]
  rhsNonContracting := [1]
  lhsBatch := []
  rhsBatch := []
  wf := dot_S8x128_S128x20000_S8x20000_1_0_0_1_n_n_wf

abbrev win0_0 : Pipeline.Window sig grid0 :=
  Pipeline.Window.ofSpec (Memref.whole main_v9) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v52) S8x1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S8x1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S8x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v54) S8x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x20000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S20000.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S8x20000.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x20000x2 : Shape := ⟨3, ![8, 20000, 2]⟩
abbrev S8x1x20000 : Shape := ⟨3, ![8, 1, 20000]⟩
abbrev S8x2x320000 : Shape := ⟨3, ![8, 2, 320000]⟩
abbrev S3x128 : Shape := ⟨2, ![3, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x20000 : Shape := ⟨2, ![128, 20000]⟩
abbrev S20000 : Shape := ⟨1, ![20000]⟩
abbrev S8x20000 : Shape := ⟨2, ![8, 20000]⟩
abbrev S8x20000x1 : Shape := ⟨3, ![8, 20000, 1]⟩
abbrev S8x20000x3 : Shape := ⟨3, ![8, 20000, 3]⟩
abbrev S160000x3 : Shape := ⟨2, ![160000, 3]⟩
abbrev S8 : Shape := ⟨1, ![8]⟩
abbrev S_ : Shape := ⟨0, ![]⟩
abbrev S8x1x1 : Shape := ⟨3, ![8, 1, 1]⟩
abbrev S2x2560000 : Shape := ⟨2, ![2, 2560000]⟩
abbrev S1x2560000 : Shape := ⟨2, ![1, 2560000]⟩
abbrev S2560000 : Shape := ⟨1, ![2560000]⟩
abbrev S2560000x1 : Shape := ⟨2, ![2560000, 1]⟩
abbrev S2560000x3 : Shape := ⟨2, ![2560000, 3]⟩
abbrev S160000x128 : Shape := ⟨2, ![160000, 128]⟩
abbrev S1x128 : Shape := ⟨2, ![1, 128]⟩
abbrev S160000x64 : Shape := ⟨2, ![160000, 64]⟩
abbrev S1x64 : Shape := ⟨2, ![1, 64]⟩
abbrev S2560000x64 : Shape := ⟨2, ![2560000, 64]⟩
abbrev S8x20000x64 : Shape := ⟨3, ![8, 20000, 64]⟩
abbrev S8x64 : Shape := ⟨2, ![8, 64]⟩
abbrev S8x128 : Shape := ⟨2, ![8, 128]⟩
abbrev S1x20000 : Shape := ⟨2, ![1, 20000]⟩

abbrev nBuf : Space → Nat
  | .hbm => 129
  | .vmem => 0
  | .smem => 0
  | _ => 0

abbrev hbmTy0_0 (i : Nat) : BufTy := match i % 128 with
  | 0 => ⟨S8x20000x2, .f32⟩
  | 1 => ⟨S8x1x20000, .f32⟩
  | 2 => ⟨S8x2x320000, .i32⟩
  | 3 => ⟨S3x128, .f32⟩
  | 4 => ⟨S128, .f32⟩
  | 5 => ⟨S128x64, .f32⟩
  | 6 => ⟨S64, .f32⟩
  | 7 => ⟨S64x128, .f32⟩
  | 8 => ⟨S128, .f32⟩
  | 9 => ⟨S128x64, .f32⟩
  | 10 => ⟨S64, .f32⟩
  | 11 => ⟨S64x128, .f32⟩
  | 12 => ⟨S128, .f32⟩
  | 13 => ⟨S128x20000, .f32⟩
  | 14 => ⟨S20000, .f32⟩
  | 15 => ⟨S8x20000, .f32⟩
  | 16 => ⟨S8x20000x1, .f32⟩
  | 17 => ⟨S8x20000, .f32⟩
  | 18 => ⟨S8x20000x1, .f32⟩
  | 19 => ⟨S8x20000, .f32⟩
  | 20 => ⟨S8x20000x1, .f32⟩
  | 21 => ⟨S8x20000x1, .f32⟩
  | 22 => ⟨S8x20000x1, .f32⟩
  | 23 => ⟨S8x20000x3, .f32⟩
  | 24 => ⟨S160000x3, .f32⟩
  | 25 => ⟨S8, .i32⟩
  | 26 => ⟨S_, .i32⟩
  | 27 => ⟨S8, .i32⟩
  | 28 => ⟨S8, .i32⟩
  | 29 => ⟨S8x1x1, .i32⟩
  | 30 => ⟨S8x2x320000, .i32⟩
  | 31 => ⟨S8x2x320000, .i32⟩
  | 32 => ⟨S2x2560000, .i32⟩
  | 33 => ⟨S1x2560000, .i32⟩
  | 34 => ⟨S2560000, .i32⟩
  | 35 => ⟨S1x2560000, .i32⟩
  | 36 => ⟨S2560000, .i32⟩
  | 37 => ⟨S_, .f32⟩
  | 38 => ⟨S160000x3, .f32⟩
  | 39 => ⟨S_, .i32⟩
  | 40 => ⟨S2560000, .i32⟩
  | 41 => ⟨S2560000, .i1⟩
  | 42 => ⟨S_, .i32⟩
  | 43 => ⟨S2560000, .i32⟩
  | 44 => ⟨S2560000, .i32⟩
  | 45 => ⟨S2560000, .i32⟩
  | 46 => ⟨S2560000x1, .i32⟩
  | 47 => ⟨S2560000x3, .f32⟩
  | 48 => ⟨S_, .i32⟩
  | 49 => ⟨S2560000, .i32⟩
  | 50 => ⟨S2560000, .i1⟩
  | 51 => ⟨S_, .i32⟩
  | 52 => ⟨S2560000, .i32⟩
  | 53 => ⟨S2560000, .i32⟩
  | 54 => ⟨S2560000, .i32⟩
  | 55 => ⟨S2560000x1, .i32⟩
  | 56 => ⟨S160000x3, .f32⟩
  | 57 => ⟨S160000x3, .f32⟩
  | 58 => ⟨S160000x128, .f32⟩
  | 59 => ⟨S1x128, .f32⟩
  | 60 => ⟨S160000x128, .f32⟩
  | 61 => ⟨S160000x128, .f32⟩
  | 62 => ⟨S_, .f32⟩
  | 63 => ⟨S160000x128, .f32⟩
  | 64 => ⟨S160000x128, .f32⟩
  | 65 => ⟨S160000x64, .f32⟩
  | 66 => ⟨S1x64, .f32⟩
  | 67 => ⟨S160000x64, .f32⟩
  | 68 => ⟨S160000x64, .f32⟩
  | 69 => ⟨S_, .f32⟩
  | 70 => ⟨S160000x64, .f32⟩
  | 71 => ⟨S160000x64, .f32⟩
  | 72 => ⟨S_, .f32⟩
  | 73 => ⟨S160000x64, .f32⟩
  | 74 => ⟨S_, .i32⟩
  | 75 => ⟨S2560000, .i32⟩
  | 76 => ⟨S2560000, .i1⟩
  | 77 => ⟨S_, .i32⟩
  | 78 => ⟨S2560000, .i32⟩
  | 79 => ⟨S2560000, .i32⟩
  | 80 => ⟨S2560000, .i32⟩
  | 81 => ⟨S2560000x1, .i32⟩
  | 82 => ⟨S2560000x64, .f32⟩
  | 83 => ⟨S_, .i32⟩
  | 84 => ⟨S2560000, .i32⟩
  | 85 => ⟨S2560000, .i1⟩
  | 86 => ⟨S_, .i32⟩
  | 87 => ⟨S2560000, .i32⟩
  | 88 => ⟨S2560000, .i32⟩
  | 89 => ⟨S2560000, .i32⟩
  | 90 => ⟨S2560000x1, .i32⟩
  | 91 => ⟨S160000x64, .f32⟩
  | 92 => ⟨S160000x64, .f32⟩
  | 93 => ⟨S160000x128, .f32⟩
  | 94 => ⟨S1x128, .f32⟩
  | 95 => ⟨S160000x128, .f32⟩
  | 96 => ⟨S160000x128, .f32⟩
  | 97 => ⟨S_, .f32⟩
  | 98 => ⟨S160000x128, .f32⟩
  | 99 => ⟨S160000x128, .f32⟩
  | 100 => ⟨S160000x64, .f32⟩
  | 101 => ⟨S1x64, .f32⟩
  | 102 => ⟨S160000x64, .f32⟩
  | 103 => ⟨S160000x64, .f32⟩
  | 104 => ⟨S_, .f32⟩
  | 105 => ⟨S160000x64, .f32⟩
  | 106 => ⟨S160000x64, .f32⟩
  | 107 => ⟨S8x20000x64, .f32⟩
  | 108 => ⟨S_, .f32⟩
  | 109 => ⟨S8x64, .f32⟩
  | 110 => ⟨S8x128, .f32⟩
  | 111 => ⟨S1x128, .f32⟩
  | 112 => ⟨S8x128, .f32⟩
  | 113 => ⟨S8x128, .f32⟩
  | 114 => ⟨S_, .f32⟩
  | 115 => ⟨S8x128, .f32⟩
  | 116 => ⟨S8x128, .f32⟩
  | 117 => ⟨S8x20000, .f32⟩
  | 118 => ⟨S1x20000, .f32⟩
  | 119 => ⟨S8x20000, .f32⟩
  | 120 => ⟨S8x20000, .f32⟩
  | 121 => ⟨S8x20000, .f32⟩
  | 122 => ⟨S8x20000, .f32⟩
  | 123 => ⟨S_, .f32⟩
  | 124 => ⟨S8x20000, .f32⟩
  | 125 => ⟨S8x20000, .f32⟩
  | 126 => ⟨S_, .f32⟩
  | 127 => ⟨S8x20000, .f32⟩
  | _ => ⟨S8x20000x2, .f32⟩

abbrev hbmTy0_1 (i : Nat) : BufTy := match i % 128 with
  | 0 => ⟨S8x20000, .f32⟩
  | _ => ⟨S8x20000x2, .f32⟩

abbrev hbmTy (i : Nat) : BufTy := match i / 128 with
  | 0 => hbmTy0_0 i
  | 1 => hbmTy0_1 i
  | _ => ⟨S8x20000x2, .f32⟩

abbrev bufTy : (tb : Table) → Fin (tcTables nBuf tb) → BufTy
  | .hbm, ⟨i, _⟩ => hbmTy i
  | _, _ => ⟨S8x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_cst : Ref sig .tc := ⟨.hbm, 62, rfl⟩
abbrev main_call0_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call1_cst : Ref sig .tc := ⟨.hbm, 69, rfl⟩
abbrev main_call1_v0 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_c_5 : Ref sig .tc := ⟨.hbm, 74, rfl⟩
abbrev main_v48 : Ref sig .tc := ⟨.hbm, 75, rfl⟩
abbrev main_v49 : Ref sig .tc := ⟨.hbm, 76, rfl⟩
abbrev main_c_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_7 : Ref sig .tc := ⟨.hbm, 83, rfl⟩
abbrev main_v55 : Ref sig .tc := ⟨.hbm, 84, rfl⟩
abbrev main_v56 : Ref sig .tc := ⟨.hbm, 85, rfl⟩
abbrev main_c_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_cst_9 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call4_cst : Ref sig .tc := ⟨.hbm, 114, rfl⟩
abbrev main_call4_v0 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_10 : Ref sig .tc := ⟨.hbm, 123, rfl⟩
abbrev main_v86 : Ref sig .tc := ⟨.hbm, 124, rfl⟩
abbrev main_v87 : Ref sig .tc := ⟨.hbm, 125, rfl⟩
abbrev main_cst_11 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  shapeCasts_S8x1x20000_S8x20000 : S8x1x20000.ShapeCasts S8x20000
  slices_S8x20000x2_S8x20000x1_0_0_0 : S8x20000x2.Slices ![0, 0, 0] S8x20000x1
  shapeCasts_S8x20000x1_S8x20000 : S8x20000x1.ShapeCasts S8x20000
  slices_S8x20000x2_S8x20000x1_0_0_1 : S8x20000x2.Slices ![0, 0, 1] S8x20000x1
  bcast_S8x20000_S8x20000x1_0_1 : S8x20000.BroadcastsInDim S8x20000x1 (![0, 1] : Fin 2 → Fin S8x20000x1.rank)
  concatenates_S8x20000x1_S8x20000x1_S8x20000x1_S8x20000x3_d2 : Shape.Concatenates [S8x20000x1, S8x20000x1, S8x20000x1] S8x20000x3 2
  shapeCasts_S8x20000x3_S160000x3 : S8x20000x3.ShapeCasts S160000x3
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x2x320000_0_1_2 : S8x1x1.BroadcastsInDim S8x2x320000 (![0, 1, 2] : Fin 3 → Fin S8x2x320000.rank)
  shapeCasts_S8x2x320000_S2x2560000 : S8x2x320000.ShapeCasts S2x2560000
  slices_S2x2560000_S1x2560000_0_0 : S2x2560000.Slices ![0, 0] S1x2560000
  shapeCasts_S1x2560000_S2560000 : S1x2560000.ShapeCasts S2560000
  slices_S2x2560000_S1x2560000_1_0 : S2x2560000.Slices ![1, 0] S1x2560000
  bcast_S_S160000x3 : S_.BroadcastsInDim S160000x3 (![] : Fin 0 → Fin S160000x3.rank)
  bcast_S_S2560000 : S_.BroadcastsInDim S2560000 (![] : Fin 0 → Fin S2560000.rank)
  bcast_S2560000_S2560000x1_0 : S2560000.BroadcastsInDim S2560000x1 (![0] : Fin 1 → Fin S2560000x1.rank)
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  bcast_S64_S1x64_1 : S64.BroadcastsInDim S1x64 (![1] : Fin 1 → Fin S1x64.rank)
  bcast_S1x64_S160000x64_0_1 : S1x64.BroadcastsInDim S160000x64 (![0, 1] : Fin 2 → Fin S160000x64.rank)
  bcast_S_S160000x64 : S_.BroadcastsInDim S160000x64 (![] : Fin 0 → Fin S160000x64.rank)
  shapeCasts_S160000x64_S8x20000x64 : S160000x64.ShapeCasts S8x20000x64
  reducesTo_S8x20000x64_S8x64_d1 : S8x20000x64.ReducesTo [1] S8x64
  h_S_ : 0 < S_.numel
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S20000_S1x20000_1 : S20000.BroadcastsInDim S1x20000 (![1] : Fin 1 → Fin S1x20000.rank)
  bcast_S1x20000_S8x20000_0_1 : S1x20000.BroadcastsInDim S8x20000 (![0, 1] : Fin 2 → Fin S8x20000.rank)
  bcast_S_S8x20000 : S_.BroadcastsInDim S8x20000 (![] : Fin 0 → Fin S8x20000.rank)
  gather_S160000x3_S2560000x1_S2560000x3_1_0_n_n_0_1_13_wf : GatherDims.WF S160000x3 S2560000x1 S2560000x3 [1] [0] [] [0] [] 1 ![1, 3]
  scatter_S160000x3_S2560000x1_S2560000x3_1_0_0_1_wf : ScatterDims.WF S160000x3 S2560000x1 S2560000x3 [1] [0] [0] 1
  dot_S160000x3_S3x128_S160000x128_1_0_0_1_n_n_wf : DotDims.WF S160000x3 S3x128 S160000x128 [1] [0] [0] [1] [] []
  dot_S160000x128_S128x64_S160000x64_1_0_0_1_n_n_wf : DotDims.WF S160000x128 S128x64 S160000x64 [1] [0] [0] [1] [] []
  gather_S160000x64_S2560000x1_S2560000x64_1_0_n_n_0_1_164_wf : GatherDims.WF S160000x64 S2560000x1 S2560000x64 [1] [0] [] [0] [] 1 ![1, 64]
  scatter_S160000x64_S2560000x1_S2560000x64_1_0_0_1_wf : ScatterDims.WF S160000x64 S2560000x1 S2560000x64 [1] [0] [0] 1
  dot_S160000x64_S64x128_S160000x128_1_0_0_1_n_n_wf : DotDims.WF S160000x64 S64x128 S160000x128 [1] [0] [0] [1] [] []
  dot_S8x64_S64x128_S8x128_1_0_0_1_n_n_wf : DotDims.WF S8x64 S64x128 S8x128 [1] [0] [0] [1] [] []
  dot_S8x128_S128x20000_S8x20000_1_0_0_1_n_n_wf : DotDims.WF S8x128 S128x20000 S8x20000 [1] [0] [0] [1] [] []

variable [Facts₀]

def gather_S160000x3_S2560000x1_S2560000x3_1_0_n_n_0_1_13 : GatherDims S160000x3 S2560000x1 S2560000x3 where
  offsetDims := [1]
  collapsedSliceDims := [0]
  operandBatchingDims := []
  startIndicesBatchingDims := []
  startIndexMap := [0]
  indexVectorDim := 1
  sliceSizes := ![1, 3]
  wf := gather_S160000x3_S2560000x1_S2560000x3_1_0_n_n_0_1_13_wf
def scatter_S160000x3_S2560000x1_S2560000x3_1_0_0_1 : ScatterDims S160000x3 S2560000x1 S2560000x3 where
  updateWindowDims := [1]
  insertedWindowDims := [0]
  scatterDimsToOperandDims := [0]
  indexVectorDim := 1
  wf := scatter_S160000x3_S2560000x1_S2560000x3_1_0_0_1_wf
def dot_S160000x3_S3x128_S160000x128_1_0_0_1_n_n : DotDims S160000x3 S3x128 S160000x128 where
  lhsContracting := [1]
  rhsContracting := [0]
  lhsNonContracting := [0]
  rhsNonContracting := [1]
  lhsBatch := []
  rhsBatch := []
  wf := dot_S160000x3_S3x128_S160000x128_1_0_0_1_n_n_wf
def dot_S160000x128_S128x64_S160000x64_1_0_0_1_n_n : DotDims S160000x128 S128x64 S160000x64 where
  lhsContracting := [1]
  rhsContracting := [0]
  lhsNonContracting := [0]
  rhsNonContracting := [1]
  lhsBatch := []
  rhsBatch := []
  wf := dot_S160000x128_S128x64_S160000x64_1_0_0_1_n_n_wf
def gather_S160000x64_S2560000x1_S2560000x64_1_0_n_n_0_1_164 : GatherDims S160000x64 S2560000x1 S2560000x64 where
  offsetDims := [1]
  collapsedSliceDims := [0]
  operandBatchingDims := []
  startIndicesBatchingDims := []
  startIndexMap := [0]
  indexVectorDim := 1
  sliceSizes := ![1, 64]
  wf := gather_S160000x64_S2560000x1_S2560000x64_1_0_n_n_0_1_164_wf
def scatter_S160000x64_S2560000x1_S2560000x64_1_0_0_1 : ScatterDims S160000x64 S2560000x1 S2560000x64 where
  updateWindowDims := [1]
  insertedWindowDims := [0]
  scatterDimsToOperandDims := [0]
  indexVectorDim := 1
  wf := scatter_S160000x64_S2560000x1_S2560000x64_1_0_0_1_wf
def dot_S160000x64_S64x128_S160000x128_1_0_0_1_n_n : DotDims S160000x64 S64x128 S160000x128 where
  lhsContracting := [1]
  rhsContracting := [0]
  lhsNonContracting := [0]
  rhsNonContracting := [1]
  lhsBatch := []
  rhsBatch := []
  wf := dot_S160000x64_S64x128_S160000x128_1_0_0_1_n_n_wf
def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf
def dot_S8x128_S128x20000_S8x20000_1_0_0_1_n_n : DotDims S8x128 S128x20000 S8x20000 where
  lhsContracting := [1]
  rhsContracting := [0]
  lhsNonContracting := [0]
  rhsNonContracting := [1]
  lhsBatch := []
  rhsBatch := []
  wf := dot_S8x128_S128x20000_S8x20000_1_0_0_1_n_n_wf

class Facts : Prop extends Facts₀ where

variable [Facts]
-- ==== Proof.LayerOneRegion.lean ====
/- The first graph-isomorphism layer's dense part: REGION 0 of @main, a grid of 20 points over the
   160000 rows of the node table in tiles of 8000 rows.
   At a point the body reads the tile x [8000,3] of node features, the tile agg [8000,3] of neighbour sums,
   and the whole of W1 [3,128], b1 [128], W2 [128,64], b2 [64], and stores

       relu (relu ((x + agg) · W1 + b1) · W2 + b2)          ([8000,64])

   into its output window's tile. The two tiled inputs move with the point; the weights and biases have a
   constant block index, so the pipeline fetches them at the first point only and the body finds them in
   place at every later one. This file gives, at the buffer contents V with which the region is entered,
   each window's block at a point, what the body leaves in the output staging buffer (the one store, as a
   canonical piece list over the six input blocks), the body's triple, the proof data of the pipeline,
   and the body obligation. -/
import proofs.«126217_j34187939676288_1_alg».proof.Proof.LaunchKernelIdeal
import proofs.«126217_j34187939676288_1_alg».proof.Proof.Gen.KernelIdeal.Skeleton
import proofs.«126217_j34187939676288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 8000 coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it: for the two tiled inputs and the
    output the 8000 rows of tile t, for the weights and biases the whole array at every t. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not, for any proof data
    whose array is V's and whose body leaves the block in place: where a window is not fetched its block index
    has not moved since the point before, whose block is then this point's. The six windows are uncut and
    never idle. -/

theorem layer_before_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem layer_before_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem layer_before_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem layer_before_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem layer_before_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem layer_before_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every buffer whole -/

abbrev rFeat : Rect S8000x3 := Rect.unit (s := S8000x3) ![0, 0] S8000x3.size inb_S8000x3_S8000x3_0_0
abbrev rW1 : Rect S3x128 := Rect.unit (s := S3x128) ![0, 0] S3x128.size inb_S3x128_S3x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rEmb : Rect S8000x64 := Rect.unit (s := S8000x64) ![0, 0] S8000x64.size inb_S8000x64_S8000x64_0_0

/-! ## What the body leaves in the output window's buffer -/

/-- The output staging buffer after the body, from the six input blocks: the one store, whole. -/
def out0 (x : Vec F S8000x3 .f32) (agg : Vec F S8000x3 .f32) (w1 : Vec F S3x128 .f32) (b1 : Vec F S128 .f32)
    (w2 : Vec F S128x64 .f32) (b2 : Vec F S64 .f32) : Vec F S8000x64 .f32 :=
  View.canon [⟨rEmb, k0_pay1 (View.ld x rFeat) (View.ld agg rFeat) (View.ld w1 rW1) (View.ld b1 rB1) (View.ld w2 rW2) (View.ld b2 rB2)⟩]

/-- The one store tiles the buffer (one tile, checked on the sizes), so it covers it. -/
theorem layer_cover (p0 : Vec F S8000x64 .f32) (y : S8000x64.Idx) :
    ∃ pc ∈ ([⟨rEmb, p0⟩] : List (View.Piece (Elt F) S8000x64 .f32)), y ∈ pc.1.set :=
  View.cover_of_tiled [⟨rEmb, p0⟩] S8000x64.size (by rfl) y

/-! ## The body's triple -/

set_option maxHeartbeats 1000000 in
/-- The body on whole staging memrefs, the six inputs at read contents and the output at anything, runs to the
    continuation holding the inputs as they were and the output at out0 of them. The body reads the output
    buffer once before the store (the spelling of a whole store); what it reads is not used. -/
theorem layer_kernel (c : Dev nD) (E : Set ℕ) (i : grid0.Coords)
    (arg1 : Memref sig .tc .vmem S8000x3 .f32) (harg1 : arg1.IsWhole)
    (arg2 : Memref sig .tc .vmem S8000x3 .f32) (harg2 : arg2.IsWhole)
    (arg3 : Memref sig .tc .vmem S3x128 .f32) (harg3 : arg3.IsWhole)
    (arg4 : Memref sig .tc .vmem S128 .f32) (harg4 : arg4.IsWhole)
    (arg5 : Memref sig .tc .vmem S128x64 .f32) (harg5 : arg5.IsWhole)
    (arg6 : Memref sig .tc .vmem S64 .f32) (harg6 : arg6.IsWhole)
    (arg7 : Memref sig .tc .vmem S8000x64 .f32) (harg7 : arg7.IsWhole)
    (x : Vec F S8000x3 .f32) (agg : Vec F S8000x3 .f32) (w1 : Vec F S3x128 .f32) (b1 : Vec F S128 .f32)
    (w2 : Vec F S128x64 .f32) (b2 : Vec F S64 .f32)
    (K : PUnit → sProp 𝕄) :
    iprop(owns (c : Thread nD τ) arg1 fullShare x ∗ owns (c : Thread nD τ) arg2 fullShare agg ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare x ∗ owns (c : Thread nD τ) arg2 fullShare agg ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (out0 x agg w1 b1 w2 b2)) -∗ K ⟨⟩))
      ⊢ wp frame (wpE (defs₀ (F := F)) Variants.none c none) E
          (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (layer_cover _)

/-! ## The pipeline's proof data -/

/-- The proof data of the layer's pipeline on core c: the arrays as the region finds them; after the body at
    point t each input's buffer at its block and the output's at out0 of the six input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => out0 (blk0 V c 0 t) (blk0 V c 1 t) (blk0 V c 2 t) (blk0 V c 3 t) (blk0 V c 4 t) (blk0 V c 5 t)
  Φ _ := Pipeline.ΦA spec0 c
  q _ := fullShare
  owed _ := 0

/-- The proof data's arrays are the region-entry contents. -/
theorem dat0_A (c : Dev nD) (w : Fin cfg0.W) : (dat0 V c).A w = V c (Pipeline.arrRef spec0 w) := by
  dsimp only [dat0]

/-- What the body leaves, window by window. -/
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) : (dat0 V c).after 4 t = blk0 V c 4 t := by dsimp only [dat0]
theorem dat0_after_5 (c : Dev nD) (t : Fin cfg0.N) : (dat0 V c).after 5 t = blk0 V c 5 t := by dsimp only [dat0]
theorem dat0_after_6 (c : Dev nD) (t : Fin cfg0.N) :
    (dat0 V c).after 6 t = out0 (blk0 V c 0 t) (blk0 V c 1 t) (blk0 V c 2 t) (blk0 V c 3 t) (blk0 V c 4 t) (blk0 V c 5 t) := by dsimp only [dat0]

/-- Each input's staging buffer holds its block at every point, fetched there or not. -/
theorem dat0_before_0 (c : Dev nD) (t : Fin cfg0.N) (d) : (dat0 V c).before 0 t d = blk0 V c 0 t :=
  layer_before_0_of V (dat0 V c) (dat0_A V c 0) (dat0_after_0 V c) t d
theorem dat0_before_1 (c : Dev nD) (t : Fin cfg0.N) (d) : (dat0 V c).before 1 t d = blk0 V c 1 t :=
  layer_before_1_of V (dat0 V c) (dat0_A V c 1) (dat0_after_1 V c) t d
theorem dat0_before_2 (c : Dev nD) (t : Fin cfg0.N) (d) : (dat0 V c).before 2 t d = blk0 V c 2 t :=
  layer_before_2_of V (dat0 V c) (dat0_A V c 2) (dat0_after_2 V c) t d
theorem dat0_before_3 (c : Dev nD) (t : Fin cfg0.N) (d) : (dat0 V c).before 3 t d = blk0 V c 3 t :=
  layer_before_3_of V (dat0 V c) (dat0_A V c 3) (dat0_after_3 V c) t d
theorem dat0_before_4 (c : Dev nD) (t : Fin cfg0.N) (d) : (dat0 V c).before 4 t d = blk0 V c 4 t :=
  layer_before_4_of V (dat0 V c) (dat0_A V c 4) (dat0_after_4 V c) t d
theorem dat0_before_5 (c : Dev nD) (t : Fin cfg0.N) (d) : (dat0 V c).before 5 t d = blk0 V c 5 t :=
  layer_before_5_of V (dat0 V c) (dat0_A V c 5) (dat0_after_5 V c) t d

/-! ## The body obligation, at a generic point -/

/-- What the body is called with at point t, the windows one by one, -/
def layerPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def layerPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debt pass through unread. -/
theorem layer_body (c : Dev nD) (t : Fin cfg0.N) :
    layerPre V c t ⊢ wp frame (wpE (defs₀ (F := F)) Variants.none c none) Set.univ (bodyAt0 t) (fun _ => layerPost V c t) := by
  unfold layerPre layerPost bodyAt0
  simp only [dat0_before_0, dat0_before_1, dat0_before_2, dat0_before_3, dat0_before_4, dat0_before_5]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5, dat0_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_kernel c Set.univ _ _ _ _ _ _ _ _ _ _ _ _ _ _ _
    (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact layer_body V c t

end Cert.KernelIdeal.Hand

end
-- ==== Proof.PoolRegion.lean ====
/-
  REGION 1 of @main — the pooled MLP over twenty node tiles of 1000 — at the TensorCore buffer contents `V` found when
  the region is entered: the proof data of its pipeline and its body obligation.

  The body keeps an [8,64] accumulator across the grid points. At the first point the accumulator is zeroed; at every
  point the tile's rows, relu(relu((x + agg)·W1 + b1)·W2 + b2) summed over the tile's 1000 nodes, are added to it; at
  the last point it is copied into the output window's buffer, which is written back there and only there. So the
  accumulator after the first n points is `acc1 c n`: zero for n = 0, and after point n the payload
  `k1_pay1 (k1_pay3 (the six input blocks at n) (acc1 c n))`; the [8,64] output array ends at `acc1 c 20`.

  The body is run once per case of its two conditionals (first point / a point between / last point), each case a
  triple over whole staging memrefs with its post-state spelt through the payloads; the invariant between points holds
  the accumulator at `acc1 c n` and every other scoped buffer at some contents.
-/
import proofs.«126217_j34187939676288_1_alg».proof.Proof.LaunchKernelIdeal
import proofs.«126217_j34187939676288_1_alg».proof.Proof.Gen.KernelIdeal.Skeleton
import proofs.«126217_j34187939676288_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The first conditional of the body: the grid coordinate is zero. It holds at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- The second conditional: the grid coordinate is 19. It holds at the last point only. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Loads and stores through a whole staging buffer -/

private theorem zeros1 : (![0] : Fin 1 → Nat) = fun _ => 0 := funext fun a => by fin_cases a <;> rfl
private theorem zeros2 : (![0, 0] : Fin 2 → Nat) = fun _ => 0 := funext fun a => by fin_cases a <;> rfl
private theorem zeros3 : (![0, 0, 0] : Fin 3 → Nat) = fun _ => 0 := funext fun a => by fin_cases a <;> rfl

/-- A load of the whole shape at zero offsets reads the buffer's contents as its view reads them. -/
private theorem readAt_unit_zero {sg : RefSig} {κ : Kind} {sp : Space} {S : Shape} {e : EltTy} {Val : EltTy → Type}
    (v : View sg κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f (Rect.unit off S.size inb)).trans (View.ld_unit_zero h inb _)

/-- One store of the whole shape at zero offsets, last, leaves its payload, whatever was stored before. -/
private theorem read_writes_unit_zero {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

/-! ## The body's triple, case by case -/

set_option maxHeartbeats 1000000 in
/-- The body at the first point: the accumulator, whatever it held, is zeroed, then the tile's pooled rows are added. -/
theorem sound_kernel1_A (c : Dev nD) (E : Set ℕ) (i : grid1.Coords)
    (arg1 : Memref sig .tc .vmem S8x1000x64 .f32) (harg1 : arg1.IsWhole) (arg2 : Memref sig .tc .vmem S8x1000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S8x64 .f32) (harg7 : arg7.IsWhole) (arg8 : Memref sig .tc .vmem S8x64 .f32) (harg8 : arg8.IsWhole)
    (hc0 : cond1_0 i) (hc1 : ¬cond1_1 i)
    (x0 : Vec F S8x1000x64 .f32) (x1 : Vec F S8x1000x64 .f32) (x2 : Vec F S64x128 .f32) (x3 : Vec F S128 .f32)
    (x4 : Vec F S128x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg8 fullShare (k1_pay1 (k1_pay3 x0 x1 x2 x3 x4 x5 k1_pay2))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  rw [read_writes_unit_zero (S := S8x64) _ zeros2]
  sl_unfold_run_names
  simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2, View.readCov_unit_zero (S := S8x64) _ zeros2]

set_option maxHeartbeats 1000000 in
/-- The body at a point that is neither the first nor the last: it adds the tile's pooled rows to the accumulator. -/
theorem sound_kernel1_B (c : Dev nD) (E : Set ℕ) (i : grid1.Coords)
    (arg1 : Memref sig .tc .vmem S8x1000x64 .f32) (harg1 : arg1.IsWhole) (arg2 : Memref sig .tc .vmem S8x1000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S8x64 .f32) (harg7 : arg7.IsWhole) (arg8 : Memref sig .tc .vmem S8x64 .f32) (harg8 : arg8.IsWhole)
    (hc0 : ¬cond1_0 i) (hc1 : ¬cond1_1 i)
    (x0 : Vec F S8x1000x64 .f32) (x1 : Vec F S8x1000x64 .f32) (x2 : Vec F S64x128 .f32) (x3 : Vec F S128 .f32)
    (x4 : Vec F S128x64 .f32) (x5 : Vec F S64 .f32) (xs : Vec F S8x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg8 fullShare (k1_pay1 (k1_pay3 x0 x1 x2 x3 x4 x5 xs))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  rw [read_writes_unit_zero (S := S8x64) _ zeros2]
  simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2]

set_option maxHeartbeats 1000000 in
/-- The body at the last point: the tile's pooled rows are added to the accumulator, which is then copied to the
    output window's buffer, whatever that held. -/
theorem sound_kernel1_C (c : Dev nD) (E : Set ℕ) (i : grid1.Coords)
    (arg1 : Memref sig .tc .vmem S8x1000x64 .f32) (harg1 : arg1.IsWhole) (arg2 : Memref sig .tc .vmem S8x1000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S8x64 .f32) (harg7 : arg7.IsWhole) (arg8 : Memref sig .tc .vmem S8x64 .f32) (harg8 : arg8.IsWhole)
    (hc0 : ¬cond1_0 i) (hc1 : cond1_1 i)
    (x0 : Vec F S8x1000x64 .f32) (x1 : Vec F S8x1000x64 .f32) (x2 : Vec F S64x128 .f32) (x3 : Vec F S128 .f32)
    (x4 : Vec F S128x64 .f32) (x5 : Vec F S64 .f32) (xs : Vec F S8x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay1 (k1_pay3 x0 x1 x2 x3 x4 x5 xs))
            ∗ owns (c : Thread nD τ) arg8 fullShare (k1_pay1 (k1_pay3 x0 x1 x2 x3 x4 x5 xs))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    rw [read_writes_unit_zero (S := S8x64) _ zeros2]
    sl_unfold_run_names
    simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2, View.readCov_unit_zero (S := S8x64) _ zeros2]
  iexists _; isplitr
  swap; · iexact HS
  ipureintro
  sl_unfold_run_names
  rw [read_writes_unit_zero (S := S8x64) _ zeros2]
  simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2, View.readCov_unit_zero (S := S8x64) _ zeros2]

/-! ## The scoped buffers the region does not stage -/

/-- The accumulator: a whole scoped buffer of the kernel's own, passed to the body beside the windows. -/
abbrev scM1 : Memref sig .tc .vmem S8x64 .f32 := Memref.whole cc1_scratch0

/-- The core's scoped buffers that are neither a staging buffer of this region nor its accumulator, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f))

/-- The scoped rest of the region is its accumulator at some contents and the others. -/
theorem scopedRest1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ others1 (F := F) c) := by
  rw [scopedRest1_eq]; unfold others1; simp only [scM1, owns_whole]
  iintro ⟨A0, A1, A2, A3, A4, A5, A6, A7, A8, A9, HS, B0, B1, B2, B3, B4, B5⟩
  isplitl [HS]; · iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [B0]; · iexact B0
  isplitl [B1]; · iexact B1
  isplitl [B2]; · iexact B2
  isplitl [B3]; · iexact B3
  isplitl [B4]; · iexact B4
  iexact B5

theorem scopedRest1_join (c : Dev nD) :
    iprop((∃ d, owns (c : Thread nD τ) scM1 fullShare d) ∗ others1 (F := F) c)
      ⊢ (Pipeline.scopedRest (Ix := Unit) (Name := ℕ) (U := UR sig nD τ) (Lvl := ℕ) (Val := Elt F) spec1 c : sProp 𝕄) := by
  rw [scopedRest1_eq]; unfold others1; simp only [scM1, owns_whole]
  iintro ⟨HS, A0, A1, A2, A3, A4, A5, A6, A7, A8, A9, B0, B1, B2, B3, B4, B5⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [HS]; · iexact HS
  isplitl [B0]; · iexact B0
  isplitl [B1]; · iexact B1
  isplitl [B2]; · iexact B2
  isplitl [B3]; · iexact B3
  isplitl [B4]; · iexact B4
  iexact B5

section Region

-- the TensorCore's buffer contents when the region is entered
variable (V : (c : Dev nD) → (b : Ref sig .tc) → Buf (Elt F) ((c : Thread nD τ).loc b))

/-! ## The windows' blocks and the accumulator -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the first `n` points: zero before the first (what the first point resets it to), and after
    point `n` what that point's tile adds to what it held. -/
def acc1 (c : Dev nD) : ℕ → Vec F S8x64 .f32
  | 0 => k1_pay2
  | n + 1 =>
    if h : n < cfg1.N then
      k1_pay1 (k1_pay3 (blk1 V c 0 ⟨n, h⟩) (blk1 V c 1 ⟨n, h⟩) (blk1 V c 2 ⟨n, h⟩) (blk1 V c 3 ⟨n, h⟩) (blk1 V c 4 ⟨n, h⟩) (blk1 V c 5 ⟨n, h⟩) (acc1 c n))
    else acc1 c n

theorem acc1_zero (c : Dev nD) : acc1 V c 0 = k1_pay2 := rfl

/-- One step of the accumulation, at a point of the grid. -/
theorem acc1_succ (c : Dev nD) (t : Fin cfg1.N) :
    acc1 V c (t.val + 1) = k1_pay1 (k1_pay3 (blk1 V c 0 t) (blk1 V c 1 t) (blk1 V c 2 t) (blk1 V c 3 t) (blk1 V c 4 t) (blk1 V c 5 t) (acc1 V c t.val)) := by
  obtain ⟨n, hn⟩ := t
  exact dif_pos hn

/-! ## The invariant between points -/

/-- Before the first point the scoped rest at some contents; after point `n` the accumulator at what the first `n + 1`
    points left in it, the other scoped buffers at some contents; the generator register at some state throughout. -/
def Phi1 (c : Dev nD) : ℕ → sProp 𝕄
  | 0 => iprop(Pipeline.scopedRest (Ix := Unit) (Name := ℕ) (U := UR sig nD τ) (Lvl := ℕ) (Val := Elt F) spec1 c ∗ ∃ r, prngReg c r)
  | n + 1 => iprop(owns (c : Thread nD τ) scM1 fullShare (acc1 V c (n + 1)) ∗ others1 (F := F) c ∗ ∃ r, prngReg c r)

theorem Phi1_zero (c : Dev nD) (n : ℕ) (hz : n = 0) :
    Phi1 V c n = iprop(Pipeline.scopedRest (Ix := Unit) (Name := ℕ) (U := UR sig nD τ) (Lvl := ℕ) (Val := Elt F) spec1 c ∗ ∃ r, prngReg c r) := by
  subst hz; rfl

theorem Phi1_pos (c : Dev nD) (n : ℕ) (hz : n ≠ 0) :
    Phi1 V c n = iprop(owns (c : Thread nD τ) scM1 fullShare (acc1 V c n) ∗ others1 (F := F) c ∗ ∃ r, prngReg c r) := by
  cases n with
  | zero => exact absurd rfl hz
  | succ n => rfl

/-! ## The proof data -/

/-- The proof data of the region on core `c`: the arrays as the region finds them; after the body at point `t` each
    input's buffer at its block, the output's at the accumulator after that point (consulted at the last point only:
    at the others the window is idle); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => acc1 V c (t.val + 1)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = acc1 V c (t.val + 1) := by dsimp only [dat1]

/-- Each input's current staging buffer holds its block at every point, fetched there or not: an unfetched window's
    block index has not moved, and the body leaves the block in place. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]; try rfl) t d).trans
    (by unfold Dat.fetched Dat.blockOf blk1; rw [A_eq1]; try rfl)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Off the last point nothing is stored into the output window: it is idle there, and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point it is stored into. -/
theorem liveAt1_6 : ∀ t : Fin cfg1.N, cond1_1 (grid1.coords t) → cfg1.idle 6 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks. At the first point the invariant hands the body the
    accumulator at anything and the body zeroes it; at a later point it hands it at what the point before left. The
    body returns it at this point's contents. Off the last point the output window's buffer goes through untouched;
    at the last point it receives the accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [Phi1_pos V c (t.val + 1) (Nat.succ_ne_zero _), acc1_succ V c t]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 20 := lt_of_lt_of_eq t.isLt (show cfg1.N = 20 from N_1)
  by_cases h0 : t.val % 20 = 0
  · -- the first point
    have hz : t.val = 0 := by omega
    have h1 : ¬t.val % 20 = 19 := by omega
    have hc1 : ¬cond1_1 (grid1.coords t) := fun h => h1 ((hcond1_1 t).mp h)
    rw [Dat.leavesExact_idle (dat1 V c) 6 t (idleAt1_6 t hc1) (noFlush1_6 t hc1)]
    rw [Phi1_zero V c _ hz, show acc1 V c t.val = k1_pay2 from by rw [hz]; rfl]
    iintro ⟨⟨Hrest, Hg⟩, Ho, ⟨%d0, H0⟩, ⟨%d1, H1⟩, ⟨%d2, H2⟩, ⟨%d3, H3⟩, ⟨%d4, H4⟩, ⟨%d5, H5⟩, ⟨%d6, H6⟩⟩
    ihave Hsp := (scopedRest1_split (F := F) c) $$ Hrest
    icases Hsp with ⟨HS, Hoth⟩
    iapply (sound_kernel1_A c Set.univ (grid1.coords t) _ _ _ _ _ _ _ _ _ _ _ _ _ _ _ _ ((hcond1_0 t).mpr h0) hc1 (blk1 V c 0 t) (blk1 V c 1 t) (blk1 V c 2 t) (blk1 V c 3 t) (blk1 V c 4 t) (blk1 V c 5 t) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hz : t.val ≠ 0 := by omega
    have hc0 : ¬cond1_0 (grid1.coords t) := fun h => h0 ((hcond1_0 t).mp h)
    rw [Phi1_pos V c _ hz]
    by_cases h1 : t.val % 20 = 19
    · -- the last point
      have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6, acc1_succ V c t]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ _ _ hc0 hc1 (blk1 V c 0 t) (blk1 V c 1 t) (blk1 V c 2 t) (blk1 V c 3 t) (blk1 V c 4 t) (blk1 V c 5 t) (acc1 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point between
      have hc1 : ¬cond1_1 (grid1.coords t) := fun h => h1 ((hcond1_1 t).mp h)
      rw [Dat.leavesExact_idle (dat1 V c) 6 t (idleAt1_6 t hc1) (noFlush1_6 t hc1)]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ _ _ hc0 hc1 (blk1 V c 0 t) (blk1 V c 1 t) (blk1 V c 2 t) (blk1 V c 3 t) (blk1 V c 4 t) (blk1 V c 5 t) (acc1 V c t.val) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the region is entered with — the generator register and the scoped rest — is the invariant before the first point. -/
theorem dat1_in (c : Dev nD) :
    (iprop((∃ r, prngReg c r) ∗ Pipeline.scopedRest (Ix := Unit) (Name := ℕ) (U := UR sig nD τ) (Lvl := ℕ) (Val := Elt F) spec1 c) : sProp 𝕄) ⊢ (dat1 V c).Φ 0 := by
  rw [show (dat1 V c).Φ 0 = Phi1 V c 0 from rfl, Phi1_zero V c 0 rfl]
  iintro ⟨Hp, Hr⟩
  isplitl [Hr]; · iexact Hr
  iexact Hp

/-- After the last point the invariant gives them back: the accumulator's named contents are forgotten. -/
theorem dat1_out (c : Dev nD) :
    (dat1 V c).Φ (Fin.last cfg1.N) ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = Phi1 V c (Fin.last cfg1.N).val from rfl,
    Phi1_pos V c _ (by rw [Fin.val_last]; have : cfg1.N = 20 := N_1; omega)]
  iintro ⟨HS, Hoth, Hg⟩
  isplitl [Hg]; · iexact Hg
  iapply (scopedRest1_join (F := F) c)
  isplitl [HS]; · iexists _; iexact HS
  iexact Hoth

/-! ## The output array after the region -/

/-- The last point of the grid. -/
def t1_19 : Fin cfg1.N := ⟨19, lt_of_lt_of_eq (by decide) N_1.symm⟩

/-- The output window's one block is the whole [8,64] array (block index zero on both axes, the array's own sizes):
    contents read through it are themselves. -/
theorem read_blk1_6 (c : Dev nD) (G : Buf (Elt F) ((c : Thread nD τ).loc main_v54)) :
    ((cfg1.win 6).blk t1_19).view.read (Elt F) G = G := by
  have hoff : (fun a => win1_6.index t1_19 a * main_v54.ty.shape.size a) = fun _ => 0 :=
    funext fun a => by fin_cases a <;> decide
  exact Memref.read_access_unit_zero (Elt F) main_v54 hoff (fun a => by rw [congrFun hoff a]; simp) G

/-- The one write-back, at the last point, writes the accumulator after all twenty points. -/
theorem flushed1_6 (c : Dev nD) (t : Fin cfg1.N) (hf : (cfg1.win 6).flush t = true) :
    (dat1 V c).flushed 6 t = ((cfg1.win 6).blk t).view.read (Elt F) (acc1 V c 20 : Buf (Elt F) ((c : Thread nD τ).loc main_v54)) := by
  have hN : cfg1.N = 20 := N_1
  have h19 : t.val = 19 := by have := (flush1_6 t).mp hf; have := t.isLt; omega
  obtain rfl : t = t1_19 := Fin.ext h19
  rw [read_blk1_6 c]
  show (cfg1.win 6).cut (grid1.coords t1_19) ((dat1 V c).after 6 t1_19) = _
  rw [after1_6]
  rfl

/-- So the output array ends holding the accumulator after all twenty points: the last point's block covers it. -/
theorem dat1_result (c : Dev nD) :
    (dat1 V c).arrAt 6 cfg1.N = (acc1 V c 20 : Buf (Elt F) ((c : Thread nD τ).loc main_v54)) :=
  (dat1 V c).arrAt_eq_of_cover 6 (acc1 V c 20) (flushed1_6 V c) fun i =>
    ⟨t1_19, (flush1_6 t1_19).mpr rfl, by
      have hoff : ∀ a, win1_6.index t1_19 a * win1_6.size a = 0 := by decide +kernel
      have hsz : ∀ a, win1_6.xsize (grid1.coords t1_19) a = main_v54.ty.shape.size a := by decide +kernel
      show i ∈ ((View.whole main_v54).slice (win1_6.rect t1_19)).set
      rw [View.set_slice_whole, Rect.mem_set_unit]
      intro a
      show win1_6.index t1_19 a * win1_6.size a ≤ (i a : Nat)
        ∧ (i a : Nat) < win1_6.index t1_19 a * win1_6.size a + win1_6.xsize (grid1.coords t1_19) a
      rw [hoff a, hsz a, Nat.zero_add]
      exact ⟨Nat.zero_le _, (i a).isLt⟩⟩

end Region
end Cert.KernelIdeal.Hand
end
-- ==== Proof.HeadRegion.lean ====
/- The read-out head of the network: REGION 2 of @main, one grid point.
   From the pooled features p [8,64], the hidden weights Wm [64,128] and bias bm [128], the output
   weights Wo [128,20000] and bias bo [20000], the body stores

       sigmoid (relu (p · Wm + bm) · Wo + bo)          ([8,20000])

   into its output window. This file gives, at the buffer contents V with which the region is entered,
   each window's block, what the body leaves in the output staging buffer (the one store, as a
   canonical piece list over the input blocks), the body's triple, the proof data of the pipeline,
   and the body obligation. -/
import proofs.«126217_j34187939676288_1_alg».proof.Proof.LaunchKernelIdeal
import proofs.«126217_j34187939676288_1_alg».proof.Proof.Gen.KernelIdeal.Skeleton
import proofs.«126217_j34187939676288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 20000 coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, for any proof data whose array
    is V's and whose body leaves the block in place. The five windows are uncut and never idle. -/

theorem head_before_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem head_before_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem head_before_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem head_before_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem head_before_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every buffer whole -/

abbrev rPooled : Rect S8x64 := Rect.unit (s := S8x64) ![0, 0] S8x64.size inb_S8x64_S8x64_0_0
abbrev rHidW : Rect S64x128 := Rect.unit (s := S64x128) ![0, 0] S64x128.size inb_S64x128_S64x128_0_0
abbrev rHidB : Rect S128 := Rect.unit (s := S128) ![0] S128.size inb_S128_S128_0
abbrev rOutW : Rect S128x20000 := Rect.unit (s := S128x20000) ![0, 0] S128x20000.size inb_S128x20000_S128x20000_0_0
abbrev rOutB : Rect S20000 := Rect.unit (s := S20000) ![0] S20000.size inb_S20000_S20000_0
abbrev rHead : Rect S8x20000 := Rect.unit (s := S8x20000) ![0, 0] S8x20000.size inb_S8x20000_S8x20000_0_0

/-! ## What the body leaves in the output window's buffer -/

/-- The output staging buffer after the body, from the five input blocks: the one store, whole. -/
def out2 (p : Vec F S8x64 .f32) (wm : Vec F S64x128 .f32) (bm : Vec F S128 .f32) (wo : Vec F S128x20000 .f32) (bo : Vec F S20000 .f32) :
    Vec F S8x20000 .f32 :=
  View.canon [⟨rHead, k2_pay1 (View.ld p rPooled) (View.ld wm rHidW) (View.ld bm rHidB) (View.ld wo rOutW) (View.ld bo rOutB)⟩]

/-- The one store tiles the buffer (one tile, checked on the sizes), so it covers it. -/
theorem head_cover (p0 : Vec F S8x20000 .f32) (y : S8x20000.Idx) :
    ∃ pc ∈ ([⟨rHead, p0⟩] : List (View.Piece (Elt F) S8x20000 .f32)), y ∈ pc.1.set :=
  View.cover_of_tiled [⟨rHead, p0⟩] S8x20000.size (by rfl) y

/-! ## The body's triple -/

set_option maxHeartbeats 1000000 in
/-- The body on whole staging memrefs, the five inputs at read contents and the output at anything, runs to the
    continuation holding the inputs as they were and the output at out2 of them. The body reads the output
    buffer once before the store (the spelling of a whole store); what it reads is not used. -/
theorem head_kernel (c : Dev nD) (E : Set ℕ) (i : grid2.Coords)
    (arg1 : Memref sig .tc .vmem S8x64 .f32) (harg1 : arg1.IsWhole)
    (arg2 : Memref sig .tc .vmem S64x128 .f32) (harg2 : arg2.IsWhole)
    (arg3 : Memref sig .tc .vmem S128 .f32) (harg3 : arg3.IsWhole)
    (arg4 : Memref sig .tc .vmem S128x20000 .f32) (harg4 : arg4.IsWhole)
    (arg5 : Memref sig .tc .vmem S20000 .f32) (harg5 : arg5.IsWhole)
    (arg6 : Memref sig .tc .vmem S8x20000 .f32) (harg6 : arg6.IsWhole)
    (p : Vec F S8x64 .f32) (wm : Vec F S64x128 .f32) (bm : Vec F S128 .f32) (wo : Vec F S128x20000 .f32) (bo : Vec F S20000 .f32)
    (K : PUnit → sProp 𝕄) :
    iprop(owns (c : Thread nD τ) arg1 fullShare p ∗ owns (c : Thread nD τ) arg2 fullShare wm ∗ owns (c : Thread nD τ) arg3 fullShare bm
        ∗ owns (c : Thread nD τ) arg4 fullShare wo ∗ owns (c : Thread nD τ) arg5 fullShare bo ∗ (∃ d, owns (c : Thread nD τ) arg6 fullShare d)
        ∗ (iprop(owns (c : Thread nD τ) arg1 fullShare p ∗ owns (c : Thread nD τ) arg2 fullShare wm ∗ owns (c : Thread nD τ) arg3 fullShare bm
            ∗ owns (c : Thread nD τ) arg4 fullShare wo ∗ owns (c : Thread nD τ) arg5 fullShare bo
            ∗ owns (c : Thread nD τ) arg6 fullShare (out2 p wm bm wo bo)) -∗ K ⟨⟩))
      ⊢ wp frame (wpE (defs₀ (F := F)) Variants.none c none) E
          (cc2__final_kernel i arg1 harg1 arg2 harg2 arg3 harg3 arg4 harg4 arg5 harg5 arg6 harg6) K := by
  simp only [cc2__final_kernel_eq_skeleton]; unfold cc2__final_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (head_cover _)

/-! ## The pipeline's proof data -/

/-- The proof data of the head's pipeline on core c: the arrays as the region finds them; after the body each
    input's buffer at its block and the output's at out2 of the five input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => out2 (blk2 V c 0 t) (blk2 V c 1 t) (blk2 V c 2 t) (blk2 V c 3 t) (blk2 V c 4 t)
  Φ _ := Pipeline.ΦA spec2 c
  q _ := fullShare
  owed _ := 0

/-- The proof data's arrays are the region-entry contents. -/
theorem dat2_A (c : Dev nD) (w : Fin cfg2.W) : (dat2 V c).A w = V c (Pipeline.arrRef spec2 w) := by
  dsimp only [dat2]

/-- What the body leaves, window by window. -/
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) :
    (dat2 V c).after 5 t = out2 (blk2 V c 0 t) (blk2 V c 1 t) (blk2 V c 2 t) (blk2 V c 3 t) (blk2 V c 4 t) := by dsimp only [dat2]

/-- Each input's staging buffer holds its block at every point. -/
theorem dat2_before_0 (c : Dev nD) (t : Fin cfg2.N) (d) : (dat2 V c).before 0 t d = blk2 V c 0 t :=
  head_before_0_of V (dat2 V c) (dat2_A V c 0) (dat2_after_0 V c) t d
theorem dat2_before_1 (c : Dev nD) (t : Fin cfg2.N) (d) : (dat2 V c).before 1 t d = blk2 V c 1 t :=
  head_before_1_of V (dat2 V c) (dat2_A V c 1) (dat2_after_1 V c) t d
theorem dat2_before_2 (c : Dev nD) (t : Fin cfg2.N) (d) : (dat2 V c).before 2 t d = blk2 V c 2 t :=
  head_before_2_of V (dat2 V c) (dat2_A V c 2) (dat2_after_2 V c) t d
theorem dat2_before_3 (c : Dev nD) (t : Fin cfg2.N) (d) : (dat2 V c).before 3 t d = blk2 V c 3 t :=
  head_before_3_of V (dat2 V c) (dat2_A V c 3) (dat2_after_3 V c) t d
theorem dat2_before_4 (c : Dev nD) (t : Fin cfg2.N) (d) : (dat2 V c).before 4 t d = blk2 V c 4 t :=
  head_before_4_of V (dat2 V c) (dat2_A V c 4) (dat2_after_4 V c) t d

/-! ## The body obligation, at a generic point -/

/-- What the body is called with at point t, the windows one by one, -/
def headPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def headPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's debt pass through unread. -/
theorem head_body (c : Dev nD) (t : Fin cfg2.N) :
    headPre V c t ⊢ wp frame (wpE (defs₀ (F := F)) Variants.none c none) Set.univ (bodyAt2 t) (fun _ => headPost V c t) := by
  unfold headPre headPost bodyAt2
  simp only [dat2_before_0, dat2_before_1, dat2_before_2, dat2_before_3, dat2_before_4]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5]
  iintro ⟨HΦ, Ho, ⟨%d0, H0⟩, ⟨%d1, H1⟩, ⟨%d2, H2⟩, ⟨%d3, H3⟩, ⟨%d4, H4⟩, ⟨%d5, H5⟩⟩
  iapply (head_kernel c Set.univ _ _ _ _ _ _ _ _ _ _ _ _ _
    (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact head_body V c t

end Cert.KernelIdeal.Hand

end
-- ==== Proof.MainRun.lean ====
/-
  The run of @main as five items — host operations, the first GIN layer's region, host operations, the pooled second
  layer's region, the output head's region — with the contents of every unscoped buffer named at each boundary.

  The contents are a fold from the launch memory: a stretch of host operations applies its operations' functions
  (`StableHlo.after`); a region leaves each of its windows' arrays at what its write-backs make of it (the proof
  data's `arrAt … N`: an input's array as entered, an output's array at the blocks written back) and every other
  buffer as entered. Read at an argument the fold walks back to the launch memory, since no host operation and no
  region writes an argument; read at the result it is the head region's output array.
-/
import proofs.«126217_j34187939676288_1_alg».proof.Proof.LayerOneRegion
import proofs.«126217_j34187939676288_1_alg».proof.Proof.PoolRegion
import proofs.«126217_j34187939676288_1_alg».proof.Proof.HeadRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents of the buffers at each boundary -/

/-- Core `c`'s buffers at launch. -/
abbrev B0 (c : Dev nD) : Valuation τ sig (Elt F) := fun b => m (c, b)
/-- After the first stretch of host operations: the stacked features and the first aggregate are there. -/
abbrev B1 (c : Dev nD) : Valuation τ sig (Elt F) := StableHlo.after hostOps0 (B0 m c)
/-- The same, read at the TensorCore's references: what the first layer's region is entered with. -/
abbrev E1 : (c : Dev nD) → (b : Ref sig .tc) → Buf (Elt F) ((c : Thread nD τ).loc b) := fun c b => B1 m c b
/-- After the first layer's region. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second stretch of host operations: the second aggregate and the two reshaped operands. -/
abbrev B3 (c : Dev nD) : Valuation τ sig (Elt F) := StableHlo.after hostOps1 (B2 m c)
abbrev E3 : (c : Dev nD) → (b : Ref sig .tc) → Buf (Elt F) ((c : Thread nD τ).loc b) := fun c b => B3 m c b
/-- After the pooled layer's region. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
/-- After the head's region: the end. -/
def B5 (c : Dev nD) : Valuation τ sig (Elt F) :=
  Pipeline.withArrays spec2 c (B4 m c) fun w => (dat2 (E4 m) c).arrAt w cfg2.N
abbrev E5 : (c : Dev nD) → (b : Ref sig .tc) → Buf (Elt F) ((c : Thread nD τ).loc b) := fun c b => B5 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem B5_arr (c : Dev nD) (w : Fin cfg2.W) :
    B5 m c (Proc.devRef .tc (Pipeline.arrRef spec2 w)) = (dat2 (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb

/-- At a region's exit each of its arrays holds what the pipeline leaves, every other buffer what it held at entry. -/
theorem exit0 (c : Dev nD) (w : Fin cfg0.W) : (dat0 (E1 m) c).arrAt w cfg0.N = E2 m c (Pipeline.arrRef spec0 w) := (B2_arr m c w).symm
theorem rest0 (c : Dev nD) : ∀ b, b ∉ Finset.univ.image (Pipeline.arrRef spec0) → E2 m c b = E1 m c b :=
  fun b hb => B2_of_ne m c b fun w e => hb (Finset.mem_image.mpr ⟨w, Finset.mem_univ _, e⟩)
theorem exit1 (c : Dev nD) (w : Fin cfg1.W) : (dat1 (E3 m) c).arrAt w cfg1.N = E4 m c (Pipeline.arrRef spec1 w) := (B4_arr m c w).symm
theorem rest1 (c : Dev nD) : ∀ b, b ∉ Finset.univ.image (Pipeline.arrRef spec1) → E4 m c b = E3 m c b :=
  fun b hb => B4_of_ne m c b fun w e => hb (Finset.mem_image.mpr ⟨w, Finset.mem_univ _, e⟩)
theorem exit2 (c : Dev nD) (w : Fin cfg2.W) : (dat2 (E4 m) c).arrAt w cfg2.N = E5 m c (Pipeline.arrRef spec2 w) := (B5_arr m c w).symm
theorem rest2 (c : Dev nD) : ∀ b, b ∉ Finset.univ.image (Pipeline.arrRef spec2) → E5 m c b = E4 m c b :=
  fun b hb => B5_of_ne m c b fun w e => hb (Finset.mem_image.mpr ⟨w, Finset.mem_univ _, e⟩)

/-! ## The host operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B5 m c) ∗ ∃ r, prngReg c r)

/-! ## The regions as segments -/

set_option backward.isDefEq.respectTransparency.types false in
/-- The first layer's region between the buffers at `B1` and at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooled layer's region between the buffers at `B3` and at `B4`; its invariant carries the scratch accumulator,
    made at the entry from the scoped buffers and given back with them at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (dat1_in (E3 m) c)
    isplitl [Hp]; · iexact Hp
    iexact Hr
  hout c := by
    rw [Pipeline.ownSems0_none, show (pdats m 1 c).Φ (Fin.last _) = (dat1 (E3 m) c).Φ (Fin.last cfg1.N) from rfl]
    refine (dat1_out (E3 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head's region between the buffers at `B4` and at `B5`, the end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (exit2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .region (reg2 m) ]
theorem main_items (c : Dev nD) : main (F := F) c = Pipeline.Seg.run (items m) := (main_chain c).trans (by chain_rfl)

set_option backward.isDefEq.respectTransparency.types false in
/-- Every weakly fair execution of @main from memory `m` with zero counters terminates, and at the end every unscoped
    buffer of every core holds the folded contents `B5`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

end Cert.KernelIdeal.Hand

end
-- ==== Proof.ArgsKept.lean ====
/-
  What the items of @main leave unchanged. A region changes only its OUTPUT window's array: an input window's array is
  read, never written back, and a buffer that is no window of the region is not touched at all. A stretch of host
  operations changes only the references its operations write. So the fold of buffer contents, read at a buffer that no
  host operation writes and that is no region's output, walks back to the launch memory: in particular at every argument.
-/
import proofs.«126217_j34187939676288_1_alg».proof.Proof.MainRun
import proofs.«126217_j34187939676288_1_alg».proof.Proof.RegionsKernelIdeal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Every window of the first layer's region but its output is an input. -/
theorem inputs0 : ∀ w : Fin cfg0.W, Pipeline.arrRef spec0 w ≠ main_v36 → (cfg0.win w).isOut = false := by decide
theorem inputs1 : ∀ w : Fin cfg1.W, Pipeline.arrRef spec1 w ≠ main_v54 → (cfg1.win w).isOut = false := by decide
theorem inputs2 : ∀ w : Fin cfg2.W, Pipeline.arrRef spec2 w ≠ main_v55 → (cfg2.win w).isOut = false := by decide

/-- The first layer's region changes no buffer but its output `main_v36`. -/
theorem keep0 (c : Dev nD) (b : Ref sig .tc) (hb : b ≠ main_v36) :
    B2 m c (Proc.devRef .tc b) = B1 m c (Proc.devRef .tc b) := by
  by_cases h : ∃ w, Pipeline.arrRef spec0 w = b
  · obtain ⟨w, rfl⟩ := h
    rw [B2_arr, (dat0 (E1 m) c).arrAt_in w (inputs0 w hb), dat0_A]
  · exact B2_of_ne m c b fun w e => h ⟨w, e⟩
/-- The pooled layer's region changes no buffer but its output `main_v54`. -/
theorem keep1 (c : Dev nD) (b : Ref sig .tc) (hb : b ≠ main_v54) :
    B4 m c (Proc.devRef .tc b) = B3 m c (Proc.devRef .tc b) := by
  by_cases h : ∃ w, Pipeline.arrRef spec1 w = b
  · obtain ⟨w, rfl⟩ := h
    rw [B4_arr, (dat1 (E3 m) c).arrAt_in w (inputs1 w hb), A_eq1]
  · exact B4_of_ne m c b fun w e => h ⟨w, e⟩
/-- The head's region changes no buffer but its output `main_v55`. -/
theorem keep2 (c : Dev nD) (b : Ref sig .tc) (hb : b ≠ main_v55) :
    B5 m c (Proc.devRef .tc b) = B4 m c (Proc.devRef .tc b) := by
  by_cases h : ∃ w, Pipeline.arrRef spec2 w = b
  · obtain ⟨w, rfl⟩ := h
    rw [B5_arr, (dat2 (E4 m) c).arrAt_in w (inputs2 w hb), dat2_A]
  · exact B5_of_ne m c b fun w e => h ⟨w, e⟩

/-- A buffer the first stretch does not write is, at the first region's entry, as launched. -/
theorem asLaunched1 (c : Dev nD) (b : Ref sig .tc) (h0 : b ∉ hostOps0_W) :
    B1 m c (Proc.devRef .tc b) = m ((c : Thread nD τ).loc b) :=
  StableHlo.after_of_writes_sub hostOps0 _ hostOps0_writes h0
/-- … and still so at the pooled region's entry, if it is neither the first region's output nor written by the second stretch. -/
theorem asLaunched3 (c : Dev nD) (b : Ref sig .tc) (h0 : b ∉ hostOps0_W) (h36 : b ≠ main_v36) (h1 : b ∉ hostOps1_W) :
    B3 m c (Proc.devRef .tc b) = m ((c : Thread nD τ).loc b) :=
  (StableHlo.after_of_writes_sub hostOps1 _ hostOps1_writes h1).trans ((keep0 m c b h36).trans (asLaunched1 m c b h0))
theorem asLaunched4 (c : Dev nD) (b : Ref sig .tc) (h0 : b ∉ hostOps0_W) (h36 : b ≠ main_v36) (h1 : b ∉ hostOps1_W) (h54 : b ≠ main_v54) :
    B4 m c (Proc.devRef .tc b) = m ((c : Thread nD τ).loc b) :=
  (keep1 m c b h54).trans (asLaunched3 m c b h0 h36 h1)
/-- At the end a buffer no host operation writes and no region outputs is as launched. -/
theorem asLaunched5 (c : Dev nD) (b : Ref sig .tc) (h0 : b ∉ hostOps0_W) (h36 : b ≠ main_v36) (h1 : b ∉ hostOps1_W) (h54 : b ≠ main_v54) (h55 : b ≠ main_v55) :
    B5 m c (Proc.devRef .tc b) = m ((c : Thread nD τ).loc b) :=
  (keep2 m c b h55).trans (asLaunched4 m c b h0 h36 h1 h54)

/-- The result buffer at the end is the head region's output array. -/
theorem result_eq (c : Dev nD) : B5 m c (Proc.devRef .tc main_v55) = (dat2 (E4 m) c).arrAt 5 cfg2.N := B5_arr m c 5
/-- The pooled features the head is entered with are the pooled region's output array. -/
theorem pooled_eq (c : Dev nD) : B4 m c (Proc.devRef .tc main_v54) = (dat1 (E3 m) c).arrAt 6 cfg1.N := B4_arr m c 6
/-- The first layer's output the second stretch reads is the first region's output array. -/
theorem layerOut_eq (c : Dev nD) : B2 m c (Proc.devRef .tc main_v36) = (dat0 (E1 m) c).arrAt 6 cfg0.N := B2_arr m c 6

end Cert.KernelIdeal.Hand

end
-- ==== Proof.FrameAll.lean ====
/-
  The frame of the kernel's program: every weakly fair execution of @main terminates without a fault and every argument
  array ends holding its launch contents — the run of the five items, read at the arguments, none of which any host
  operation writes or any region outputs. Stated at any float instance; also with the result buffer named, for the
  value claim.
-/
import proofs.«126217_j34187939676288_1_alg».proof.Proof.ArgsKept

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A final memory that holds the folded contents at every unscoped buffer holds, at a buffer no host operation writes
    and no region outputs, its launch contents. -/
theorem read_end (c : Dev nD) (s : MemSt nD τ sig (Elt F))
    (h : ∀ b ∈ Pipeline.ucRefs τ sig, s.mem (((c : Thread nD τ)).1, b) = B5 m c b)
    (b : Ref sig .tc) (hu : ¬ (Proc.devRef .tc b : DevRef τ sig).isScoped)
    (h0 : b ∉ hostOps0_W) (h36 : b ≠ main_v36) (h1 : b ∉ hostOps1_W) (h54 : b ≠ main_v54) (h55 : b ≠ main_v55) :
    s.mem ((c.tc : Thread nD τ).loc b) = m ((c.tc : Thread nD τ).loc b) :=
  (h _ (mem_uc b hu)).trans (asLaunched5 m c b h0 h36 h1 h54 h55)

/-- The run with the result buffer named: it ends at the head region's output array, and every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v55) = B5 m c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v55 (by decide)),
      read_end m c r.2 (h c) main_arg0 (by decide) (by decide) (by decide) (by decide) (by decide) (by decide),
      read_end m c r.2 (h c) main_arg1 (by decide) (by decide) (by decide) (by decide) (by decide) (by decide),
      read_end m c r.2 (h c) main_arg2 (by decide) (by decide) (by decide) (by decide) (by decide) (by decide),
      read_end m c r.2 (h c) main_arg3 (by decide) (by decide) (by decide) (by decide) (by decide) (by decide),
      read_end m c r.2 (h c) main_arg4 (by decide) (by decide) (by decide) (by decide) (by decide) (by decide),
      read_end m c r.2 (h c) main_arg5 (by decide) (by decide) (by decide) (by decide) (by decide) (by decide),
      read_end m c r.2 (h c) main_arg6 (by decide) (by decide) (by decide) (by decide) (by decide) (by decide),
      read_end m c r.2 (h c) main_arg7 (by decide) (by decide) (by decide) (by decide) (by decide) (by decide),
      read_end m c r.2 (h c) main_arg8 (by decide) (by decide) (by decide) (by decide) (by decide) (by decide),
      read_end m c r.2 (h c) main_arg9 (by decide) (by decide) (by decide) (by decide) (by decide) (by decide),
      read_end m c r.2 (h c) main_arg10 (by decide) (by decide) (by decide) (by decide) (by decide) (by decide),
      read_end m c r.2 (h c) main_arg11 (by decide) (by decide) (by decide) (by decide) (by decide) (by decide),
      read_end m c r.2 (h c) main_arg12 (by decide) (by decide) (by decide) (by decide) (by decide) (by decide),
      read_end m c r.2 (h c) main_arg13 (by decide) (by decide) (by decide) (by decide) (by decide) (by decide),
      read_end m c r.2 (h c) main_arg14 (by decide) (by decide) (by decide) (by decide) (by decide) (by decide)⟩)
    (run_all m ρ)

/-- The frame: every argument ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_result m ρ)

end Cert.KernelIdeal.Hand

end
-- ==== Proof.LayerOneRegionBits.lean ====
/- The first graph-isomorphism layer's dense part: REGION 0 of @main, a grid of 20 points over the
   160000 rows of the node table in tiles of 8000 rows.
   At a point the body reads the tile x [8000,3] of node features, the tile agg [8000,3] of neighbour sums,
   and the whole of W1 [3,128], b1 [128], W2 [128,64], b2 [64], and stores

       relu (relu ((x + agg) · W1 + b1) · W2 + b2)          ([8000,64])

   into its output window's tile. The two tiled inputs move with the point; the weights and biases have a
   constant block index, so the pipeline fetches them at the first point only and the body finds them in
   place at every later one. This file gives, at the buffer contents V with which the region is entered,
   each window's block at a point, what the body leaves in the output staging buffer (the one store, as a
   canonical piece list over the six input blocks), the body's triple, the proof data of the pipeline,
   and the body obligation. -/
import proofs.«126217_j34187939676288_1_alg».proof.Proof.LaunchKernel
import proofs.«126217_j34187939676288_1_alg».proof.Proof.Gen.Kernel.Skeleton
import proofs.«126217_j34187939676288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 8000 coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it: for the two tiled inputs and the
    output the 8000 rows of tile t, for the weights and biases the whole array at every t. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not, for any proof data
    whose array is V's and whose body leaves the block in place: where a window is not fetched its block index
    has not moved since the point before, whose block is then this point's. The six windows are uncut and
    never idle. -/

theorem layer_before_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem layer_before_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem layer_before_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem layer_before_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem layer_before_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem layer_before_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every buffer whole -/

abbrev rFeat : Rect S8000x3 := Rect.unit (s := S8000x3) ![0, 0] S8000x3.size inb_S8000x3_S8000x3_0_0
abbrev rW1 : Rect S3x128 := Rect.unit (s := S3x128) ![0, 0] S3x128.size inb_S3x128_S3x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rEmb : Rect S8000x64 := Rect.unit (s := S8000x64) ![0, 0] S8000x64.size inb_S8000x64_S8000x64_0_0

/-! ## What the body leaves in the output window's buffer -/

/-- The output staging buffer after the body, from the six input blocks: the one store, whole. -/
def out0 (x : Vec F S8000x3 .f32) (agg : Vec F S8000x3 .f32) (w1 : Vec F S3x128 .f32) (b1 : Vec F S128 .f32)
    (w2 : Vec F S128x64 .f32) (b2 : Vec F S64 .f32) : Vec F S8000x64 .f32 :=
  View.canon [⟨rEmb, k0_pay1 (View.ld x rFeat) (View.ld agg rFeat) (View.ld w1 rW1) (View.ld b1 rB1) (View.ld w2 rW2) (View.ld b2 rB2)⟩]

/-- The one store tiles the buffer (one tile, checked on the sizes), so it covers it. -/
theorem layer_cover (p0 : Vec F S8000x64 .f32) (y : S8000x64.Idx) :
    ∃ pc ∈ ([⟨rEmb, p0⟩] : List (View.Piece (Elt F) S8000x64 .f32)), y ∈ pc.1.set :=
  View.cover_of_tiled [⟨rEmb, p0⟩] S8000x64.size (by rfl) y

/-! ## The body's triple -/

set_option maxHeartbeats 1000000 in
/-- The body on whole staging memrefs, the six inputs at read contents and the output at anything, runs to the
    continuation holding the inputs as they were and the output at out0 of them. The body reads the output
    buffer once before the store (the spelling of a whole store); what it reads is not used. -/
theorem layer_kernel (c : Dev nD) (E : Set ℕ) (i : grid0.Coords)
    (arg1 : Memref sig .tc .vmem S8000x3 .f32) (harg1 : arg1.IsWhole)
    (arg2 : Memref sig .tc .vmem S8000x3 .f32) (harg2 : arg2.IsWhole)
    (arg3 : Memref sig .tc .vmem S3x128 .f32) (harg3 : arg3.IsWhole)
    (arg4 : Memref sig .tc .vmem S128 .f32) (harg4 : arg4.IsWhole)
    (arg5 : Memref sig .tc .vmem S128x64 .f32) (harg5 : arg5.IsWhole)
    (arg6 : Memref sig .tc .vmem S64 .f32) (harg6 : arg6.IsWhole)
    (arg7 : Memref sig .tc .vmem S8000x64 .f32) (harg7 : arg7.IsWhole)
    (x : Vec F S8000x3 .f32) (agg : Vec F S8000x3 .f32) (w1 : Vec F S3x128 .f32) (b1 : Vec F S128 .f32)
    (w2 : Vec F S128x64 .f32) (b2 : Vec F S64 .f32)
    (K : PUnit → sProp 𝕄) :
    iprop(owns (c : Thread nD τ) arg1 fullShare x ∗ owns (c : Thread nD τ) arg2 fullShare agg ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare x ∗ owns (c : Thread nD τ) arg2 fullShare agg ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (out0 x agg w1 b1 w2 b2)) -∗ K ⟨⟩))
      ⊢ wp frame (wpE (defs₀ (F := F)) Variants.none c none) E
          (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (layer_cover _)

/-! ## The pipeline's proof data -/

/-- The proof data of the layer's pipeline on core c: the arrays as the region finds them; after the body at
    point t each input's buffer at its block and the output's at out0 of the six input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => out0 (blk0 V c 0 t) (blk0 V c 1 t) (blk0 V c 2 t) (blk0 V c 3 t) (blk0 V c 4 t) (blk0 V c 5 t)
  Φ _ := Pipeline.ΦA spec0 c
  q _ := fullShare
  owed _ := 0

/-- The proof data's arrays are the region-entry contents. -/
theorem dat0_A (c : Dev nD) (w : Fin cfg0.W) : (dat0 V c).A w = V c (Pipeline.arrRef spec0 w) := by
  dsimp only [dat0]

/-- What the body leaves, window by window. -/
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) : (dat0 V c).after 4 t = blk0 V c 4 t := by dsimp only [dat0]
theorem dat0_after_5 (c : Dev nD) (t : Fin cfg0.N) : (dat0 V c).after 5 t = blk0 V c 5 t := by dsimp only [dat0]
theorem dat0_after_6 (c : Dev nD) (t : Fin cfg0.N) :
    (dat0 V c).after 6 t = out0 (blk0 V c 0 t) (blk0 V c 1 t) (blk0 V c 2 t) (blk0 V c 3 t) (blk0 V c 4 t) (blk0 V c 5 t) := by dsimp only [dat0]

/-- Each input's staging buffer holds its block at every point, fetched there or not. -/
theorem dat0_before_0 (c : Dev nD) (t : Fin cfg0.N) (d) : (dat0 V c).before 0 t d = blk0 V c 0 t :=
  layer_before_0_of V (dat0 V c) (dat0_A V c 0) (dat0_after_0 V c) t d
theorem dat0_before_1 (c : Dev nD) (t : Fin cfg0.N) (d) : (dat0 V c).before 1 t d = blk0 V c 1 t :=
  layer_before_1_of V (dat0 V c) (dat0_A V c 1) (dat0_after_1 V c) t d
theorem dat0_before_2 (c : Dev nD) (t : Fin cfg0.N) (d) : (dat0 V c).before 2 t d = blk0 V c 2 t :=
  layer_before_2_of V (dat0 V c) (dat0_A V c 2) (dat0_after_2 V c) t d
theorem dat0_before_3 (c : Dev nD) (t : Fin cfg0.N) (d) : (dat0 V c).before 3 t d = blk0 V c 3 t :=
  layer_before_3_of V (dat0 V c) (dat0_A V c 3) (dat0_after_3 V c) t d
theorem dat0_before_4 (c : Dev nD) (t : Fin cfg0.N) (d) : (dat0 V c).before 4 t d = blk0 V c 4 t :=
  layer_before_4_of V (dat0 V c) (dat0_A V c 4) (dat0_after_4 V c) t d
theorem dat0_before_5 (c : Dev nD) (t : Fin cfg0.N) (d) : (dat0 V c).before 5 t d = blk0 V c 5 t :=
  layer_before_5_of V (dat0 V c) (dat0_A V c 5) (dat0_after_5 V c) t d

/-! ## The body obligation, at a generic point -/

/-- What the body is called with at point t, the windows one by one, -/
def layerPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def layerPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debt pass through unread. -/
theorem layer_body (c : Dev nD) (t : Fin cfg0.N) :
    layerPre V c t ⊢ wp frame (wpE (defs₀ (F := F)) Variants.none c none) Set.univ (bodyAt0 t) (fun _ => layerPost V c t) := by
  unfold layerPre layerPost bodyAt0
  simp only [dat0_before_0, dat0_before_1, dat0_before_2, dat0_before_3, dat0_before_4, dat0_before_5]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5, dat0_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_kernel c Set.univ _ _ _ _ _ _ _ _ _ _ _ _ _ _ _
    (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact layer_body V c t

end Cert.Kernel.Hand

end
-- ==== Proof.PoolRegionBits.lean ====
/-
  REGION 1 of @main — the pooled MLP over twenty node tiles of 1000 — at the TensorCore buffer contents `V` found when
  the region is entered: the proof data of its pipeline and its body obligation.

  The body keeps an [8,64] accumulator across the grid points. At the first point the accumulator is zeroed; at every
  point the tile's rows, relu(relu((x + agg)·W1 + b1)·W2 + b2) summed over the tile's 1000 nodes, are added to it; at
  the last point it is copied into the output window's buffer, which is written back there and only there. So the
  accumulator after the first n points is `acc1 c n`: zero for n = 0, and after point n the payload
  `k1_pay1 (k1_pay3 (the six input blocks at n) (acc1 c n))`; the [8,64] output array ends at `acc1 c 20`.

  The body is run once per case of its two conditionals (first point / a point between / last point), each case a
  triple over whole staging memrefs with its post-state spelt through the payloads; the invariant between points holds
  the accumulator at `acc1 c n` and every other scoped buffer at some contents.
-/
import proofs.«126217_j34187939676288_1_alg».proof.Proof.LaunchKernel
import proofs.«126217_j34187939676288_1_alg».proof.Proof.Gen.Kernel.Skeleton
import proofs.«126217_j34187939676288_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The first conditional of the body: the grid coordinate is zero. It holds at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- The second conditional: the grid coordinate is 19. It holds at the last point only. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Loads and stores through a whole staging buffer -/

private theorem zeros1 : (![0] : Fin 1 → Nat) = fun _ => 0 := funext fun a => by fin_cases a <;> rfl
private theorem zeros2 : (![0, 0] : Fin 2 → Nat) = fun _ => 0 := funext fun a => by fin_cases a <;> rfl
private theorem zeros3 : (![0, 0, 0] : Fin 3 → Nat) = fun _ => 0 := funext fun a => by fin_cases a <;> rfl

/-- A load of the whole shape at zero offsets reads the buffer's contents as its view reads them. -/
private theorem readAt_unit_zero {sg : RefSig} {κ : Kind} {sp : Space} {S : Shape} {e : EltTy} {Val : EltTy → Type}
    (v : View sg κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f (Rect.unit off S.size inb)).trans (View.ld_unit_zero h inb _)

/-- One store of the whole shape at zero offsets, last, leaves its payload, whatever was stored before. -/
private theorem read_writes_unit_zero {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

/-! ## The body's triple, case by case -/

set_option maxHeartbeats 1000000 in
/-- The body at the first point: the accumulator, whatever it held, is zeroed, then the tile's pooled rows are added. -/
theorem sound_kernel1_A (c : Dev nD) (E : Set ℕ) (i : grid1.Coords)
    (arg1 : Memref sig .tc .vmem S8x1000x64 .f32) (harg1 : arg1.IsWhole) (arg2 : Memref sig .tc .vmem S8x1000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S8x64 .f32) (harg7 : arg7.IsWhole) (arg8 : Memref sig .tc .vmem S8x64 .f32) (harg8 : arg8.IsWhole)
    (hc0 : cond1_0 i) (hc1 : ¬cond1_1 i)
    (x0 : Vec F S8x1000x64 .f32) (x1 : Vec F S8x1000x64 .f32) (x2 : Vec F S64x128 .f32) (x3 : Vec F S128 .f32)
    (x4 : Vec F S128x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg8 fullShare (k1_pay1 (k1_pay3 x0 x1 x2 x3 x4 x5 k1_pay2))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  rw [read_writes_unit_zero (S := S8x64) _ zeros2]
  sl_unfold_run_names
  simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2, View.readCov_unit_zero (S := S8x64) _ zeros2]

set_option maxHeartbeats 1000000 in
/-- The body at a point that is neither the first nor the last: it adds the tile's pooled rows to the accumulator. -/
theorem sound_kernel1_B (c : Dev nD) (E : Set ℕ) (i : grid1.Coords)
    (arg1 : Memref sig .tc .vmem S8x1000x64 .f32) (harg1 : arg1.IsWhole) (arg2 : Memref sig .tc .vmem S8x1000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S8x64 .f32) (harg7 : arg7.IsWhole) (arg8 : Memref sig .tc .vmem S8x64 .f32) (harg8 : arg8.IsWhole)
    (hc0 : ¬cond1_0 i) (hc1 : ¬cond1_1 i)
    (x0 : Vec F S8x1000x64 .f32) (x1 : Vec F S8x1000x64 .f32) (x2 : Vec F S64x128 .f32) (x3 : Vec F S128 .f32)
    (x4 : Vec F S128x64 .f32) (x5 : Vec F S64 .f32) (xs : Vec F S8x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg8 fullShare (k1_pay1 (k1_pay3 x0 x1 x2 x3 x4 x5 xs))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  rw [read_writes_unit_zero (S := S8x64) _ zeros2]
  simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2]

set_option maxHeartbeats 1000000 in
/-- The body at the last point: the tile's pooled rows are added to the accumulator, which is then copied to the
    output window's buffer, whatever that held. -/
theorem sound_kernel1_C (c : Dev nD) (E : Set ℕ) (i : grid1.Coords)
    (arg1 : Memref sig .tc .vmem S8x1000x64 .f32) (harg1 : arg1.IsWhole) (arg2 : Memref sig .tc .vmem S8x1000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S8x64 .f32) (harg7 : arg7.IsWhole) (arg8 : Memref sig .tc .vmem S8x64 .f32) (harg8 : arg8.IsWhole)
    (hc0 : ¬cond1_0 i) (hc1 : cond1_1 i)
    (x0 : Vec F S8x1000x64 .f32) (x1 : Vec F S8x1000x64 .f32) (x2 : Vec F S64x128 .f32) (x3 : Vec F S128 .f32)
    (x4 : Vec F S128x64 .f32) (x5 : Vec F S64 .f32) (xs : Vec F S8x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay1 (k1_pay3 x0 x1 x2 x3 x4 x5 xs))
            ∗ owns (c : Thread nD τ) arg8 fullShare (k1_pay1 (k1_pay3 x0 x1 x2 x3 x4 x5 xs))) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H7]
  · iexists _; isplitr
    swap; · iexact H7
    ipureintro
    rw [read_writes_unit_zero (S := S8x64) _ zeros2]
    sl_unfold_run_names
    simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2, View.readCov_unit_zero (S := S8x64) _ zeros2]
  iexists _; isplitr
  swap; · iexact HS
  ipureintro
  sl_unfold_run_names
  rw [read_writes_unit_zero (S := S8x64) _ zeros2]
  simp only [readAt_unit_zero (S := S8x1000x64) _ zeros3, readAt_unit_zero (S := S64x128) _ zeros2,
    readAt_unit_zero (S := S128) _ zeros1, readAt_unit_zero (S := S128x64) _ zeros2, readAt_unit_zero (S := S64) _ zeros1,
    readAt_unit_zero (S := S8x64) _ zeros2, View.readCov_unit_zero (S := S8x64) _ zeros2]

/-! ## The scoped buffers the region does not stage -/

/-- The accumulator: a whole scoped buffer of the kernel's own, passed to the body beside the windows. -/
abbrev scM1 : Memref sig .tc .vmem S8x64 .f32 := Memref.whole cc1_scratch0

/-- The core's scoped buffers that are neither a staging buffer of this region nor its accumulator, each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f))

/-- The scoped rest of the region is its accumulator at some contents and the others. -/
theorem scopedRest1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ others1 (F := F) c) := by
  rw [scopedRest1_eq]; unfold others1; simp only [scM1, owns_whole]
  iintro ⟨A0, A1, A2, A3, A4, A5, A6, A7, A8, A9, HS, B0, B1, B2, B3, B4, B5⟩
  isplitl [HS]; · iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [B0]; · iexact B0
  isplitl [B1]; · iexact B1
  isplitl [B2]; · iexact B2
  isplitl [B3]; · iexact B3
  isplitl [B4]; · iexact B4
  iexact B5

theorem scopedRest1_join (c : Dev nD) :
    iprop((∃ d, owns (c : Thread nD τ) scM1 fullShare d) ∗ others1 (F := F) c)
      ⊢ (Pipeline.scopedRest (Ix := Unit) (Name := ℕ) (U := UR sig nD τ) (Lvl := ℕ) (Val := Elt F) spec1 c : sProp 𝕄) := by
  rw [scopedRest1_eq]; unfold others1; simp only [scM1, owns_whole]
  iintro ⟨HS, A0, A1, A2, A3, A4, A5, A6, A7, A8, A9, B0, B1, B2, B3, B4, B5⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [HS]; · iexact HS
  isplitl [B0]; · iexact B0
  isplitl [B1]; · iexact B1
  isplitl [B2]; · iexact B2
  isplitl [B3]; · iexact B3
  isplitl [B4]; · iexact B4
  iexact B5

section Region

-- the TensorCore's buffer contents when the region is entered
variable (V : (c : Dev nD) → (b : Ref sig .tc) → Buf (Elt F) ((c : Thread nD τ).loc b))

/-! ## The windows' blocks and the accumulator -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the first `n` points: zero before the first (what the first point resets it to), and after
    point `n` what that point's tile adds to what it held. -/
def acc1 (c : Dev nD) : ℕ → Vec F S8x64 .f32
  | 0 => k1_pay2
  | n + 1 =>
    if h : n < cfg1.N then
      k1_pay1 (k1_pay3 (blk1 V c 0 ⟨n, h⟩) (blk1 V c 1 ⟨n, h⟩) (blk1 V c 2 ⟨n, h⟩) (blk1 V c 3 ⟨n, h⟩) (blk1 V c 4 ⟨n, h⟩) (blk1 V c 5 ⟨n, h⟩) (acc1 c n))
    else acc1 c n

theorem acc1_zero (c : Dev nD) : acc1 V c 0 = k1_pay2 := rfl

/-- One step of the accumulation, at a point of the grid. -/
theorem acc1_succ (c : Dev nD) (t : Fin cfg1.N) :
    acc1 V c (t.val + 1) = k1_pay1 (k1_pay3 (blk1 V c 0 t) (blk1 V c 1 t) (blk1 V c 2 t) (blk1 V c 3 t) (blk1 V c 4 t) (blk1 V c 5 t) (acc1 V c t.val)) := by
  obtain ⟨n, hn⟩ := t
  exact dif_pos hn

/-! ## The invariant between points -/

/-- Before the first point the scoped rest at some contents; after point `n` the accumulator at what the first `n + 1`
    points left in it, the other scoped buffers at some contents; the generator register at some state throughout. -/
def Phi1 (c : Dev nD) : ℕ → sProp 𝕄
  | 0 => iprop(Pipeline.scopedRest (Ix := Unit) (Name := ℕ) (U := UR sig nD τ) (Lvl := ℕ) (Val := Elt F) spec1 c ∗ ∃ r, prngReg c r)
  | n + 1 => iprop(owns (c : Thread nD τ) scM1 fullShare (acc1 V c (n + 1)) ∗ others1 (F := F) c ∗ ∃ r, prngReg c r)

theorem Phi1_zero (c : Dev nD) (n : ℕ) (hz : n = 0) :
    Phi1 V c n = iprop(Pipeline.scopedRest (Ix := Unit) (Name := ℕ) (U := UR sig nD τ) (Lvl := ℕ) (Val := Elt F) spec1 c ∗ ∃ r, prngReg c r) := by
  subst hz; rfl

theorem Phi1_pos (c : Dev nD) (n : ℕ) (hz : n ≠ 0) :
    Phi1 V c n = iprop(owns (c : Thread nD τ) scM1 fullShare (acc1 V c n) ∗ others1 (F := F) c ∗ ∃ r, prngReg c r) := by
  cases n with
  | zero => exact absurd rfl hz
  | succ n => rfl

/-! ## The proof data -/

/-- The proof data of the region on core `c`: the arrays as the region finds them; after the body at point `t` each
    input's buffer at its block, the output's at the accumulator after that point (consulted at the last point only:
    at the others the window is idle); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => acc1 V c (t.val + 1)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = acc1 V c (t.val + 1) := by dsimp only [dat1]

/-- Each input's current staging buffer holds its block at every point, fetched there or not: an unfetched window's
    block index has not moved, and the body leaves the block in place. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]; try rfl) t d).trans
    (by unfold Dat.fetched Dat.blockOf blk1; rw [A_eq1]; try rfl)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Off the last point nothing is stored into the output window: it is idle there, and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point it is stored into. -/
theorem liveAt1_6 : ∀ t : Fin cfg1.N, cond1_1 (grid1.coords t) → cfg1.idle 6 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks. At the first point the invariant hands the body the
    accumulator at anything and the body zeroes it; at a later point it hands it at what the point before left. The
    body returns it at this point's contents. Off the last point the output window's buffer goes through untouched;
    at the last point it receives the accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [Phi1_pos V c (t.val + 1) (Nat.succ_ne_zero _), acc1_succ V c t]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 20 := lt_of_lt_of_eq t.isLt (show cfg1.N = 20 from N_1)
  by_cases h0 : t.val % 20 = 0
  · -- the first point
    have hz : t.val = 0 := by omega
    have h1 : ¬t.val % 20 = 19 := by omega
    have hc1 : ¬cond1_1 (grid1.coords t) := fun h => h1 ((hcond1_1 t).mp h)
    rw [Dat.leavesExact_idle (dat1 V c) 6 t (idleAt1_6 t hc1) (noFlush1_6 t hc1)]
    rw [Phi1_zero V c _ hz, show acc1 V c t.val = k1_pay2 from by rw [hz]; rfl]
    iintro ⟨⟨Hrest, Hg⟩, Ho, ⟨%d0, H0⟩, ⟨%d1, H1⟩, ⟨%d2, H2⟩, ⟨%d3, H3⟩, ⟨%d4, H4⟩, ⟨%d5, H5⟩, ⟨%d6, H6⟩⟩
    ihave Hsp := (scopedRest1_split (F := F) c) $$ Hrest
    icases Hsp with ⟨HS, Hoth⟩
    iapply (sound_kernel1_A c Set.univ (grid1.coords t) _ _ _ _ _ _ _ _ _ _ _ _ _ _ _ _ ((hcond1_0 t).mpr h0) hc1 (blk1 V c 0 t) (blk1 V c 1 t) (blk1 V c 2 t) (blk1 V c 3 t) (blk1 V c 4 t) (blk1 V c 5 t) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hz : t.val ≠ 0 := by omega
    have hc0 : ¬cond1_0 (grid1.coords t) := fun h => h0 ((hcond1_0 t).mp h)
    rw [Phi1_pos V c _ hz]
    by_cases h1 : t.val % 20 = 19
    · -- the last point
      have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6, acc1_succ V c t]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ _ _ hc0 hc1 (blk1 V c 0 t) (blk1 V c 1 t) (blk1 V c 2 t) (blk1 V c 3 t) (blk1 V c 4 t) (blk1 V c 5 t) (acc1 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point between
      have hc1 : ¬cond1_1 (grid1.coords t) := fun h => h1 ((hcond1_1 t).mp h)
      rw [Dat.leavesExact_idle (dat1 V c) 6 t (idleAt1_6 t hc1) (noFlush1_6 t hc1)]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ _ _ hc0 hc1 (blk1 V c 0 t) (blk1 V c 1 t) (blk1 V c 2 t) (blk1 V c 3 t) (blk1 V c 4 t) (blk1 V c 5 t) (acc1 V c t.val) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the region is entered with — the generator register and the scoped rest — is the invariant before the first point. -/
theorem dat1_in (c : Dev nD) :
    (iprop((∃ r, prngReg c r) ∗ Pipeline.scopedRest (Ix := Unit) (Name := ℕ) (U := UR sig nD τ) (Lvl := ℕ) (Val := Elt F) spec1 c) : sProp 𝕄) ⊢ (dat1 V c).Φ 0 := by
  rw [show (dat1 V c).Φ 0 = Phi1 V c 0 from rfl, Phi1_zero V c 0 rfl]
  iintro ⟨Hp, Hr⟩
  isplitl [Hr]; · iexact Hr
  iexact Hp

/-- After the last point the invariant gives them back: the accumulator's named contents are forgotten. -/
theorem dat1_out (c : Dev nD) :
    (dat1 V c).Φ (Fin.last cfg1.N) ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = Phi1 V c (Fin.last cfg1.N).val from rfl,
    Phi1_pos V c _ (by rw [Fin.val_last]; have : cfg1.N = 20 := N_1; omega)]
  iintro ⟨HS, Hoth, Hg⟩
  isplitl [Hg]; · iexact Hg
  iapply (scopedRest1_join (F := F) c)
  isplitl [HS]; · iexists _; iexact HS
  iexact Hoth

/-! ## The output array after the region -/

/-- The last point of the grid. -/
def t1_19 : Fin cfg1.N := ⟨19, lt_of_lt_of_eq (by decide) N_1.symm⟩

/-- The output window's one block is the whole [8,64] array (block index zero on both axes, the array's own sizes):
    contents read through it are themselves. -/
theorem read_blk1_6 (c : Dev nD) (G : Buf (Elt F) ((c : Thread nD τ).loc main_v54)) :
    ((cfg1.win 6).blk t1_19).view.read (Elt F) G = G := by
  have hoff : (fun a => win1_6.index t1_19 a * main_v54.ty.shape.size a) = fun _ => 0 :=
    funext fun a => by fin_cases a <;> decide
  exact Memref.read_access_unit_zero (Elt F) main_v54 hoff (fun a => by rw [congrFun hoff a]; simp) G

/-- The one write-back, at the last point, writes the accumulator after all twenty points. -/
theorem flushed1_6 (c : Dev nD) (t : Fin cfg1.N) (hf : (cfg1.win 6).flush t = true) :
    (dat1 V c).flushed 6 t = ((cfg1.win 6).blk t).view.read (Elt F) (acc1 V c 20 : Buf (Elt F) ((c : Thread nD τ).loc main_v54)) := by
  have hN : cfg1.N = 20 := N_1
  have h19 : t.val = 19 := by have := (flush1_6 t).mp hf; have := t.isLt; omega
  obtain rfl : t = t1_19 := Fin.ext h19
  rw [read_blk1_6 c]
  show (cfg1.win 6).cut (grid1.coords t1_19) ((dat1 V c).after 6 t1_19) = _
  rw [after1_6]
  rfl

/-- So the output array ends holding the accumulator after all twenty points: the last point's block covers it. -/
theorem dat1_result (c : Dev nD) :
    (dat1 V c).arrAt 6 cfg1.N = (acc1 V c 20 : Buf (Elt F) ((c : Thread nD τ).loc main_v54)) :=
  (dat1 V c).arrAt_eq_of_cover 6 (acc1 V c 20) (flushed1_6 V c) fun i =>
    ⟨t1_19, (flush1_6 t1_19).mpr rfl, by
      have hoff : ∀ a, win1_6.index t1_19 a * win1_6.size a = 0 := by decide +kernel
      have hsz : ∀ a, win1_6.xsize (grid1.coords t1_19) a = main_v54.ty.shape.size a := by decide +kernel
      show i ∈ ((View.whole main_v54).slice (win1_6.rect t1_19)).set
      rw [View.set_slice_whole, Rect.mem_set_unit]
      intro a
      show win1_6.index t1_19 a * win1_6.size a ≤ (i a : Nat)
        ∧ (i a : Nat) < win1_6.index t1_19 a * win1_6.size a + win1_6.xsize (grid1.coords t1_19) a
      rw [hoff a, hsz a, Nat.zero_add]
      exact ⟨Nat.zero_le _, (i a).isLt⟩⟩

end Region
end Cert.Kernel.Hand
end
-- ==== Proof.HeadRegionBits.lean ====
/- The read-out head of the network: REGION 2 of @main, one grid point.
   From the pooled features p [8,64], the hidden weights Wm [64,128] and bias bm [128], the output
   weights Wo [128,20000] and bias bo [20000], the body stores

       sigmoid (relu (p · Wm + bm) · Wo + bo)          ([8,20000])

   into its output window. This file gives, at the buffer contents V with which the region is entered,
   each window's block, what the body leaves in the output staging buffer (the one store, as a
   canonical piece list over the input blocks), the body's triple, the proof data of the pipeline,
   and the body obligation. -/
import proofs.«126217_j34187939676288_1_alg».proof.Proof.LaunchKernel
import proofs.«126217_j34187939676288_1_alg».proof.Proof.Gen.Kernel.Skeleton
import proofs.«126217_j34187939676288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 20000 coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, for any proof data whose array
    is V's and whose body leaves the block in place. The five windows are uncut and never idle. -/

theorem head_before_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem head_before_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem head_before_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem head_before_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem head_before_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every buffer whole -/

abbrev rPooled : Rect S8x64 := Rect.unit (s := S8x64) ![0, 0] S8x64.size inb_S8x64_S8x64_0_0
abbrev rHidW : Rect S64x128 := Rect.unit (s := S64x128) ![0, 0] S64x128.size inb_S64x128_S64x128_0_0
abbrev rHidB : Rect S128 := Rect.unit (s := S128) ![0] S128.size inb_S128_S128_0
abbrev rOutW : Rect S128x20000 := Rect.unit (s := S128x20000) ![0, 0] S128x20000.size inb_S128x20000_S128x20000_0_0
abbrev rOutB : Rect S20000 := Rect.unit (s := S20000) ![0] S20000.size inb_S20000_S20000_0
abbrev rHead : Rect S8x20000 := Rect.unit (s := S8x20000) ![0, 0] S8x20000.size inb_S8x20000_S8x20000_0_0

/-! ## What the body leaves in the output window's buffer -/

/-- The output staging buffer after the body, from the five input blocks: the one store, whole. -/
def out2 (p : Vec F S8x64 .f32) (wm : Vec F S64x128 .f32) (bm : Vec F S128 .f32) (wo : Vec F S128x20000 .f32) (bo : Vec F S20000 .f32) :
    Vec F S8x20000 .f32 :=
  View.canon [⟨rHead, k2_pay1 (View.ld p rPooled) (View.ld wm rHidW) (View.ld bm rHidB) (View.ld wo rOutW) (View.ld bo rOutB)⟩]

/-- The one store tiles the buffer (one tile, checked on the sizes), so it covers it. -/
theorem head_cover (p0 : Vec F S8x20000 .f32) (y : S8x20000.Idx) :
    ∃ pc ∈ ([⟨rHead, p0⟩] : List (View.Piece (Elt F) S8x20000 .f32)), y ∈ pc.1.set :=
  View.cover_of_tiled [⟨rHead, p0⟩] S8x20000.size (by rfl) y

/-! ## The body's triple -/

set_option maxHeartbeats 1000000 in
/-- The body on whole staging memrefs, the five inputs at read contents and the output at anything, runs to the
    continuation holding the inputs as they were and the output at out2 of them. The body reads the output
    buffer once before the store (the spelling of a whole store); what it reads is not used. -/
theorem head_kernel (c : Dev nD) (E : Set ℕ) (i : grid2.Coords)
    (arg1 : Memref sig .tc .vmem S8x64 .f32) (harg1 : arg1.IsWhole)
    (arg2 : Memref sig .tc .vmem S64x128 .f32) (harg2 : arg2.IsWhole)
    (arg3 : Memref sig .tc .vmem S128 .f32) (harg3 : arg3.IsWhole)
    (arg4 : Memref sig .tc .vmem S128x20000 .f32) (harg4 : arg4.IsWhole)
    (arg5 : Memref sig .tc .vmem S20000 .f32) (harg5 : arg5.IsWhole)
    (arg6 : Memref sig .tc .vmem S8x20000 .f32) (harg6 : arg6.IsWhole)
    (p : Vec F S8x64 .f32) (wm : Vec F S64x128 .f32) (bm : Vec F S128 .f32) (wo : Vec F S128x20000 .f32) (bo : Vec F S20000 .f32)
    (K : PUnit → sProp 𝕄) :
    iprop(owns (c : Thread nD τ) arg1 fullShare p ∗ owns (c : Thread nD τ) arg2 fullShare wm ∗ owns (c : Thread nD τ) arg3 fullShare bm
        ∗ owns (c : Thread nD τ) arg4 fullShare wo ∗ owns (c : Thread nD τ) arg5 fullShare bo ∗ (∃ d, owns (c : Thread nD τ) arg6 fullShare d)
        ∗ (iprop(owns (c : Thread nD τ) arg1 fullShare p ∗ owns (c : Thread nD τ) arg2 fullShare wm ∗ owns (c : Thread nD τ) arg3 fullShare bm
            ∗ owns (c : Thread nD τ) arg4 fullShare wo ∗ owns (c : Thread nD τ) arg5 fullShare bo
            ∗ owns (c : Thread nD τ) arg6 fullShare (out2 p wm bm wo bo)) -∗ K ⟨⟩))
      ⊢ wp frame (wpE (defs₀ (F := F)) Variants.none c none) E
          (cc2__final_kernel i arg1 harg1 arg2 harg2 arg3 harg3 arg4 harg4 arg5 harg5 arg6 harg6) K := by
  simp only [cc2__final_kernel_eq_skeleton]; unfold cc2__final_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (head_cover _)

/-! ## The pipeline's proof data -/

/-- The proof data of the head's pipeline on core c: the arrays as the region finds them; after the body each
    input's buffer at its block and the output's at out2 of the five input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => out2 (blk2 V c 0 t) (blk2 V c 1 t) (blk2 V c 2 t) (blk2 V c 3 t) (blk2 V c 4 t)
  Φ _ := Pipeline.ΦA spec2 c
  q _ := fullShare
  owed _ := 0

/-- The proof data's arrays are the region-entry contents. -/
theorem dat2_A (c : Dev nD) (w : Fin cfg2.W) : (dat2 V c).A w = V c (Pipeline.arrRef spec2 w) := by
  dsimp only [dat2]

/-- What the body leaves, window by window. -/
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) :
    (dat2 V c).after 5 t = out2 (blk2 V c 0 t) (blk2 V c 1 t) (blk2 V c 2 t) (blk2 V c 3 t) (blk2 V c 4 t) := by dsimp only [dat2]

/-- Each input's staging buffer holds its block at every point. -/
theorem dat2_before_0 (c : Dev nD) (t : Fin cfg2.N) (d) : (dat2 V c).before 0 t d = blk2 V c 0 t :=
  head_before_0_of V (dat2 V c) (dat2_A V c 0) (dat2_after_0 V c) t d
theorem dat2_before_1 (c : Dev nD) (t : Fin cfg2.N) (d) : (dat2 V c).before 1 t d = blk2 V c 1 t :=
  head_before_1_of V (dat2 V c) (dat2_A V c 1) (dat2_after_1 V c) t d
theorem dat2_before_2 (c : Dev nD) (t : Fin cfg2.N) (d) : (dat2 V c).before 2 t d = blk2 V c 2 t :=
  head_before_2_of V (dat2 V c) (dat2_A V c 2) (dat2_after_2 V c) t d
theorem dat2_before_3 (c : Dev nD) (t : Fin cfg2.N) (d) : (dat2 V c).before 3 t d = blk2 V c 3 t :=
  head_before_3_of V (dat2 V c) (dat2_A V c 3) (dat2_after_3 V c) t d
theorem dat2_before_4 (c : Dev nD) (t : Fin cfg2.N) (d) : (dat2 V c).before 4 t d = blk2 V c 4 t :=
  head_before_4_of V (dat2 V c) (dat2_A V c 4) (dat2_after_4 V c) t d

/-! ## The body obligation, at a generic point -/

/-- What the body is called with at point t, the windows one by one, -/
def headPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def headPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's debt pass through unread. -/
theorem head_body (c : Dev nD) (t : Fin cfg2.N) :
    headPre V c t ⊢ wp frame (wpE (defs₀ (F := F)) Variants.none c none) Set.univ (bodyAt2 t) (fun _ => headPost V c t) := by
  unfold headPre headPost bodyAt2
  simp only [dat2_before_0, dat2_before_1, dat2_before_2, dat2_before_3, dat2_before_4]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5]
  iintro ⟨HΦ, Ho, ⟨%d0, H0⟩, ⟨%d1, H1⟩, ⟨%d2, H2⟩, ⟨%d3, H3⟩, ⟨%d4, H4⟩, ⟨%d5, H5⟩⟩
  iapply (head_kernel c Set.univ _ _ _ _ _ _ _ _ _ _ _ _ _
    (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact head_body V c t

end Cert.Kernel.Hand

end
-- ==== Proof.MainRunBits.lean ====
/-
  The run of @main as five items — host operations, the first GIN layer's region, host operations, the pooled second
  layer's region, the output head's region — with the contents of every unscoped buffer named at each boundary.

  The contents are a fold from the launch memory: a stretch of host operations applies its operations' functions
  (`StableHlo.after`); a region leaves each of its windows' arrays at what its write-backs make of it (the proof
  data's `arrAt … N`: an input's array as entered, an output's array at the blocks written back) and every other
  buffer as entered. Read at an argument the fold walks back to the launch memory, since no host operation and no
  region writes an argument; read at the result it is the head region's output array.
-/
import proofs.«126217_j34187939676288_1_alg».proof.Proof.LayerOneRegionBits
import proofs.«126217_j34187939676288_1_alg».proof.Proof.PoolRegionBits
import proofs.«126217_j34187939676288_1_alg».proof.Proof.HeadRegionBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents of the buffers at each boundary -/

/-- Core `c`'s buffers at launch. -/
abbrev B0 (c : Dev nD) : Valuation τ sig (Elt F) := fun b => m (c, b)
/-- After the first stretch of host operations: the stacked features and the first aggregate are there. -/
abbrev B1 (c : Dev nD) : Valuation τ sig (Elt F) := StableHlo.after hostOps0 (B0 m c)
/-- The same, read at the TensorCore's references: what the first layer's region is entered with. -/
abbrev E1 : (c : Dev nD) → (b : Ref sig .tc) → Buf (Elt F) ((c : Thread nD τ).loc b) := fun c b => B1 m c b
/-- After the first layer's region. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second stretch of host operations: the second aggregate and the two reshaped operands. -/
abbrev B3 (c : Dev nD) : Valuation τ sig (Elt F) := StableHlo.after hostOps1 (B2 m c)
abbrev E3 : (c : Dev nD) → (b : Ref sig .tc) → Buf (Elt F) ((c : Thread nD τ).loc b) := fun c b => B3 m c b
/-- After the pooled layer's region. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
/-- After the head's region: the end. -/
def B5 (c : Dev nD) : Valuation τ sig (Elt F) :=
  Pipeline.withArrays spec2 c (B4 m c) fun w => (dat2 (E4 m) c).arrAt w cfg2.N
abbrev E5 : (c : Dev nD) → (b : Ref sig .tc) → Buf (Elt F) ((c : Thread nD τ).loc b) := fun c b => B5 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem B5_arr (c : Dev nD) (w : Fin cfg2.W) :
    B5 m c (Proc.devRef .tc (Pipeline.arrRef spec2 w)) = (dat2 (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb

/-- At a region's exit each of its arrays holds what the pipeline leaves, every other buffer what it held at entry. -/
theorem exit0 (c : Dev nD) (w : Fin cfg0.W) : (dat0 (E1 m) c).arrAt w cfg0.N = E2 m c (Pipeline.arrRef spec0 w) := (B2_arr m c w).symm
theorem rest0 (c : Dev nD) : ∀ b, b ∉ Finset.univ.image (Pipeline.arrRef spec0) → E2 m c b = E1 m c b :=
  fun b hb => B2_of_ne m c b fun w e => hb (Finset.mem_image.mpr ⟨w, Finset.mem_univ _, e⟩)
theorem exit1 (c : Dev nD) (w : Fin cfg1.W) : (dat1 (E3 m) c).arrAt w cfg1.N = E4 m c (Pipeline.arrRef spec1 w) := (B4_arr m c w).symm
theorem rest1 (c : Dev nD) : ∀ b, b ∉ Finset.univ.image (Pipeline.arrRef spec1) → E4 m c b = E3 m c b :=
  fun b hb => B4_of_ne m c b fun w e => hb (Finset.mem_image.mpr ⟨w, Finset.mem_univ _, e⟩)
theorem exit2 (c : Dev nD) (w : Fin cfg2.W) : (dat2 (E4 m) c).arrAt w cfg2.N = E5 m c (Pipeline.arrRef spec2 w) := (B5_arr m c w).symm
theorem rest2 (c : Dev nD) : ∀ b, b ∉ Finset.univ.image (Pipeline.arrRef spec2) → E5 m c b = E4 m c b :=
  fun b hb => B5_of_ne m c b fun w e => hb (Finset.mem_image.mpr ⟨w, Finset.mem_univ _, e⟩)

/-! ## The host operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and what rides beside the buffers -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B5 m c) ∗ ∃ r, prngReg c r)

/-! ## The regions as segments -/

set_option backward.isDefEq.respectTransparency.types false in
/-- The first layer's region between the buffers at `B1` and at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooled layer's region between the buffers at `B3` and at `B4`; its invariant carries the scratch accumulator,
    made at the entry from the scoped buffers and given back with them at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (dat1_in (E3 m) c)
    isplitl [Hp]; · iexact Hp
    iexact Hr
  hout c := by
    rw [Pipeline.ownSems0_none, show (pdats m 1 c).Φ (Fin.last _) = (dat1 (E3 m) c).Φ (Fin.last cfg1.N) from rfl]
    refine (dat1_out (E3 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head's region between the buffers at `B4` and at `B5`, the end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (exit2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .region (reg2 m) ]
theorem main_items (c : Dev nD) : main (F := F) c = Pipeline.Seg.run (items m) := (main_chain c).trans (by chain_rfl)

set_option backward.isDefEq.respectTransparency.types false in
/-- Every weakly fair execution of @main from memory `m` with zero counters terminates, and at the end every unscoped
    buffer of every core holds the folded contents `B5`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

end Cert.Kernel.Hand

end
-- ==== Proof.ArgsKeptBits.lean ====
/-
  What the items of @main leave unchanged. A region changes only its OUTPUT window's array: an input window's array is
  read, never written back, and a buffer that is no window of the region is not touched at all. A stretch of host
  operations changes only the references its operations write. So the fold of buffer contents, read at a buffer that no
  host operation writes and that is no region's output, walks back to the launch memory: in particular at every argument.
-/
import proofs.«126217_j34187939676288_1_alg».proof.Proof.MainRunBits
import proofs.«126217_j34187939676288_1_alg».proof.Proof.RegionsKernel

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Every window of the first layer's region but its output is an input. -/
theorem inputs0 : ∀ w : Fin cfg0.W, Pipeline.arrRef spec0 w ≠ main_v36 → (cfg0.win w).isOut = false := by decide
theorem inputs1 : ∀ w : Fin cfg1.W, Pipeline.arrRef spec1 w ≠ main_v54 → (cfg1.win w).isOut = false := by decide
theorem inputs2 : ∀ w : Fin cfg2.W, Pipeline.arrRef spec2 w ≠ main_v55 → (cfg2.win w).isOut = false := by decide

/-- The first layer's region changes no buffer but its output `main_v36`. -/
theorem keep0 (c : Dev nD) (b : Ref sig .tc) (hb : b ≠ main_v36) :
    B2 m c (Proc.devRef .tc b) = B1 m c (Proc.devRef .tc b) := by
  by_cases h : ∃ w, Pipeline.arrRef spec0 w = b
  · obtain ⟨w, rfl⟩ := h
    rw [B2_arr, (dat0 (E1 m) c).arrAt_in w (inputs0 w hb), dat0_A]
  · exact B2_of_ne m c b fun w e => h ⟨w, e⟩
/-- The pooled layer's region changes no buffer but its output `main_v54`. -/
theorem keep1 (c : Dev nD) (b : Ref sig .tc) (hb : b ≠ main_v54) :
    B4 m c (Proc.devRef .tc b) = B3 m c (Proc.devRef .tc b) := by
  by_cases h : ∃ w, Pipeline.arrRef spec1 w = b
  · obtain ⟨w, rfl⟩ := h
    rw [B4_arr, (dat1 (E3 m) c).arrAt_in w (inputs1 w hb), A_eq1]
  · exact B4_of_ne m c b fun w e => h ⟨w, e⟩
/-- The head's region changes no buffer but its output `main_v55`. -/
theorem keep2 (c : Dev nD) (b : Ref sig .tc) (hb : b ≠ main_v55) :
    B5 m c (Proc.devRef .tc b) = B4 m c (Proc.devRef .tc b) := by
  by_cases h : ∃ w, Pipeline.arrRef spec2 w = b
  · obtain ⟨w, rfl⟩ := h
    rw [B5_arr, (dat2 (E4 m) c).arrAt_in w (inputs2 w hb), dat2_A]
  · exact B5_of_ne m c b fun w e => h ⟨w, e⟩

/-- A buffer the first stretch does not write is, at the first region's entry, as launched. -/
theorem asLaunched1 (c : Dev nD) (b : Ref sig .tc) (h0 : b ∉ hostOps0_W) :
    B1 m c (Proc.devRef .tc b) = m ((c : Thread nD τ).loc b) :=
  StableHlo.after_of_writes_sub hostOps0 _ hostOps0_writes h0
/-- … and still so at the pooled region's entry, if it is neither the first region's output nor written by the second stretch. -/
theorem asLaunched3 (c : Dev nD) (b : Ref sig .tc) (h0 : b ∉ hostOps0_W) (h36 : b ≠ main_v36) (h1 : b ∉ hostOps1_W) :
    B3 m c (Proc.devRef .tc b) = m ((c : Thread nD τ).loc b) :=
  (StableHlo.after_of_writes_sub hostOps1 _ hostOps1_writes h1).trans ((keep0 m c b h36).trans (asLaunched1 m c b h0))
theorem asLaunched4 (c : Dev nD) (b : Ref sig .tc) (h0 : b ∉ hostOps0_W) (h36 : b ≠ main_v36) (h1 : b ∉ hostOps1_W) (h54 : b ≠ main_v54) :
    B4 m c (Proc.devRef .tc b) = m ((c : Thread nD τ).loc b) :=
  (keep1 m c b h54).trans (asLaunched3 m c b h0 h36 h1)
/-- At the end a buffer no host operation writes and no region outputs is as launched. -/
theorem asLaunched5 (c : Dev nD) (b : Ref sig .tc) (h0 : b ∉ hostOps0_W) (h36 : b ≠ main_v36) (h1 : b ∉ hostOps1_W) (h54 : b ≠ main_v54) (h55 : b ≠ main_v55) :
    B5 m c (Proc.devRef .tc b) = m ((c : Thread nD τ).loc b) :=
  (keep2 m c b h55).trans (asLaunched4 m c b h0 h36 h1 h54)

/-- The result buffer at the end is the head region's output array. -/
theorem result_eq (c : Dev nD) : B5 m c (Proc.devRef .tc main_v55) = (dat2 (E4 m) c).arrAt 5 cfg2.N := B5_arr m c 5
/-- The pooled features the head is entered with are the pooled region's output array. -/
theorem pooled_eq (c : Dev nD) : B4 m c (Proc.devRef .tc main_v54) = (dat1 (E3 m) c).arrAt 6 cfg1.N := B4_arr m c 6
/-- The first layer's output the second stretch reads is the first region's output array. -/
theorem layerOut_eq (c : Dev nD) : B2 m c (Proc.devRef .tc main_v36) = (dat0 (E1 m) c).arrAt 6 cfg0.N := B2_arr m c 6

end Cert.Kernel.Hand

end
-- ==== Proof.FrameAllBits.lean ====
/-
  The frame of the kernel's program: every weakly fair execution of @main terminates without a fault and every argument
  array ends holding its launch contents — the run of the five items, read at the arguments, none of which any host
  operation writes or any region outputs. Stated at any float instance; also with the result buffer named, for the
  value claim.
-/
import proofs.«126217_j34187939676288_1_alg».proof.Proof.ArgsKeptBits

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- A final memory that holds the folded contents at every unscoped buffer holds, at a buffer no host operation writes
    and no region outputs, its launch contents. -/
theorem read_end (c : Dev nD) (s : MemSt nD τ sig (Elt F))
    (h : ∀ b ∈ Pipeline.ucRefs τ sig, s.mem (((c : Thread nD τ)).1, b) = B5 m c b)
    (b : Ref sig .tc) (hu : ¬ (Proc.devRef .tc b : DevRef τ sig).isScoped)
    (h0 : b ∉ hostOps0_W) (h36 : b ≠ main_v36) (h1 : b ∉ hostOps1_W) (h54 : b ≠ main_v54) (h55 : b ≠ main_v55) :
    s.mem ((c.tc : Thread nD τ).loc b) = m ((c.tc : Thread nD τ).loc b) :=
  (h _ (mem_uc b hu)).trans (asLaunched5 m c b h0 h36 h1 h54 h55)

/-- The run with the result buffer named: it ends at the head region's output array, and every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v55) = B5 m c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v55 (by decide)),
      read_end m c r.2 (h c) main_arg0 (by decide) (by decide) (by decide) (by decide) (by decide) (by decide),
      read_end m c r.2 (h c) main_arg1 (by decide) (by decide) (by decide) (by decide) (by decide) (by decide),
      read_end m c r.2 (h c) main_arg2 (by decide) (by decide) (by decide) (by decide) (by decide) (by decide),
      read_end m c r.2 (h c) main_arg3 (by decide) (by decide) (by decide) (by decide) (by decide) (by decide),
      read_end m c r.2 (h c) main_arg4 (by decide) (by decide) (by decide) (by decide) (by decide) (by decide),
      read_end m c r.2 (h c) main_arg5 (by decide) (by decide) (by decide) (by decide) (by decide) (by decide),
      read_end m c r.2 (h c) main_arg6 (by decide) (by decide) (by decide) (by decide) (by decide) (by decide),
      read_end m c r.2 (h c) main_arg7 (by decide) (by decide) (by decide) (by decide) (by decide) (by decide),
      read_end m c r.2 (h c) main_arg8 (by decide) (by decide) (by decide) (by decide) (by decide) (by decide),
      read_end m c r.2 (h c) main_arg9 (by decide) (by decide) (by decide) (by decide) (by decide) (by decide),
      read_end m c r.2 (h c) main_arg10 (by decide) (by decide) (by decide) (by decide) (by decide) (by decide),
      read_end m c r.2 (h c) main_arg11 (by decide) (by decide) (by decide) (by decide) (by decide) (by decide),
      read_end m c r.2 (h c) main_arg12 (by decide) (by decide) (by decide) (by decide) (by decide) (by decide),
      read_end m c r.2 (h c) main_arg13 (by decide) (by decide) (by decide) (by decide) (by decide) (by decide),
      read_end m c r.2 (h c) main_arg14 (by decide) (by decide) (by decide) (by decide) (by decide) (by decide)⟩)
    (run_all m ρ)

/-- The frame: every argument ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_result m ρ)

end Cert.Kernel.Hand

end
-- ==== Proof.RefRead.lean ====
/-
  The reference program's run read back: the generated run of the jnp reference and its read-at-an-index lemmas,
  gathered here so that the modules stating what the reference computes import one file.
-/
import proofs.«126217_j34187939676288_1_alg».proof.Proof.Gen.ReferenceIdeal.Run
import proofs.«126217_j34187939676288_1_alg».proof.Proof.Gen.ReferenceIdeal.Read
-- ==== Proof.HostGlue.lean ====
/-
  The host operations of the kernel's @main read back at Ideal, against the reference's stages.

  Before the first region the kernel stacks the node features and forms the first neighbour aggregate with the very
  operations the reference uses (slices, reshapes, a concatenate, the edge-index offsets, a gather and a scatter-add);
  between the first and second regions it forms the second aggregate from the first layer's output the same way and
  reshapes both operands to [8, 20000, 64]. Each buffer a region is entered with is therefore the reference's stage of
  the same meaning, as a function of the arguments (and, for the second stretch, of the first layer's output).
-/
import proofs.«126217_j34187939676288_1_alg».proof.Proof.ArgsKept
import proofs.«126217_j34187939676288_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The stacked features [160000, 3] the first region is entered with are the reference's. -/
theorem feats_eq (c : Dev nD) :
    (B1 m c main_v9 : (⟨S160000x3, .f32⟩ : BufTy).Contents (Elt Ideal))
      = Cert.ReferenceIdeal.Read.val_main_v9 (F := Ideal) (m ((c.tc : Thread nD τ).loc main_arg0)) (m ((c.tc : Thread nD τ).loc main_arg1)) := by
  dsimp only [B1, B0, hostOps0]
  after_results
  rfl

set_option maxHeartbeats 8000000 in
/-- The first neighbour aggregate [160000, 3] (gather of the features along the edges' sources, scatter-added at their
    targets) is the reference's. -/
theorem agg1_eq (c : Dev nD) :
    (B1 m c main_v35 : (⟨S160000x3, .f32⟩ : BufTy).Contents (Elt Ideal))
      = Cert.ReferenceIdeal.Read.val_main_v35 (F := Ideal) (m ((c.tc : Thread nD τ).loc main_arg0)) (m ((c.tc : Thread nD τ).loc main_arg1)) (m ((c.tc : Thread nD τ).loc main_arg2)) := by
  show StableHlo.after hostOps0 (B0 m c) (Proc.devRef .tc main_v35) = _
  after_results_simp
  rfl

set_option maxHeartbeats 8000000 in
/-- The edges' source indices (offset per graph, flattened) are the reference's. -/
theorem srcIdx_eq (c : Dev nD) :
    (B1 m c main_v18 : (⟨S2560000, .i32⟩ : BufTy).Contents (Elt Ideal)) = Cert.ReferenceIdeal.Read.val_main_v18 (F := Ideal) (m ((c.tc : Thread nD τ).loc main_arg2)) := by
  show StableHlo.after hostOps0 (B0 m c) (Proc.devRef .tc main_v18) = _
  after_results_simp
  rfl

set_option maxHeartbeats 8000000 in
/-- The edges' target indices are the reference's. -/
theorem dstIdx_eq (c : Dev nD) :
    (B1 m c main_v20 : (⟨S2560000, .i32⟩ : BufTy).Contents (Elt Ideal)) = Cert.ReferenceIdeal.Read.val_main_v20 (F := Ideal) (m ((c.tc : Thread nD τ).loc main_arg2)) := by
  show StableHlo.after hostOps0 (B0 m c) (Proc.devRef .tc main_v20) = _
  after_results_simp
  rfl

set_option maxHeartbeats 8000000 in
/-- The pooled region's first operand is the first layer's output reshaped to [8, 20000, 64]. -/
theorem layerOut_reshaped (c : Dev nD) :
    (B3 m c main_v52 : (⟨S8x20000x64, .f32⟩ : BufTy).Contents (Elt Ideal))
      = shapeCast S8x20000x64 (B2 m c main_v36 : (⟨S160000x64, .f32⟩ : BufTy).Contents (Elt Ideal)) shapeCasts_S160000x64_S8x20000x64 := by
  show StableHlo.after hostOps1 (B2 m c) (Proc.devRef .tc main_v52) = _
  after_results_simp
  rfl

set_option maxHeartbeats 8000000 in
/-- The pooled region's second operand is the reference's second neighbour aggregate, reshaped to [8, 20000, 64] —
    given that the first layer's output is the reference's. -/
theorem agg2_reshaped (c : Dev nD)
    (hy : (B2 m c main_v36 : (⟨S160000x64, .f32⟩ : BufTy).Contents (Elt Ideal))
      = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    (B3 m c main_v53 : (⟨S8x20000x64, .f32⟩ : BufTy).Contents (Elt Ideal))
      = shapeCast S8x20000x64 (Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) shapeCasts_S160000x64_S8x20000x64 := by
  show StableHlo.after hostOps1 (B2 m c) (Proc.devRef .tc main_v53) = _
  after_results_simp
  rw [keep0 m c main_v18 (by decide), keep0 m c main_v20 (by decide)]
  rw [show B1 m c (Proc.devRef .tc main_v18) = _ from srcIdx_eq m c, show B1 m c (Proc.devRef .tc main_v20) = _ from dstIdx_eq m c,
    show B2 m c (Proc.devRef .tc main_v36) = _ from hy]
  rfl

end Cert.KernelIdeal.Hand

end
-- ==== Proof.Spec.lean ====
/-
  The graph network's dense stages, index by index, at the exact values (extended reals).

  One dense layer acts on a row h of I features: a hidden unit is relu(Σ_i h(i) · W1(i, k) + b1(k)) for each of the 128
  hidden units k, and output feature q is relu(Σ_k hidden(k) · W2(k, q) + b2(q)). The pooled feature of a graph is the
  sum of a node function over the graph's nodes. The head maps a pooled row p of 64 features to
  logistic(Σ_k relu(Σ_i p(i) · Wm(i, k) + bm(k)) · Wo(k, n) + bo(n)) for each of the 20000 outputs n.
  The zero a relu compares with is kept as the f32 word of 0.0, the same word in the kernel and in the reference.
-/
import Idealize.ShloMosaic.PureOps.Ideal.Laws
import Idealize.ShloMosaic.Lib.ValueIdx

noncomputable section

namespace Cert.GinSpec

open Idealize.ShloMosaic Idealize.ShloMosaic.ValueIdx
open scoped BigOperators

/-- Hidden unit k of a dense layer on the row h: relu(Σ_i h(i) · W1(i, k) + b1(k)). -/
def hidden {I : ℕ} (h : Fin I → EReal) (W1 : (⟨2, ![I, 128]⟩ : Shape).Idx → EReal) (b1 : (⟨1, ![128]⟩ : Shape).Idx → EReal)
    (k : Fin 128) : EReal :=
  max (∑ i : Fin I, h i * W1 (ix2 i k) + b1 (ix1 k)) (Ideal.ofBits .f32 0x00000000#32)

/-- Output feature q of a dense layer on the row h: relu(Σ_k hidden(k) · W2(k, q) + b2(q)). -/
def layer {I : ℕ} (h : Fin I → EReal) (W1 : (⟨2, ![I, 128]⟩ : Shape).Idx → EReal) (b1 : (⟨1, ![128]⟩ : Shape).Idx → EReal)
    (W2 : (⟨2, ![128, 64]⟩ : Shape).Idx → EReal) (b2 : (⟨1, ![64]⟩ : Shape).Idx → EReal) (q : Fin 64) : EReal :=
  max (∑ k : Fin 128, hidden h W1 b1 k * W2 (ix2 k q) + b2 (ix1 q)) (Ideal.ofBits .f32 0x00000000#32)

/-- Row r of an [R, I] array, as a function of the feature. -/
def rowOf {R I : ℕ} (x : (⟨2, ![R, I]⟩ : Shape).Idx → EReal) (r : Fin R) : Fin I → EReal := fun i => x (ix2 r i)

/-- Node (b, n) of a [B, N, I] array, as a function of the feature. -/
def nodeOf {B N I : ℕ} (x : (⟨3, ![B, N, I]⟩ : Shape).Idx → EReal) (b : Fin B) (n : Fin N) : Fin I → EReal :=
  fun i => x (ix3 b n i)

/-- The sum of two rows, feature by feature. -/
def addRow {I : ℕ} (f g : Fin I → EReal) : Fin I → EReal := fun i => f i + g i

/-- The sum over N nodes of a node function. -/
def pool {N : ℕ} (f : Fin N → EReal) : EReal := ∑ n : Fin N, f n

/-- Output n of the head on the pooled row p: logistic(Σ_k relu(Σ_i p(i) · Wm(i, k) + bm(k)) · Wo(k, n) + bo(n)). -/
def head (p : Fin 64 → EReal) (Wm : (⟨2, ![64, 128]⟩ : Shape).Idx → EReal) (bm : (⟨1, ![128]⟩ : Shape).Idx → EReal)
    (Wo : (⟨2, ![128, 20000]⟩ : Shape).Idx → EReal) (bo : (⟨1, ![20000]⟩ : Shape).Idx → EReal) (n : Fin 20000) : EReal :=
  Ideal.logistic (∑ k : Fin 128, hidden p Wm bm k * Wo (ix2 k n) + bo (ix1 n))

end Cert.GinSpec

end
-- ==== Proof.LayerOneArray.lean ====
/- The first layer's dense part, from its blocks to the array: REGION 0 of @main runs 20 points, point t on rows
   8000·t … 8000·t + 7999 of the node table, and writes its tile of the output back at every point. The tiles
   cover the 160000 rows, so the output array [160000,64] ends holding, at row r and feature q,

       relu (Σ_k relu (Σ_i (x(r,i) + agg(r,i)) · W1(i,k) + b1(k)) · W2(k,q) + b2(q)),

   x and agg the node-feature and neighbour-sum arrays and W1, b1, W2, b2 the weights and biases as the region
   finds them. Read at the exact values (extended reals). That the stored vector is this function of the loaded
   blocks, index by index, is taken as the hypothesis hpay. -/
import proofs.«126217_j34187939676288_1_alg».proof.Proof.LayerOneRegion
import proofs.«126217_j34187939676288_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents when the region is entered, at the exact values
variable (V : (c : Dev nD) → (b : Ref sig .tc) → Buf (Elt Ideal) ((c : Thread nD τ).loc b))

theorem layer_zeros2 : (![0, 0] : Fin 2 → Nat) = fun _ => 0 := funext fun a => by fin_cases a <;> rfl
theorem layer_zeros1 : (![0] : Fin 1 → Nat) = fun _ => 0 := funext fun a => by fin_cases a <;> rfl

/-- The dense layer on every row of a node table: entry (r, q) is the layer, at feature q, of row r of x plus
    row r of agg. -/
abbrev layerOf (x agg : S160000x3.Idx → EReal) (w1 : S3x128.Idx → EReal) (b1 : S128.Idx → EReal) (w2 : S128x64.Idx → EReal)
    (b2 : S64.Idx → EReal) : S160000x64.Idx → EReal :=
  fun i => Cert.GinSpec.layer (Cert.GinSpec.addRow (Cert.GinSpec.rowOf x (i 0)) (Cert.GinSpec.rowOf agg (i 0))) w1 b1 w2 b2 (i 1)

/-- The stored vector at any index of the tile, from the hypothesis at an index given by its coordinates. -/
theorem layer_pay_at
    (hpay : ∀ (x agg : Vec Ideal S8000x3 .f32) (w1 : Vec Ideal S3x128 .f32) (b1 : Vec Ideal S128 .f32) (w2 : Vec Ideal S128x64 .f32)
        (b2 : Vec Ideal S64 .f32) (p : Fin 8000) (q : Fin 64),
      k0_pay1 (F := Ideal) x agg w1 b1 w2 b2 (ix2 p q)
        = Cert.GinSpec.layer (Cert.GinSpec.addRow (Cert.GinSpec.rowOf x p) (Cert.GinSpec.rowOf agg p)) w1 b1 w2 b2 q)
    (x agg : Vec Ideal S8000x3 .f32) (w1 : Vec Ideal S3x128 .f32) (b1 : Vec Ideal S128 .f32) (w2 : Vec Ideal S128x64 .f32)
    (b2 : Vec Ideal S64 .f32) (j : S8000x64.Idx) :
    k0_pay1 (F := Ideal) x agg w1 b1 w2 b2 j
      = Cert.GinSpec.layer (Cert.GinSpec.addRow (Cert.GinSpec.rowOf x (j 0)) (Cert.GinSpec.rowOf agg (j 0))) w1 b1 w2 b2 (j 1) :=
  (congrArg (k0_pay1 (F := Ideal) x agg w1 b1 w2 b2) (eq_ix2 j)).trans (hpay x agg w1 b1 w2 b2 (j 0) (j 1))

/-- The printed index maps over the grid's 20 points: the two tiled inputs and the output are at row-block t and
    column-block 0 at point t; the weights and biases are at block 0 on every axis at every point. -/
theorem layer_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The weights' and biases' blocks are their whole arrays, at every point -/

theorem layer_blk_2 (c : Dev nD) (t : Fin cfg0.N) : (blk0 V c 2 t : S3x128.Idx → EReal) = (V c main_arg3 : S3x128.Idx → EReal) := by
  obtain ⟨-, -, -, -, e0, e1, -⟩ := layer_idx t
  funext y
  show (V c main_arg3 : S3x128.Idx → EReal) (((cfg0.win 2).blk t).view.emb y) = _
  congr 1
  funext a; apply Fin.ext
  match a with
  | ⟨0, _⟩ => show win0_2.index t (0 : Fin 2) * 3 + 1 * (y 0).val = (y 0).val; omega
  | ⟨1, _⟩ => show win0_2.index t (1 : Fin 2) * 128 + 1 * (y 1).val = (y 1).val; omega

theorem layer_blk_3 (c : Dev nD) (t : Fin cfg0.N) : (blk0 V c 3 t : S128.Idx → EReal) = (V c main_arg4 : S128.Idx → EReal) := by
  obtain ⟨-, -, -, -, -, -, e0, -⟩ := layer_idx t
  funext y
  show (V c main_arg4 : S128.Idx → EReal) (((cfg0.win 3).blk t).view.emb y) = _
  congr 1
  funext a; apply Fin.ext
  match a with
  | ⟨0, _⟩ => show win0_3.index t (0 : Fin 1) * 128 + 1 * (y 0).val = (y 0).val; omega

theorem layer_blk_4 (c : Dev nD) (t : Fin cfg0.N) : (blk0 V c 4 t : S128x64.Idx → EReal) = (V c main_arg5 : S128x64.Idx → EReal) := by
  obtain ⟨-, -, -, -, -, -, -, e0, e1, -⟩ := layer_idx t
  funext y
  show (V c main_arg5 : S128x64.Idx → EReal) (((cfg0.win 4).blk t).view.emb y) = _
  congr 1
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

theorem layer_blk_5 (c : Dev nD) (t : Fin cfg0.N) : (blk0 V c 5 t : S64.Idx → EReal) = (V c main_arg6 : S64.Idx → EReal) := by
  obtain ⟨-, -, -, -, -, -, -, -, -, e0, -⟩ := layer_idx t
  funext y
  show (V c main_arg6 : S64.Idx → EReal) (((cfg0.win 5).blk t).view.emb y) = _
  congr 1
  funext a; apply Fin.ext
  match a with
  | ⟨0, _⟩ => show win0_5.index t (0 : Fin 1) * 64 + 1 * (y 0).val = (y 0).val; omega

/-! ## A row of a tiled input's block at point t is the row of the array that the output's tile puts there -/

theorem layer_row_x (c : Dev nD) (t : Fin cfg0.N) (r : Fin 8000) (R : Fin 160000)
    (hR : R.val = win0_6.index t (0 : Fin 2) * 8000 + r.val) :
    Cert.GinSpec.rowOf (blk0 V c 0 t : S8000x3.Idx → EReal) r = Cert.GinSpec.rowOf (V c main_v9 : S160000x3.Idx → EReal) R := by
  obtain ⟨e0, e1, -⟩ := layer_idx t
  have e6 := (layer_idx t).2.2.2.2.2.2.2.2.2.2.1
  funext i
  show (V c main_v9 : S160000x3.Idx → EReal) (((cfg0.win 0).blk t).view.emb (ix2 r i)) = (V c main_v9 : S160000x3.Idx → EReal) (ix2 R i)
  congr 1
  funext a; apply Fin.ext
  match a with
  | ⟨0, _⟩ => show win0_0.index t (0 : Fin 2) * 8000 + 1 * r.val = R.val; omega
  | ⟨1, _⟩ => show win0_0.index t (1 : Fin 2) * 3 + 1 * i.val = i.val; omega

theorem layer_row_agg (c : Dev nD) (t : Fin cfg0.N) (r : Fin 8000) (R : Fin 160000)
    (hR : R.val = win0_6.index t (0 : Fin 2) * 8000 + r.val) :
    Cert.GinSpec.rowOf (blk0 V c 1 t : S8000x3.Idx → EReal) r = Cert.GinSpec.rowOf (V c main_v35 : S160000x3.Idx → EReal) R := by
  obtain ⟨-, -, e0, e1, -⟩ := layer_idx t
  have e6 := (layer_idx t).2.2.2.2.2.2.2.2.2.2.1
  funext i
  show (V c main_v35 : S160000x3.Idx → EReal) (((cfg0.win 1).blk t).view.emb (ix2 r i)) = (V c main_v35 : S160000x3.Idx → EReal) (ix2 R i)
  congr 1
  funext a; apply Fin.ext
  match a with
  | ⟨0, _⟩ => show win0_1.index t (0 : Fin 2) * 8000 + 1 * r.val = R.val; omega
  | ⟨1, _⟩ => show win0_1.index t (1 : Fin 2) * 3 + 1 * i.val = i.val; omega

/-! ## What point t writes back, and the array -/

/-- Point t writes back the block of layerOf of the six arrays as the region finds them. -/
theorem layer_flushed_eq
    (hpay : ∀ (x agg : Vec Ideal S8000x3 .f32) (w1 : Vec Ideal S3x128 .f32) (b1 : Vec Ideal S128 .f32) (w2 : Vec Ideal S128x64 .f32)
        (b2 : Vec Ideal S64 .f32) (p : Fin 8000) (q : Fin 64),
      k0_pay1 (F := Ideal) x agg w1 b1 w2 b2 (ix2 p q)
        = Cert.GinSpec.layer (Cert.GinSpec.addRow (Cert.GinSpec.rowOf x p) (Cert.GinSpec.rowOf agg p)) w1 b1 w2 b2 q)
    (c : Dev nD) (t : Fin cfg0.N) :
    (dat0 (F := Ideal) V c).flushed 6 t
      = ((cfg0.win 6).blk t).view.read (Elt Ideal)
          (layerOf (V c main_v9) (V c main_v35) (V c main_arg3) (V c main_arg4) (V c main_arg5) (V c main_arg6)) := by
  show (cfg0.win 6).cut (grid0.coords t) ((dat0 V c).after 6 t) = _
  rw [dat0_after_6]
  unfold out0
  rw [View.canon_unit_zero layer_zeros2]
  simp only [View.ld_unit_zero (S := S8000x3) layer_zeros2, View.ld_unit_zero (S := S3x128) layer_zeros2,
    View.ld_unit_zero (S := S128) layer_zeros1, View.ld_unit_zero (S := S128x64) layer_zeros2,
    View.ld_unit_zero (S := S64) layer_zeros1]
  have e1 := (layer_idx t).2.2.2.2.2.2.2.2.2.2.2
  funext j
  show k0_pay1 (F := Ideal) (blk0 V c 0 t) (blk0 V c 1 t) (blk0 V c 2 t) (blk0 V c 3 t) (blk0 V c 4 t) (blk0 V c 5 t) j
    = layerOf (V c main_v9) (V c main_v35) (V c main_arg3) (V c main_arg4) (V c main_arg5) (V c main_arg6)
        (((cfg0.win 6).blk t).view.emb j)
  rw [layer_pay_at hpay, layer_blk_2, layer_blk_3, layer_blk_4, layer_blk_5]
  have hR : ((((cfg0.win 6).blk t).view.emb j) 0).val = win0_6.index t (0 : Fin 2) * 8000 + (j 0).val := by
    show win0_6.index t (0 : Fin 2) * 8000 + 1 * (j 0).val = _; omega
  have hC : (((cfg0.win 6).blk t).view.emb j) 1 = j 1 :=
    Fin.ext (by show win0_6.index t (1 : Fin 2) * 64 + 1 * (j 1).val = (j 1).val; omega)
  show Cert.GinSpec.layer (Cert.GinSpec.addRow (Cert.GinSpec.rowOf (blk0 V c 0 t : S8000x3.Idx → EReal) (j 0))
        (Cert.GinSpec.rowOf (blk0 V c 1 t : S8000x3.Idx → EReal) (j 0))) _ _ _ _ (j 1)
    = Cert.GinSpec.layer (Cert.GinSpec.addRow (Cert.GinSpec.rowOf (V c main_v9 : S160000x3.Idx → EReal) ((((cfg0.win 6).blk t).view.emb j) 0))
        (Cert.GinSpec.rowOf (V c main_v35 : S160000x3.Idx → EReal) ((((cfg0.win 6).blk t).view.emb j) 0))) _ _ _ _ ((((cfg0.win 6).blk t).view.emb j) 1)
  rw [layer_row_x V c t (j 0) _ hR, layer_row_agg V c t (j 0) _ hR, hC]

/-- An index of the output array is in point t's block iff each coordinate is in the block's range on its axis. -/
theorem layer_mem_blk (t : Fin cfg0.N) (i : S160000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v36).slice (win0_6.rect t)).set ↔ _
  rw [View.set_slice_whole, Rect.mem_set_unit]
  exact Iff.rfl

/-- Every index of the output array is in some point's block: row r is in the tile of point r / 8000. -/
theorem layer_covered (i : S160000x64.Idx) :
    ∃ t : Fin cfg0.N, (cfg0.win 6).flush t = true ∧ i ∈ ((cfg0.win 6).blk t).view.set := by
  have h0 : (i 0).val < 160000 := (i 0).isLt
  have h1 : (i 1).val < 64 := (i 1).isLt
  have hN : cfg0.N = 20 := N_0
  refine ⟨⟨(i 0).val / 8000, by rw [hN]; omega⟩, flush0_6 _, ?_⟩
  rw [layer_mem_blk]
  have e0 := (layer_idx ⟨(i 0).val / 8000, by rw [hN]; omega⟩).2.2.2.2.2.2.2.2.2.2.1
  have e1 := (layer_idx ⟨(i 0).val / 8000, by rw [hN]; omega⟩).2.2.2.2.2.2.2.2.2.2.2
  have ev : (⟨(i 0).val / 8000, by rw [hN]; omega⟩ : Fin cfg0.N).val = (i 0).val / 8000 := rfl
  intro a
  match a with
  | ⟨0, _⟩ =>
    show win0_6.index ⟨(i 0).val / 8000, _⟩ (0 : Fin 2) * 8000 ≤ (i 0).val
      ∧ (i 0).val < win0_6.index ⟨(i 0).val / 8000, _⟩ (0 : Fin 2) * 8000 + 8000
    omega
  | ⟨1, _⟩ =>
    show win0_6.index ⟨(i 0).val / 8000, _⟩ (1 : Fin 2) * 64 ≤ (i 1).val
      ∧ (i 1).val < win0_6.index ⟨(i 0).val / 8000, _⟩ (1 : Fin 2) * 64 + 64
    omega

/-- THE OUTPUT ARRAY after the region: at row r and feature q the dense layer of row r of the node features plus
    row r of the neighbour sums, the arrays and the weights as the region finds them. -/
theorem layer_array (c : Dev nD)
    (hpay : ∀ (x agg : Vec Ideal S8000x3 .f32) (w1 : Vec Ideal S3x128 .f32) (b1 : Vec Ideal S128 .f32) (w2 : Vec Ideal S128x64 .f32)
        (b2 : Vec Ideal S64 .f32) (p : Fin 8000) (q : Fin 64),
      k0_pay1 (F := Ideal) x agg w1 b1 w2 b2 (ix2 p q)
        = Cert.GinSpec.layer (Cert.GinSpec.addRow (Cert.GinSpec.rowOf x p) (Cert.GinSpec.rowOf agg p)) w1 b1 w2 b2 q) :
    (dat0 (F := Ideal) V c).arrAt 6 cfg0.N
      = fun i => Cert.GinSpec.layer (Cert.GinSpec.addRow (Cert.GinSpec.rowOf (V c main_v9) (i 0)) (Cert.GinSpec.rowOf (V c main_v35) (i 0)))
          (V c main_arg3) (V c main_arg4) (V c main_arg5) (V c main_arg6) (i 1) :=
  (dat0 V c).arrAt_eq_of_cover 6
    (layerOf (V c main_v9) (V c main_v35) (V c main_arg3) (V c main_arg4) (V c main_arg5) (V c main_arg6))
    (fun t _ => layer_flushed_eq V hpay c t) layer_covered

end Cert.KernelIdeal.Hand

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.LibPlainMatmul.lean ====
/-
  A plain M × K by K × N kernel matrix product into the zero accumulator, read at one entry, for operands of any float
  formats (a kernel rounds its operands to bf16 on the way in; at the exact values a change of format is the identity):
  entry (p, q) is the sum over k of L(p, k) · R(k, q).
-/
import proofs.«126217_j34187939676288_1_alg».proof.Proof.LibPlainDot

noncomputable section

namespace Idealize.ShloMosaic.ValueIdx

/-- A kernel's matrix product into the zero accumulator, operands of any formats, for any dimension record that is the
    plain one. -/
theorem matmul_plain_zero_apply_fmt {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

end Idealize.ShloMosaic.ValueIdx

end
-- ==== Proof.PayloadLemmas.lean ====
/-
  One dense step of a kernel body read at an index, at the exact values: a plain matrix product into the zero
  accumulator, plus a bias vector laid as a row and repeated down the rows, optionally through a relu against the f32
  word of 0.0. At entry (p, o) it is Σ_i L(p, i) · R(i, o) + bias(o), whatever the operands' float formats (a change of
  format is the identity on extended reals).
-/
import proofs.«126217_j34187939676288_1_alg».proof.Proof.Spec
import proofs.«126217_j34187939676288_1_alg».proof.Proof.LibPlainMatmul
import Idealize.ShloMosaic.Lib.ValueLayout

noncomputable section

namespace Cert.GinSpec

open Idealize.ShloMosaic Idealize.ShloMosaic.ValueIdx
open scoped BigOperators

/-- A length-n vector viewed as a [1, n] row and repeated down a rows reads, at (p, c), the vector at c. -/
theorem bias_row_apply {a n : ℕ} (v : (⟨1, ![n]⟩ : Shape).Idx → EReal) (hc : (⟨1, ![n]⟩ : Shape).ShapeCasts ⟨2, ![1, n]⟩)
    (hb : (⟨2, ![1, n]⟩ : Shape).Broadcasts ⟨2, ![a, n]⟩) (p : Fin a) (c : Fin n) :
    broadcastTo ⟨2, ![a, n]⟩ (shapeCast ⟨2, ![1, n]⟩ v hc) hb (ix2 p c) = v (ix1 c) :=
  (broadcastTo_1b_ab_apply _ hb p c).trans (shapeCast_a_1a_apply v hc 0 c)

/-- A plain product into the zero accumulator plus a bias row, at (p, o): Σ_i L(p, i) · R(i, o) + bias(o). -/
theorem dense_apply {M I O : ℕ} {φ₁ φ₂ : FTy} (D : DotDims ⟨2, ![M, I]⟩ ⟨2, ![I, O]⟩ ⟨2, ![M, O]⟩) (hD : D = DotDims.plain M I O)
    (prec : Option ContractPrecision) (L : FVec Ideal ⟨2, ![M, I]⟩ φ₁) (R : FVec Ideal ⟨2, ![I, O]⟩ φ₂)
    (bias : FVec Ideal ⟨1, ![O]⟩ .f32) (hc : (⟨1, ![O]⟩ : Shape).ShapeCasts ⟨2, ![1, O]⟩)
    (hb : (⟨2, ![1, O]⟩ : Shape).Broadcasts ⟨2, ![M, O]⟩) (p : Fin M) (o : Fin O) :
    addf (matmul D prec L R (constant ⟨2, ![M, O]⟩ .f32 0x00000000#32)) (broadcastTo ⟨2, ![M, O]⟩ (shapeCast ⟨2, ![1, O]⟩ bias hc) hb)
        (ix2 p o)
      = ∑ i : Fin I, L (ix2 p i) * R (ix2 i o) + bias (ix1 o) := by
  rw [addf_apply, matmul_plain_zero_apply_fmt D hD prec L R p o, bias_row_apply]

/-- The same through a relu against the f32 word of 0.0. -/
theorem relu_dense_apply {M I O : ℕ} {φ₁ φ₂ : FTy} (D : DotDims ⟨2, ![M, I]⟩ ⟨2, ![I, O]⟩ ⟨2, ![M, O]⟩) (hD : D = DotDims.plain M I O)
    (prec : Option ContractPrecision) (L : FVec Ideal ⟨2, ![M, I]⟩ φ₁) (R : FVec Ideal ⟨2, ![I, O]⟩ φ₂)
    (bias : FVec Ideal ⟨1, ![O]⟩ .f32) (hc : (⟨1, ![O]⟩ : Shape).ShapeCasts ⟨2, ![1, O]⟩)
    (hb : (⟨2, ![1, O]⟩ : Shape).Broadcasts ⟨2, ![M, O]⟩) (p : Fin M) (o : Fin O) :
    maximumf (addf (matmul D prec L R (constant ⟨2, ![M, O]⟩ .f32 0x00000000#32))
          (broadcastTo ⟨2, ![M, O]⟩ (shapeCast ⟨2, ![1, O]⟩ bias hc) hb))
        (broadcast ⟨2, ![M, O]⟩ (Scalar.ofBits (F := Ideal) .f32 0x00000000#32)) (ix2 p o)
      = max (∑ i : Fin I, L (ix2 p i) * R (ix2 i o) + bias (ix1 o)) (Ideal.ofBits .f32 0x00000000#32) := by
  rw [maximumf_apply, dense_apply D hD prec L R bias hc hb p o]
  rfl

end Cert.GinSpec

end
-- ==== Proof.PayloadLayer.lean ====
/-
  The first region's stored value read at an index: at (p, q) it is the dense layer of row p of x + agg, with the first
  convolution's weights and biases. And the two small values of the pooling region: the accumulator copied through a
  same-shape cast, and the zero array the accumulator starts from.
-/
import proofs.«126217_j34187939676288_1_alg».proof.Proof.Gen.KernelIdeal.Skeleton
import proofs.«126217_j34187939676288_1_alg».proof.Proof.PayloadLemmas

noncomputable section

namespace Cert.KernelIdeal.Hand

open Cert.KernelIdeal Cert.KernelIdeal.Gen
open Idealize.ShloMosaic Idealize.ShloMosaic.ValueIdx
open scoped BigOperators

/-- The first region's two products are plain: [8000, 3] by [3, 128], and [8000, 128] by [128, 64]. -/
theorem dot_conv1a_plain : dot_S8000x3_S3x128_S8000x128_1_0_0_1_n_n = DotDims.plain 8000 3 128 := rfl
theorem dot_convb_plain : dot_S8000x128_S128x64_S8000x64_1_0_0_1_n_n = DotDims.plain 8000 128 64 := rfl

/-- The value the first region stores at (p, q) is the dense layer of row p of x + agg. -/
theorem k0_pay1_apply (x agg : Vec Ideal S8000x3 .f32) (w1 : Vec Ideal S3x128 .f32) (b1 : Vec Ideal S128 .f32)
    (w2 : Vec Ideal S128x64 .f32) (b2 : Vec Ideal S64 .f32) (p : Fin 8000) (q : Fin 64) :
    k0_pay1 (F := Ideal) x agg w1 b1 w2 b2 (ix2 p q)
      = Cert.GinSpec.layer (Cert.GinSpec.addRow (Cert.GinSpec.rowOf x p) (Cert.GinSpec.rowOf agg p)) w1 b1 w2 b2 q := by
  unfold k0_pay1 Cert.GinSpec.layer
  refine (Cert.GinSpec.relu_dense_apply _ dot_convb_plain none _ _ b2 _ _ p q).trans ?_
  refine congrArg (fun s => max (s + b2 (ix1 q)) (Ideal.ofBits .f32 0x00000000#32)) (Finset.sum_congr rfl fun k _ => ?_)
  refine congrArg (· * w2 (ix2 k q)) ?_
  refine (Cert.GinSpec.relu_dense_apply _ dot_conv1a_plain none _ _ b1 _ _ p k).trans ?_
  rw [shapeCast_self, shapeCast_self]
  rfl

variable {F : FTy → Type} [FloatOps F]

/-- The accumulator passed through a same-shape cast is itself, at every float instance. -/
theorem k1_pay1_eq (v : FVec F S8x64 .f32) : k1_pay1 (F := F) v = v := by
  unfold k1_pay1
  exact shapeCast_self v _

/-- The array the accumulator starts from is the f32 word of 0.0 everywhere, at every float instance. -/
theorem k1_pay2_eq : k1_pay2 (F := F) = broadcast S8x64 (Scalar.ofBits (F := F) .f32 0x00000000#32) := by
  unfold k1_pay2
  exact shapeCast_self _ _

/-- At the exact values the starting accumulator reads the f32 word of 0.0 at every index. -/
theorem k1_pay2_apply (i : S8x64.Idx) : k1_pay2 (F := Ideal) i = Ideal.ofBits .f32 0x00000000#32 := by
  rw [k1_pay2_eq]
  rfl

end Cert.KernelIdeal.Hand

end
-- ==== Proof.RefConv1.lean ====
/-
  The reference's first graph convolution read at an index: row r, feature q of its output (after the outer relu) is the
  dense layer of row r of the stage that holds x + agg, with the first convolution's weights and biases.
-/
import proofs.«126217_j34187939676288_1_alg».proof.Proof.RefRead
import proofs.«126217_j34187939676288_1_alg».proof.Proof.Spec

noncomputable section

namespace Cert.ReferenceIdeal.Hand

open Cert.ReferenceIdeal Cert.ReferenceIdeal.Read
open Idealize.ShloMosaic Idealize.ShloMosaic.ValueIdx
open scoped BigOperators

variable (x0 : (⟨S8x20000x2, .f32⟩ : BufTy).Contents (Elt Ideal)) (x1 : (⟨S8x1x20000, .f32⟩ : BufTy).Contents (Elt Ideal))
  (x2 : (⟨S8x2x320000, .i32⟩ : BufTy).Contents (Elt Ideal)) (x3 : (⟨S3x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

theorem lidx_v37 (r : Fin 160000) (k : Fin 128) (i : Fin 3) : lidx_main_v37 (ix2 r k) i = ix2 r i :=
  funext fun a => Fin.ext (by match a with | ⟨0, _⟩ => rfl | ⟨1, _⟩ => rfl)
theorem ridx_v37 (r : Fin 160000) (k : Fin 128) (i : Fin 3) : ridx_main_v37 (ix2 r k) i = ix2 i k :=
  funext fun a => Fin.ext (by match a with | ⟨0, _⟩ => rfl | ⟨1, _⟩ => rfl)
theorem idx_v39 (r : Fin 160000) (k : Fin 128) : idx_main_v39 (ix2 r k) = ix2 (0 : Fin 1) k :=
  funext fun a => Fin.ext (by match a with | ⟨0, _⟩ => rfl | ⟨1, _⟩ => rfl)
theorem idx_v38 (u : Fin 1) (k : Fin 128) : idx_main_v38 (ix2 u k) = ix1 k :=
  funext fun a => Fin.ext (by match a with | ⟨0, _⟩ => rfl)
theorem lidx_v42 (r : Fin 160000) (q : Fin 64) (k : Fin 128) : lidx_main_v42 (ix2 r q) k = ix2 r k :=
  funext fun a => Fin.ext (by match a with | ⟨0, _⟩ => rfl | ⟨1, _⟩ => rfl)
theorem ridx_v42 (r : Fin 160000) (q : Fin 64) (k : Fin 128) : ridx_main_v42 (ix2 r q) k = ix2 k q :=
  funext fun a => Fin.ext (by match a with | ⟨0, _⟩ => rfl | ⟨1, _⟩ => rfl)
theorem idx_v44 (r : Fin 160000) (q : Fin 64) : idx_main_v44 (ix2 r q) = ix2 (0 : Fin 1) q :=
  funext fun a => Fin.ext (by match a with | ⟨0, _⟩ => rfl | ⟨1, _⟩ => rfl)
theorem idx_v43 (u : Fin 1) (q : Fin 64) : idx_main_v43 (ix2 u q) = ix1 q :=
  funext fun a => Fin.ext (by match a with | ⟨0, _⟩ => rfl)

/-- Hidden unit k of the first convolution on row r: relu(Σ_i (x + agg)(r, i) · c1_w1(i, k) + c1_b1(k)). -/
theorem ref_conv1_hidden (r : Fin 160000) (k : Fin 128) :
    val_main_v41 (F := Ideal) x0 x1 x2 x3 x4 (ix2 r k)
      = Cert.GinSpec.hidden (Cert.GinSpec.rowOf (val_main_v36 (F := Ideal) x0 x1 x2) r) x3 x4 k := by
  rw [val_main_v41_apply, val_main_v40_apply, val_main_v37_apply, val_main_v39_apply, val_main_v38_apply,
    val_main_call0_v0_apply, val_main_call0_cst_apply, idx_v39, idx_v38]
  simp only [lidx_v37, ridx_v37, Ideal.maximumf_def, Ideal.addf_def, Ideal.ofBits_def]
  unfold Cert.GinSpec.hidden Cert.GinSpec.rowOf
  rfl

/-- The first convolution's output at (r, q) is the dense layer of row r of x + agg. -/
theorem ref_conv1 (r : Fin 160000) (q : Fin 64) :
    val_main_v46 (F := Ideal) x0 x1 x2 x3 x4 x5 x6 (ix2 r q)
      = Cert.GinSpec.layer (Cert.GinSpec.rowOf (val_main_v36 (F := Ideal) x0 x1 x2) r) x3 x4 x5 x6 q := by
  rw [val_main_v46_apply, val_main_v45_apply, val_main_v42_apply, val_main_v44_apply, val_main_v43_apply,
    val_main_call1_v0_apply, val_main_call1_cst_apply, idx_v44, idx_v43]
  simp only [lidx_v42, ridx_v42, ref_conv1_hidden, Ideal.maximumf_def, Ideal.addf_def, Ideal.ofBits_def]
  unfold Cert.GinSpec.layer
  rfl

end Cert.ReferenceIdeal.Hand

end
-- ==== Proof.JoinLayerOne.lean ====
/-
  The first layer at Ideal: the first region's output array, assembled from its twenty row tiles, is
  row r ↦ relu(relu((x_r + agg_r)·W1 + b1)·W2 + b2) of the stacked features x and the first aggregate agg — the reference's
  first convolution with its outer relu, read at the same row.
-/
import proofs.«126217_j34187939676288_1_alg».proof.Proof.HostGlue
import proofs.«126217_j34187939676288_1_alg».proof.Proof.LayerOneArray
import proofs.«126217_j34187939676288_1_alg».proof.Proof.PayloadLayer
import proofs.«126217_j34187939676288_1_alg».proof.Proof.RefConv1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The first layer's output array [160000, 64] is the reference's first convolution with its outer relu. -/
theorem layer1_eq (c : Dev nD) :
    (B2 m c main_v36 : (⟨S160000x64, .f32⟩ : BufTy).Contents (Elt Ideal))
      = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show B2 m c (Proc.devRef .tc main_v36) = _ from layerOut_eq m c, layer_array (E1 m) c k0_pay1_apply]
  funext i
  obtain ⟨r, q, rfl⟩ : ∃ (r : Fin 160000) (q : Fin 64), i = ix2 r q := ⟨i 0, i 1, eq_ix2 i⟩
  rw [Cert.ReferenceIdeal.Hand.ref_conv1]
  rw [show E1 m c main_v9 = _ from feats_eq m c, show E1 m c main_v35 = _ from agg1_eq m c,
    show E1 m c main_arg3 = _ from asLaunched1 m c main_arg3 (by decide), show E1 m c main_arg4 = _ from asLaunched1 m c main_arg4 (by decide),
    show E1 m c main_arg5 = _ from asLaunched1 m c main_arg5 (by decide), show E1 m c main_arg6 = _ from asLaunched1 m c main_arg6 (by decide)]
  rfl

end Cert.KernelIdeal.Hand

end
-- ==== Proof.SumTiles.lean ====
/-
  A graph's 20000 nodes as 20 consecutive tiles of 1000: the pooled sum over the nodes is the sum over the tiles of each
  tile's sum, and the sum over the first t tiles grows by one tile's sum at a time (the form an induction over the tiles
  uses). A node function on Fin 20000 is read at a natural number as zero beyond the range, so that the partial sums
  need no bound on t.
-/
import proofs.«126217_j34187939676288_1_alg».proof.Proof.Spec

noncomputable section

namespace Cert.GinSpec

open scoped BigOperators

variable {M : Type} [AddCommMonoid M]

/-- A sum over the first T · B naturals, grouped as T consecutive tiles of B. -/
theorem sum_range_tiles (g : ℕ → M) (B T : ℕ) :
    ∑ n ∈ Finset.range (T * B), g n = ∑ s ∈ Finset.range T, ∑ j ∈ Finset.range B, g (s * B + j) := by
  induction T with
  | zero => simp
  | succ T ih => rw [Nat.succ_mul, Finset.sum_range_add, ih, Finset.sum_range_succ]

/-- A node function read at a natural number: zero beyond the 20000 nodes. -/
def atNat (f : Fin 20000 → M) (n : ℕ) : M := if h : n < 20000 then f ⟨n, h⟩ else 0

theorem atNat_of_lt (f : Fin 20000 → M) {n : ℕ} (h : n < 20000) : atNat f n = f ⟨n, h⟩ := dif_pos h

/-- Node j of tile t, for a tile among the 20, is one of the 20000 nodes. -/
theorem tile_node_lt {t : ℕ} (ht : t < 20) (j : Fin 1000) : t * 1000 + j.val < 20000 := by
  have := j.isLt; omega

/-- The sum of a node function over the first t tiles of 1000 nodes. -/
def tilePrefix (f : Fin 20000 → M) (t : ℕ) : M := ∑ s ∈ Finset.range t, ∑ j : Fin 1000, atNat f (s * 1000 + j.val)

theorem tilePrefix_zero (f : Fin 20000 → M) : tilePrefix f 0 = 0 := by
  unfold tilePrefix
  rw [Finset.sum_range_zero]

/-- One more tile adds that tile's sum. -/
theorem tilePrefix_succ (f : Fin 20000 → M) {t : ℕ} (ht : t < 20) :
    tilePrefix f (t + 1) = tilePrefix f t + ∑ j : Fin 1000, f ⟨t * 1000 + j.val, tile_node_lt ht j⟩ := by
  unfold tilePrefix
  rw [Finset.sum_range_succ]
  exact congrArg (_ + ·) (Finset.sum_congr rfl fun j _ => atNat_of_lt f (tile_node_lt ht j))

/-- The sum over all 20000 nodes is the sum over the 20 tiles. -/
theorem sum_eq_tilePrefix (f : Fin 20000 → M) : ∑ n : Fin 20000, f n = tilePrefix f 20 := by
  have h1 : ∑ n : Fin 20000, f n = ∑ n ∈ Finset.range 20000, atNat f n := by
    rw [Finset.sum_range]
    exact Finset.sum_congr rfl fun n _ => (atNat_of_lt f n.isLt).symm
  have h2 : ∑ n ∈ Finset.range 20000, atNat f n
      = ∑ s ∈ Finset.range 20, ∑ j ∈ Finset.range 1000, atNat f (s * 1000 + j) := sum_range_tiles (atNat f) 1000 20
  rw [h1, h2]
  unfold tilePrefix
  exact Finset.sum_congr rfl fun s _ => Finset.sum_range fun j => atNat f (s * 1000 + j)

/-- The same as a regrouping into a double sum over tiles and nodes of a tile. -/
theorem sum_eq_sum_tiles (f : Fin 20000 → M) :
    ∑ n : Fin 20000, f n = ∑ t : Fin 20, ∑ j : Fin 1000, f ⟨t.val * 1000 + j.val, tile_node_lt t.isLt j⟩ := by
  rw [sum_eq_tilePrefix]
  unfold tilePrefix
  rw [Finset.sum_range]
  exact Finset.sum_congr rfl fun t _ => Finset.sum_congr rfl fun j _ => atNat_of_lt f (tile_node_lt t.isLt j)

/-- The pooled sum over a graph's 20000 nodes is the sum over its 20 tiles. -/
theorem pool_eq_tilePrefix (f : Fin 20000 → EReal) : pool f = tilePrefix f 20 := by
  unfold pool
  exact sum_eq_tilePrefix f

/-- A tile's pooled sum is the step of the partial sums. -/
theorem tilePrefix_succ_pool (f : Fin 20000 → EReal) {t : ℕ} (ht : t < 20) :
    tilePrefix f (t + 1) = tilePrefix f t + pool (fun j : Fin 1000 => f ⟨t * 1000 + j.val, tile_node_lt ht j⟩) := by
  unfold pool
  exact tilePrefix_succ f ht

end Cert.GinSpec

end
-- ==== Proof.PayloadPool.lean ====
/-
  The pooling region's new accumulator read at an index: at (b, e) it is the old accumulator plus the sum, over the 1000
  nodes n of graph b in the tile, of the dense layer's feature e on node (b, n) of x + agg. The body lays the
  [8, 1000, 64] tile out as [8000, 64] (node (b, n) is row b · 1000 + n), applies the layer row by row, views the result
  as [8, 1000, 64] again and sums over the node axis.
-/
import proofs.«126217_j34187939676288_1_alg».proof.Proof.Gen.KernelIdeal.Skeleton
import proofs.«126217_j34187939676288_1_alg».proof.Proof.PayloadLemmas

noncomputable section

namespace Cert.KernelIdeal.Hand

open Cert.KernelIdeal Cert.KernelIdeal.Gen
open Idealize.ShloMosaic Idealize.ShloMosaic.ValueIdx
open scoped BigOperators

/-- The pooling region's two products are plain: [8000, 64] by [64, 128], and [8000, 128] by [128, 64]. -/
theorem dot_conv2a_plain : dot_S8000x64_S64x128_S8000x128_1_0_0_1_n_n = DotDims.plain 8000 64 128 := rfl
theorem dot_conv2b_plain : dot_S8000x128_S128x64_S8000x64_1_0_0_1_n_n = DotDims.plain 8000 128 64 := rfl

/-- Node n of the tile's graph b is row b · 1000 + n of the tile laid out as [8000, 64]. -/
theorem tile_row_lt (b : Fin 8) (n : Fin 1000) : b.val * 1000 + n.val < 8000 := by
  have := b.isLt; have := n.isLt; omega

/-- An [8, 1000, 64] tile viewed as [8000, 64]: row b · 1000 + n is node (b, n). -/
theorem flatten_apply {α : Type} (x : (⟨3, ![8, 1000, 64]⟩ : Shape).Idx → α)
    (h : (⟨3, ![8, 1000, 64]⟩ : Shape).ShapeCasts ⟨2, ![8000, 64]⟩) (b : Fin 8) (n : Fin 1000) (i : Fin 64) :
    shapeCast ⟨2, ![8000, 64]⟩ x h (ix2 (⟨b.val * 1000 + n.val, tile_row_lt b n⟩ : Fin 8000) i) = x (ix3 b n i) :=
  shapeCast_apply x h _ _ (by
    rw [Shape.rowMajor_val_three, Shape.rowMajor_val_two]
    show (b.val * 1000 + n.val) * 64 + i.val = (b.val * 1000 + n.val) * 64 + i.val
    rfl)

/-- An [8000, 64] array viewed as [8, 1000, 64]: node (b, n) is row b · 1000 + n. -/
theorem unflatten_apply {α : Type} (y : (⟨2, ![8000, 64]⟩ : Shape).Idx → α)
    (h : (⟨2, ![8000, 64]⟩ : Shape).ShapeCasts ⟨3, ![8, 1000, 64]⟩) (b : Fin 8) (n : Fin 1000) (e : Fin 64) :
    shapeCast ⟨3, ![8, 1000, 64]⟩ y h (ix3 b n e) = y (ix2 (⟨b.val * 1000 + n.val, tile_row_lt b n⟩ : Fin 8000) e) :=
  shapeCast_apply y h _ _ (by
    rw [Shape.rowMajor_val_two, Shape.rowMajor_val_three]
    show (b.val * 1000 + n.val) * 64 + e.val = (b.val * 1000 + n.val) * 64 + e.val
    rfl)

/-- Graph b, feature e with the node coordinate n put back is (b, n, e). -/
theorem lift_node (h : Shape.Reduces ⟨3, ![8, 1000, 64]⟩ [(1 : Fin 3)] ⟨2, ![8, 64]⟩) (b : Fin 8) (e : Fin 64) (n : Fin 1000) :
    h.lift (ix2 b e) n = ix3 b n e :=
  funext fun c => Fin.ext (by
    match c with
    | ⟨0, _⟩ => rfl
    | ⟨1, _⟩ => rfl
    | ⟨2, _⟩ => rfl)

/-- The layer on node (b, n) of the tile, read on the tile laid out as [8000, 64] at row b · 1000 + n. -/
theorem tile_layer_apply (x agg : Vec Ideal S8x1000x64 .f32) (w1 : Vec Ideal S64x128 .f32) (b1 : Vec Ideal S128 .f32)
    (w2 : Vec Ideal S128x64 .f32) (b2 : Vec Ideal S64 .f32) (b : Fin 8) (n : Fin 1000) (e : Fin 64) :
    maximumf
        (addf
          (matmul dot_S8000x128_S128x64_S8000x64_1_0_0_1_n_n none
            (truncf .bf16
              (maximumf
                (addf
                  (matmul dot_S8000x64_S64x128_S8000x128_1_0_0_1_n_n none
                    (addf
                      (truncf .bf16 (shapeCast S8000x64 (shapeCast S8x1000x64 x shapeCasts_S8x1000x64_S8x1000x64) shapeCasts_S8x1000x64_S8000x64) bitsLt_bf16_f32)
                      (truncf .bf16 (shapeCast S8000x64 (shapeCast S8x1000x64 agg shapeCasts_S8x1000x64_S8x1000x64) shapeCasts_S8x1000x64_S8000x64) bitsLt_bf16_f32))
                    (truncf .bf16 w1 bitsLt_bf16_f32) (constant S8000x128 .f32 0x00000000#32))
                  (broadcastTo S8000x128 (shapeCast S1x128 b1 shapeCasts_S128_S1x128) broadcasts_S1x128_S8000x128))
                (broadcast S8000x128 (Scalar.ofBits (F := Ideal) .f32 0x00000000#32)))
              bitsLt_bf16_f32)
            (truncf .bf16 w2 bitsLt_bf16_f32) (constant S8000x64 .f32 0x00000000#32))
          (broadcastTo S8000x64 (shapeCast S1x64 b2 shapeCasts_S64_S1x64) broadcasts_S1x64_S8000x64))
        (broadcast S8000x64 (Scalar.ofBits (F := Ideal) .f32 0x00000000#32))
        (ix2 (⟨b.val * 1000 + n.val, tile_row_lt b n⟩ : Fin 8000) e)
      = Cert.GinSpec.layer (Cert.GinSpec.addRow (Cert.GinSpec.nodeOf x b n) (Cert.GinSpec.nodeOf agg b n)) w1 b1 w2 b2 e := by
  unfold Cert.GinSpec.layer
  refine (Cert.GinSpec.relu_dense_apply _ dot_conv2b_plain none _ _ b2 _ _ _ e).trans ?_
  refine congrArg (fun s => max (s + b2 (ix1 e)) (Ideal.ofBits .f32 0x00000000#32)) (Finset.sum_congr rfl fun k _ => ?_)
  refine congrArg (· * w2 (ix2 k e)) ?_
  refine (Cert.GinSpec.relu_dense_apply _ dot_conv2a_plain none _ _ b1 _ _ _ k).trans ?_
  unfold Cert.GinSpec.hidden
  refine congrArg (fun s => max (s + b1 (ix1 k)) (Ideal.ofBits .f32 0x00000000#32)) (Finset.sum_congr rfl fun i _ => ?_)
  refine congrArg (· * w1 (ix2 i k)) ?_
  rw [shapeCast_self, shapeCast_self]
  exact congrArg₂ (· + ·) (flatten_apply x _ b n i) (flatten_apply agg _ b n i)

/-- The lane sum over the node axis of an [8000, 64] array viewed as [8, 1000, 64], at (b, e): the sum over graph b's
    1000 nodes of the array's entry at row b · 1000 + n, feature e. -/
theorem node_sum_apply (V : FVec Ideal ⟨2, ![8000, 64]⟩ .f32) (hc : (⟨2, ![8000, 64]⟩ : Shape).ShapeCasts ⟨3, ![8, 1000, 64]⟩)
    (hr : Shape.Reduces ⟨3, ![8, 1000, 64]⟩ [(1 : Fin 3)] ⟨2, ![8, 64]⟩) (hφ : FKind.Formats .f32)
    (hacc : (0x00000000#32 : BitVec 32) = FKind.add.neutral .f32 hφ) (b : Fin 8) (e : Fin 64) :
    multiReduction .add [(1 : Fin 3)] ⟨2, ![8, 64]⟩ (shapeCast ⟨3, ![8, 1000, 64]⟩ V hc) 0x00000000#32 hr hφ hacc (ix2 b e)
      = ∑ n : Fin 1000, V (ix2 (⟨b.val * 1000 + n.val, tile_row_lt b n⟩ : Fin 8000) e) :=
  (Ideal.multiReduction_add_single (shapeCast ⟨3, ![8, 1000, 64]⟩ V hc) 0x00000000#32 hr hφ hacc (ix2 b e)).trans
    (Finset.sum_congr rfl fun n _ =>
      (congrArg (shapeCast ⟨3, ![8, 1000, 64]⟩ V hc) (lift_node hr b e n)).trans (unflatten_apply V hc b n e))

/-- The pooling region's new accumulator at (b, e): the old one plus the sum over the tile's 1000 nodes of graph b of
    the layer's feature e. -/
theorem k1_pay3_apply (x agg : Vec Ideal S8x1000x64 .f32) (w1 : Vec Ideal S64x128 .f32) (b1 : Vec Ideal S128 .f32)
    (w2 : Vec Ideal S128x64 .f32) (b2 : Vec Ideal S64 .f32) (acc : Vec Ideal S8x64 .f32) (b : Fin 8) (e : Fin 64) :
    k1_pay3 (F := Ideal) x agg w1 b1 w2 b2 acc (ix2 b e)
      = acc (ix2 b e) + Cert.GinSpec.pool (fun n : Fin 1000 =>
          Cert.GinSpec.layer (Cert.GinSpec.addRow (Cert.GinSpec.nodeOf x b n) (Cert.GinSpec.nodeOf agg b n)) w1 b1 w2 b2 e) := by
  unfold k1_pay3 Cert.GinSpec.pool
  refine congrArg (acc (ix2 b e) + ·) ?_
  refine (node_sum_apply _ _ _ _ _ b e).trans ?_
  exact Finset.sum_congr rfl fun n _ => tile_layer_apply x agg w1 b1 w2 b2 b n e

end Cert.KernelIdeal.Hand

end
-- ==== Proof.PoolArray.lean ====
/- The second layer fused with the sum over a graph's nodes, from its blocks to the array: REGION 1 of @main runs
   20 points, point t on nodes 1000·t … 1000·t + 999 of each of the 8 graphs, adds the tile's sum into an
   accumulator that the first point starts from zero, and writes the accumulator back once, after the last point.
   So the output array [8,64] ends holding, at graph b and feature e,

       0 + Σ_{n < 20000} relu (Σ_k relu (Σ_i (x(b,n,i) + agg(b,n,i)) · W1(i,k) + b1(k)) · W2(k,e) + b2(e)),

   the sum taken tile by tile in the grid's order (at the exact values, the extended reals, the order does not
   matter), the leading 0 the f32 word of 0.0 the accumulator starts from. x and agg are the [8,20000,64] arrays
   and W1, b1, W2, b2 the weights and biases as the region finds them. -/
import proofs.«126217_j34187939676288_1_alg».proof.Proof.PoolRegion
import proofs.«126217_j34187939676288_1_alg».proof.Proof.Spec
import proofs.«126217_j34187939676288_1_alg».proof.Proof.SumTiles
import proofs.«126217_j34187939676288_1_alg».proof.Proof.PayloadPool
import proofs.«126217_j34187939676288_1_alg».proof.Proof.PayloadLayer
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents when the region is entered, at the exact values
variable (V : (c : Dev nD) → (b : Ref sig .tc) → Buf (Elt Ideal) ((c : Thread nD τ).loc b))

/-- The layer's feature e on node n of graph b of x + agg, as a function of the node. -/
abbrev poolFn (c : Dev nD) (b : Fin 8) (e : Fin 64) : Fin 20000 → EReal :=
  fun n => Cert.GinSpec.layer
    (Cert.GinSpec.addRow (Cert.GinSpec.nodeOf (V c main_v52 : S8x20000x64.Idx → EReal) b n)
      (Cert.GinSpec.nodeOf (V c main_v53 : S8x20000x64.Idx → EReal) b n))
    (V c main_arg7) (V c main_arg8) (V c main_arg9) (V c main_arg10) e

/-- The printed index maps over the grid's 20 points: the two tiled inputs are at block (0, t, 0) at point t; the
    weights and biases are at block 0 on every axis at every point. -/
theorem pool_idx : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

/-! ## The weights' and biases' blocks are their whole arrays, at every point -/

theorem pool_blk_2 (c : Dev nD) (t : Fin cfg1.N) : (blk1 V c 2 t : S64x128.Idx → EReal) = (V c main_arg7 : S64x128.Idx → EReal) := by
  obtain ⟨-, -, -, -, -, -, e0, e1, -⟩ := pool_idx t
  funext y
  show (V c main_arg7 : S64x128.Idx → EReal) (((cfg1.win 2).blk t).view.emb y) = _
  congr 1
  funext a; apply Fin.ext
  match a with
  | ⟨0, _⟩ => show win1_2.index t (0 : Fin 2) * 64 + 1 * (y 0).val = (y 0).val; omega
  | ⟨1, _⟩ => show win1_2.index t (1 : Fin 2) * 128 + 1 * (y 1).val = (y 1).val; omega

theorem pool_blk_3 (c : Dev nD) (t : Fin cfg1.N) : (blk1 V c 3 t : S128.Idx → EReal) = (V c main_arg8 : S128.Idx → EReal) := by
  obtain ⟨-, -, -, -, -, -, -, -, e0, -⟩ := pool_idx t
  funext y
  show (V c main_arg8 : S128.Idx → EReal) (((cfg1.win 3).blk t).view.emb y) = _
  congr 1
  funext a; apply Fin.ext
  match a with
  | ⟨0, _⟩ => show win1_3.index t (0 : Fin 1) * 128 + 1 * (y 0).val = (y 0).val; omega

theorem pool_blk_4 (c : Dev nD) (t : Fin cfg1.N) : (blk1 V c 4 t : S128x64.Idx → EReal) = (V c main_arg9 : S128x64.Idx → EReal) := by
  obtain ⟨-, -, -, -, -, -, -, -, -, e0, e1, -⟩ := pool_idx t
  funext y
  show (V c main_arg9 : S128x64.Idx → EReal) (((cfg1.win 4).blk t).view.emb y) = _
  congr 1
  funext a; apply Fin.ext
  match a with
  | ⟨0, _⟩ => show win1_4.index t (0 : Fin 2) * 128 + 1 * (y 0).val = (y 0).val; omega
  | ⟨1, _⟩ => show win1_4.index t (1 : Fin 2) * 64 + 1 * (y 1).val = (y 1).val; omega

theorem pool_blk_5 (c : Dev nD) (t : Fin cfg1.N) : (blk1 V c 5 t : S64.Idx → EReal) = (V c main_arg10 : S64.Idx → EReal) := by
  obtain ⟨-, -, -, -, -, -, -, -, -, -, -, e0⟩ := pool_idx t
  funext y
  show (V c main_arg10 : S64.Idx → EReal) (((cfg1.win 5).blk t).view.emb y) = _
  congr 1
  funext a; apply Fin.ext
  match a with
  | ⟨0, _⟩ => show win1_5.index t (0 : Fin 1) * 64 + 1 * (y 0).val = (y 0).val; omega

/-! ## Node j of a tiled input's block at point t is node 1000·t + j of the array -/

theorem pool_node_x (c : Dev nD) (t : Fin cfg1.N) (b : Fin 8) (j : Fin 1000) (n : Fin 20000)
    (hn : n.val = t.val * 1000 + j.val) :
    Cert.GinSpec.nodeOf (blk1 V c 0 t : S8x1000x64.Idx → EReal) b j
      = Cert.GinSpec.nodeOf (V c main_v52 : S8x20000x64.Idx → EReal) b n := by
  obtain ⟨e0, e1, e2, -⟩ := pool_idx t
  funext i
  show (V c main_v52 : S8x20000x64.Idx → EReal) (((cfg1.win 0).blk t).view.emb (ix3 b j i))
    = (V c main_v52 : S8x20000x64.Idx → EReal) (ix3 b n i)
  congr 1
  funext a; apply Fin.ext
  match a with
  | ⟨0, _⟩ => show win1_0.index t (0 : Fin 3) * 8 + 1 * b.val = b.val; omega
  | ⟨1, _⟩ => show win1_0.index t (1 : Fin 3) * 1000 + 1 * j.val = n.val; omega
  | ⟨2, _⟩ => show win1_0.index t (2 : Fin 3) * 64 + 1 * i.val = i.val; omega

theorem pool_node_agg (c : Dev nD) (t : Fin cfg1.N) (b : Fin 8) (j : Fin 1000) (n : Fin 20000)
    (hn : n.val = t.val * 1000 + j.val) :
    Cert.GinSpec.nodeOf (blk1 V c 1 t : S8x1000x64.Idx → EReal) b j
      = Cert.GinSpec.nodeOf (V c main_v53 : S8x20000x64.Idx → EReal) b n := by
  obtain ⟨-, -, -, e0, e1, e2, -⟩ := pool_idx t
  funext i
  show (V c main_v53 : S8x20000x64.Idx → EReal) (((cfg1.win 1).blk t).view.emb (ix3 b j i))
    = (V c main_v53 : S8x20000x64.Idx → EReal) (ix3 b n i)
  congr 1
  funext a; apply Fin.ext
  match a with
  | ⟨0, _⟩ => show win1_1.index t (0 : Fin 3) * 8 + 1 * b.val = b.val; omega
  | ⟨1, _⟩ => show win1_1.index t (1 : Fin 3) * 1000 + 1 * j.val = n.val; omega
  | ⟨2, _⟩ => show win1_1.index t (2 : Fin 3) * 64 + 1 * i.val = i.val; omega

/-! ## The accumulator after the first t points, and the array -/

/-- After the first t points the accumulator holds, at (b, e), the starting zero plus the sum over the first t tiles
    of the layer's feature e on graph b's nodes. -/
theorem pool_acc (c : Dev nD) (b : Fin 8) (e : Fin 64) : ∀ t : ℕ, t ≤ 20 →
    acc1 (F := Ideal) V c t (ix2 b e) = Ideal.ofBits .f32 0x00000000#32 + Cert.GinSpec.tilePrefix (poolFn V c b e) t
  | 0, _ => by
    rw [acc1_zero, k1_pay2_apply, Cert.GinSpec.tilePrefix_zero, add_zero]
  | t + 1, ht => by
    have htN : t < cfg1.N := by rw [show cfg1.N = 20 from N_1]; omega
    have ht20 : t < 20 := by omega
    have ih := pool_acc c b e t (by omega)
    have hs : acc1 (F := Ideal) V c (t + 1)
        = k1_pay1 (k1_pay3 (blk1 V c 0 ⟨t, htN⟩) (blk1 V c 1 ⟨t, htN⟩) (blk1 V c 2 ⟨t, htN⟩) (blk1 V c 3 ⟨t, htN⟩)
            (blk1 V c 4 ⟨t, htN⟩) (blk1 V c 5 ⟨t, htN⟩) (acc1 V c t)) := acc1_succ V c ⟨t, htN⟩
    rw [hs, k1_pay1_eq, k1_pay3_apply, ih, Cert.GinSpec.tilePrefix_succ_pool _ ht20, add_assoc]
    refine congrArg (Ideal.ofBits .f32 0x00000000#32 + ·) (congrArg (Cert.GinSpec.tilePrefix (poolFn V c b e) t + ·) ?_)
    refine congrArg Cert.GinSpec.pool (funext fun j => ?_)
    show Cert.GinSpec.layer (Cert.GinSpec.addRow (Cert.GinSpec.nodeOf (blk1 V c 0 ⟨t, htN⟩ : S8x1000x64.Idx → EReal) b j)
          (Cert.GinSpec.nodeOf (blk1 V c 1 ⟨t, htN⟩ : S8x1000x64.Idx → EReal) b j))
        (blk1 V c 2 ⟨t, htN⟩ : S64x128.Idx → EReal) (blk1 V c 3 ⟨t, htN⟩ : S128.Idx → EReal)
        (blk1 V c 4 ⟨t, htN⟩ : S128x64.Idx → EReal) (blk1 V c 5 ⟨t, htN⟩ : S64.Idx → EReal) e
      = poolFn V c b e ⟨t * 1000 + j.val, Cert.GinSpec.tile_node_lt ht20 j⟩
    rw [pool_blk_2, pool_blk_3, pool_blk_4, pool_blk_5,
      pool_node_x V c ⟨t, htN⟩ b j ⟨t * 1000 + j.val, Cert.GinSpec.tile_node_lt ht20 j⟩ rfl,
      pool_node_agg V c ⟨t, htN⟩ b j ⟨t * 1000 + j.val, Cert.GinSpec.tile_node_lt ht20 j⟩ rfl]

/-- THE OUTPUT ARRAY after the region: at graph b and feature e the starting zero plus the sum over the graph's 20000
    nodes of the dense layer's feature e on the node of x + agg, the arrays and the weights as the region finds them. -/
theorem pool_array (c : Dev nD) :
    (dat1 (F := Ideal) V c).arrAt 6 cfg1.N
      = fun i => Ideal.ofBits .f32 0x00000000#32 + Cert.GinSpec.pool (fun n : Fin 20000 =>
          Cert.GinSpec.layer (Cert.GinSpec.addRow (Cert.GinSpec.nodeOf (V c main_v52) (i 0) n) (Cert.GinSpec.nodeOf (V c main_v53) (i 0) n))
            (V c main_arg7) (V c main_arg8) (V c main_arg9) (V c main_arg10) (i 1)) := by
  refine (dat1_result V c).trans (funext fun i => ?_)
  have h := (congrArg (acc1 (F := Ideal) V c 20) (eq_ix2 i)).trans (pool_acc V c (i 0) (i 1) 20 (le_refl _))
  rw [Cert.GinSpec.pool_eq_tilePrefix]
  exact h

end Cert.KernelIdeal.Hand

end
-- ==== Proof.RefConv2.lean ====
/-
  The reference's second graph convolution and the pooling read at an index. Row r, feature q of the second
  convolution's output (after the outer relu) is the dense layer of row r of the stage that holds y + agg, with the
  second convolution's weights and biases. Viewed as [8, 20000, 64], node n of graph b is row b · 20000 + n; the pooled
  feature (b, e) is the f32 word of 0.0 plus the sum over the graph's 20000 nodes of that layer's feature e.
-/
import proofs.«126217_j34187939676288_1_alg».proof.Proof.RefRead
import proofs.«126217_j34187939676288_1_alg».proof.Proof.Spec

noncomputable section

namespace Cert.ReferenceIdeal.Hand

open Cert.ReferenceIdeal Cert.ReferenceIdeal.Read
open Idealize.ShloMosaic Idealize.ShloMosaic.ValueIdx
open scoped BigOperators

variable (x0 : (⟨S8x20000x2, .f32⟩ : BufTy).Contents (Elt Ideal)) (x1 : (⟨S8x1x20000, .f32⟩ : BufTy).Contents (Elt Ideal))
  (x2 : (⟨S8x2x320000, .i32⟩ : BufTy).Contents (Elt Ideal)) (x3 : (⟨S3x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S64x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal))

theorem lidx_v63 (r : Fin 160000) (k : Fin 128) (i : Fin 64) : lidx_main_v63 (ix2 r k) i = ix2 r i :=
  funext fun a => Fin.ext (by match a with | ⟨0, _⟩ => rfl | ⟨1, _⟩ => rfl)
theorem ridx_v63 (r : Fin 160000) (k : Fin 128) (i : Fin 64) : ridx_main_v63 (ix2 r k) i = ix2 i k :=
  funext fun a => Fin.ext (by match a with | ⟨0, _⟩ => rfl | ⟨1, _⟩ => rfl)
theorem idx_v65 (r : Fin 160000) (k : Fin 128) : idx_main_v65 (ix2 r k) = ix2 (0 : Fin 1) k :=
  funext fun a => Fin.ext (by match a with | ⟨0, _⟩ => rfl | ⟨1, _⟩ => rfl)
theorem idx_v64 (u : Fin 1) (k : Fin 128) : idx_main_v64 (ix2 u k) = ix1 k :=
  funext fun a => Fin.ext (by match a with | ⟨0, _⟩ => rfl)
theorem lidx_v68 (r : Fin 160000) (q : Fin 64) (k : Fin 128) : lidx_main_v68 (ix2 r q) k = ix2 r k :=
  funext fun a => Fin.ext (by match a with | ⟨0, _⟩ => rfl | ⟨1, _⟩ => rfl)
theorem ridx_v68 (r : Fin 160000) (q : Fin 64) (k : Fin 128) : ridx_main_v68 (ix2 r q) k = ix2 k q :=
  funext fun a => Fin.ext (by match a with | ⟨0, _⟩ => rfl | ⟨1, _⟩ => rfl)
theorem idx_v70 (r : Fin 160000) (q : Fin 64) : idx_main_v70 (ix2 r q) = ix2 (0 : Fin 1) q :=
  funext fun a => Fin.ext (by match a with | ⟨0, _⟩ => rfl | ⟨1, _⟩ => rfl)
theorem idx_v69 (u : Fin 1) (q : Fin 64) : idx_main_v69 (ix2 u q) = ix1 q :=
  funext fun a => Fin.ext (by match a with | ⟨0, _⟩ => rfl)

/-- Hidden unit k of the second convolution on row r: relu(Σ_i (y + agg)(r, i) · c2_w1(i, k) + c2_b1(k)). -/
theorem ref_conv2_hidden (r : Fin 160000) (k : Fin 128) :
    val_main_v67 (F := Ideal) x0 x1 x2 x3 x4 x5 x6 x7 x8 (ix2 r k)
      = Cert.GinSpec.hidden (Cert.GinSpec.rowOf (val_main_v62 (F := Ideal) x0 x1 x2 x3 x4 x5 x6) r) x7 x8 k := by
  rw [val_main_v67_apply, val_main_v66_apply, val_main_v63_apply, val_main_v65_apply, val_main_v64_apply,
    val_main_call2_v0_apply, val_main_call2_cst_apply, idx_v65, idx_v64]
  simp only [lidx_v63, ridx_v63, Ideal.maximumf_def, Ideal.addf_def, Ideal.ofBits_def]
  unfold Cert.GinSpec.hidden Cert.GinSpec.rowOf
  rfl

/-- The second convolution's output at (r, q) is the dense layer of row r of y + agg. -/
theorem ref_conv2 (r : Fin 160000) (q : Fin 64) :
    val_main_v72 (F := Ideal) x0 x1 x2 x3 x4 x5 x6 x7 x8 x9 x10 (ix2 r q)
      = Cert.GinSpec.layer (Cert.GinSpec.rowOf (val_main_v62 (F := Ideal) x0 x1 x2 x3 x4 x5 x6) r) x7 x8 x9 x10 q := by
  rw [val_main_v72_apply, val_main_v71_apply, val_main_v68_apply, val_main_v70_apply, val_main_v69_apply,
    val_main_call3_v0_apply, val_main_call3_cst_apply, idx_v70, idx_v69]
  simp only [lidx_v68, ridx_v68, ref_conv2_hidden, Ideal.maximumf_def, Ideal.addf_def, Ideal.ofBits_def]
  unfold Cert.GinSpec.layer
  rfl

/-- Node n of graph b is a row of the [160000, 64] array. -/
theorem node_lt (b : Fin 8) (n : Fin 20000) : b.val * 20000 + n.val < 160000 := by
  have := b.isLt; have := n.isLt; omega

/-- The [160000, 64] array viewed as [8, 20000, 64]: element (b, n, e) is element (b · 20000 + n, e). -/
theorem idx_v73 (b : Fin 8) (n : Fin 20000) (e : Fin 64) :
    idx_main_v73 (ix3 b n e) = ix2 (⟨b.val * 20000 + n.val, node_lt b n⟩ : Fin 160000) e :=
  funext fun a => Fin.ext (by
    match a with
    | ⟨0, _⟩ =>
      show ((b.val * 20000 + n.val) * 64 + e.val) / 64 = b.val * 20000 + n.val
      have := e.isLt; omega
    | ⟨1, _⟩ =>
      show ((b.val * 20000 + n.val) * 64 + e.val) % 64 = e.val
      have := e.isLt; omega)

theorem idx_v74 (b : Fin 8) (e : Fin 64) (n : Fin 20000) : idx_main_v74 (ix2 b e) n = ix3 b n e :=
  funext fun a => Fin.ext (by match a with | ⟨0, _⟩ => rfl | ⟨1, _⟩ => rfl | ⟨2, _⟩ => rfl)

/-- The pooled feature (b, e): the f32 word of 0.0 plus the sum over graph b's nodes of the layer's feature e. -/
theorem ref_pool (b : Fin 8) (e : Fin 64) :
    val_main_v74 (F := Ideal) x0 x1 x2 x3 x4 x5 x6 x7 x8 x9 x10 (ix2 b e)
      = Ideal.ofBits .f32 0x00000000#32 + Cert.GinSpec.pool (fun n : Fin 20000 =>
          Cert.GinSpec.layer (Cert.GinSpec.rowOf (val_main_v62 (F := Ideal) x0 x1 x2 x3 x4 x5 x6)
            (⟨b.val * 20000 + n.val, node_lt b n⟩ : Fin 160000)) x7 x8 x9 x10 e) := by
  rw [val_main_v74_apply, val_main_cst_9_apply]
  simp only [idx_v74, val_main_v73_apply, idx_v73, ref_conv2, Ideal.ofBits_def]
  unfold Cert.GinSpec.pool
  rfl

/-- The same with the zero evaluated: the pooled feature is the sum itself. -/
theorem ref_pool_sum (b : Fin 8) (e : Fin 64) :
    val_main_v74 (F := Ideal) x0 x1 x2 x3 x4 x5 x6 x7 x8 x9 x10 (ix2 b e)
      = Cert.GinSpec.pool (fun n : Fin 20000 =>
          Cert.GinSpec.layer (Cert.GinSpec.rowOf (val_main_v62 (F := Ideal) x0 x1 x2 x3 x4 x5 x6)
            (⟨b.val * 20000 + n.val, node_lt b n⟩ : Fin 160000)) x7 x8 x9 x10 e) := by
  rw [ref_pool, Ideal.ofBits_zero_f32, zero_add]

end Cert.ReferenceIdeal.Hand

end
-- ==== Proof.RefRows.lean ====
/-
  The two stages that feed the reference's convolutions are entrywise sums, so each of their rows is the feature-wise sum
  of the two summands' rows: x + agg for the first convolution, y + agg for the second.
-/
import proofs.«126217_j34187939676288_1_alg».proof.Proof.RefRead
import proofs.«126217_j34187939676288_1_alg».proof.Proof.Spec

noncomputable section

namespace Cert.ReferenceIdeal.Hand

open Cert.ReferenceIdeal Cert.ReferenceIdeal.Read
open Idealize.ShloMosaic Idealize.ShloMosaic.ValueIdx
open scoped BigOperators

variable (x0 : (⟨S8x20000x2, .f32⟩ : BufTy).Contents (Elt Ideal)) (x1 : (⟨S8x1x20000, .f32⟩ : BufTy).Contents (Elt Ideal))
  (x2 : (⟨S8x2x320000, .i32⟩ : BufTy).Contents (Elt Ideal)) (x3 : (⟨S3x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- Row r of x + agg is the feature-wise sum of row r of x and row r of agg. -/
theorem rowOf_v36 (r : Fin 160000) :
    Cert.GinSpec.rowOf (val_main_v36 (F := Ideal) x0 x1 x2) r
      = Cert.GinSpec.addRow (Cert.GinSpec.rowOf (val_main_v9 (F := Ideal) x0 x1) r)
          (Cert.GinSpec.rowOf (val_main_v35 (F := Ideal) x0 x1 x2) r) := by
  funext i
  show val_main_v36 (F := Ideal) x0 x1 x2 (ix2 r i)
    = val_main_v9 (F := Ideal) x0 x1 (ix2 r i) + val_main_v35 (F := Ideal) x0 x1 x2 (ix2 r i)
  rw [val_main_v36_apply, Ideal.addf_def]

/-- Row r of y + agg is the feature-wise sum of row r of y and row r of agg. -/
theorem rowOf_v62 (r : Fin 160000) :
    Cert.GinSpec.rowOf (val_main_v62 (F := Ideal) x0 x1 x2 x3 x4 x5 x6) r
      = Cert.GinSpec.addRow (Cert.GinSpec.rowOf (val_main_v46 (F := Ideal) x0 x1 x2 x3 x4 x5 x6) r)
          (Cert.GinSpec.rowOf (val_main_v61 (F := Ideal) x0 x1 x2 x3 x4 x5 x6) r) := by
  funext i
  show val_main_v62 (F := Ideal) x0 x1 x2 x3 x4 x5 x6 (ix2 r i)
    = val_main_v46 (F := Ideal) x0 x1 x2 x3 x4 x5 x6 (ix2 r i) + val_main_v61 (F := Ideal) x0 x1 x2 x3 x4 x5 x6 (ix2 r i)
  rw [val_main_v62_apply, Ideal.addf_def]

end Cert.ReferenceIdeal.Hand

end
-- ==== Proof.ReshapeNodes.lean ====
/-
  A [160000, 64] array viewed as [8, 20000, 64]: node n of graph b is row b · 20000 + n, so element (b, n, e) of the view
  is element (b · 20000 + n, e) of the array. Hence the features of node (b, n) of the view are row b · 20000 + n of the
  array, and the feature-wise sum of two views' nodes is the feature-wise sum of the two arrays' rows.
-/
import proofs.«126217_j34187939676288_1_alg».proof.Proof.Spec
import Idealize.ShloMosaic.Lib.Pipeline.Value

noncomputable section

namespace Cert.GinSpec

open Idealize.ShloMosaic Idealize.ShloMosaic.ValueIdx
open scoped BigOperators

/-- Node n of graph b is one of the 160000 rows. -/
theorem node_lt (b : Fin 8) (n : Fin 20000) : b.val * 20000 + n.val < 160000 := by
  have := b.isLt; have := n.isLt; omega

/-- Element (b, n, e) of the [8, 20000, 64] view is element (b · 20000 + n, e) of the array, at any element type. -/
theorem unflatten_nodes_apply {α : Type} (y : (⟨2, ![160000, 64]⟩ : Shape).Idx → α)
    (h : (⟨2, ![160000, 64]⟩ : Shape).ShapeCasts ⟨3, ![8, 20000, 64]⟩) (b : Fin 8) (n : Fin 20000) (e : Fin 64) :
    shapeCast ⟨3, ![8, 20000, 64]⟩ y h (ix3 b n e) = y (ix2 (⟨b.val * 20000 + n.val, node_lt b n⟩ : Fin 160000) e) :=
  shapeCast_apply y h _ _ (by
    rw [Shape.rowMajor_val_two, Shape.rowMajor_val_three]
    show (b.val * 20000 + n.val) * 64 + e.val = (b.val * 20000 + n.val) * 64 + e.val
    rfl)

/-- The features of node (b, n) of the view are row b · 20000 + n of the array. -/
theorem nodeOf_unflatten (y : (⟨2, ![160000, 64]⟩ : Shape).Idx → EReal)
    (h : (⟨2, ![160000, 64]⟩ : Shape).ShapeCasts ⟨3, ![8, 20000, 64]⟩) (b : Fin 8) (n : Fin 20000) :
    nodeOf (shapeCast ⟨3, ![8, 20000, 64]⟩ y h) b n = rowOf y (⟨b.val * 20000 + n.val, node_lt b n⟩ : Fin 160000) :=
  funext fun i => unflatten_nodes_apply y h b n i

/-- The feature-wise sum of node (b, n) of two views is the feature-wise sum of the two arrays' rows b · 20000 + n. -/
theorem addRow_nodeOf_unflatten (y z : (⟨2, ![160000, 64]⟩ : Shape).Idx → EReal)
    (hy hz : (⟨2, ![160000, 64]⟩ : Shape).ShapeCasts ⟨3, ![8, 20000, 64]⟩) (b : Fin 8) (n : Fin 20000) :
    addRow (nodeOf (shapeCast ⟨3, ![8, 20000, 64]⟩ y hy) b n) (nodeOf (shapeCast ⟨3, ![8, 20000, 64]⟩ z hz) b n)
      = addRow (rowOf y (⟨b.val * 20000 + n.val, node_lt b n⟩ : Fin 160000))
          (rowOf z (⟨b.val * 20000 + n.val, node_lt b n⟩ : Fin 160000)) := by
  rw [nodeOf_unflatten, nodeOf_unflatten]

/-- The same as the row of the two arrays' entrywise sum. -/
theorem addRow_nodeOf_unflatten_sum (y z : (⟨2, ![160000, 64]⟩ : Shape).Idx → EReal)
    (hy hz : (⟨2, ![160000, 64]⟩ : Shape).ShapeCasts ⟨3, ![8, 20000, 64]⟩) (b : Fin 8) (n : Fin 20000) :
    addRow (nodeOf (shapeCast ⟨3, ![8, 20000, 64]⟩ y hy) b n) (nodeOf (shapeCast ⟨3, ![8, 20000, 64]⟩ z hz) b n)
      = rowOf (fun i => y i + z i) (⟨b.val * 20000 + n.val, node_lt b n⟩ : Fin 160000) := by
  rw [addRow_nodeOf_unflatten]
  rfl

end Cert.GinSpec

end
-- ==== Proof.JoinPool.lean ====
/-
  The pooled second layer at Ideal. The pooled region's accumulator after its twenty node tiles holds, for graph b and
  feature e, the sum over the graph's 20000 nodes n of relu(relu((y_{b,n} + agg2_{b,n})·W1' + b1')·W2' + b2')(e), the
  partial sums of the tiles of 1000 nodes regrouped into one sum; the operands y and agg2 are the first layer's output and
  the second aggregate reshaped to [8, 20000, 64], so node (b, n) is row 20000·b + n of the flat arrays — and that sum over
  the node axis of the reshaped second convolution is the reference's pooled stage.
-/
import proofs.«126217_j34187939676288_1_alg».proof.Proof.HostGlue
import proofs.«126217_j34187939676288_1_alg».proof.Proof.JoinLayerOne
import proofs.«126217_j34187939676288_1_alg».proof.Proof.PoolArray
import proofs.«126217_j34187939676288_1_alg».proof.Proof.RefConv2
import proofs.«126217_j34187939676288_1_alg».proof.Proof.RefRows
import proofs.«126217_j34187939676288_1_alg».proof.Proof.ReshapeNodes

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The pooled features [8, 64] the head is entered with are the reference's. -/
theorem pool_eq (c : Dev nD) :
    (B4 m c main_v54 : (⟨S8x64, .f32⟩ : BufTy).Contents (Elt Ideal))
      = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [show B4 m c (Proc.devRef .tc main_v54) = _ from pooled_eq m c, pool_array (E3 m) c]
  funext i
  obtain ⟨b, e, rfl⟩ : ∃ (b : Fin 8) (e : Fin 64), i = ix2 b e := ⟨i 0, i 1, eq_ix2 i⟩
  rw [Cert.ReferenceIdeal.Hand.ref_pool]
  rw [show E3 m c main_v52 = _ from layerOut_reshaped m c, show E3 m c main_v53 = _ from agg2_reshaped m c (layer1_eq m c),
    show B2 m c (Proc.devRef .tc main_v36) = _ from layer1_eq m c,
    show E3 m c main_arg7 = _ from asLaunched3 m c main_arg7 (by decide) (by decide) (by decide),
    show E3 m c main_arg8 = _ from asLaunched3 m c main_arg8 (by decide) (by decide) (by decide),
    show E3 m c main_arg9 = _ from asLaunched3 m c main_arg9 (by decide) (by decide) (by decide),
    show E3 m c main_arg10 = _ from asLaunched3 m c main_arg10 (by decide) (by decide) (by decide)]
  refine congrArg (fun f : Fin 20000 → EReal => Ideal.ofBits .f32 0x00000000#32 + Cert.GinSpec.pool f) (funext fun n => ?_)
  show Cert.GinSpec.layer (Cert.GinSpec.addRow (Cert.GinSpec.nodeOf _ b n) (Cert.GinSpec.nodeOf _ b n)) _ _ _ _ e = _
  rw [Cert.GinSpec.addRow_nodeOf_unflatten, ← Cert.ReferenceIdeal.Hand.rowOf_v62]
end Cert.KernelIdeal.Hand

end
-- ==== Proof.HeadArray.lean ====
/- The read-out head, from its one block to the array: REGION 2 of @main has one grid point, every window's
   block is its whole array, and the one write-back leaves in the output array [8,20000], at row b and
   column n, the head of row b of the pooled array:

       sigmoid (Σ_k relu (Σ_i p(b,i) · Wm(i,k) + bm(k)) · Wo(k,n) + bo(n)).

   Read at the exact values (extended reals). That the stored vector is this function of the loaded blocks,
   index by index, is taken as the hypothesis hpay. -/
import proofs.«126217_j34187939676288_1_alg».proof.Proof.HeadRegion
import proofs.«126217_j34187939676288_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents when the region is entered, at the exact values
variable (V : (c : Dev nD) → (b : Ref sig .tc) → Buf (Elt Ideal) ((c : Thread nD τ).loc b))

theorem head_zeros2 : (![0, 0] : Fin 2 → Nat) = fun _ => 0 := funext fun a => by fin_cases a <;> rfl
theorem head_zeros1 : (![0] : Fin 1 → Nat) = fun _ => 0 := funext fun a => by fin_cases a <;> rfl

/-- The head of every row of a pooled array: entry (b, n) is the head of row b at output n. -/
abbrev headOf (p : S8x64.Idx → EReal) (wm : S64x128.Idx → EReal) (bm : S128.Idx → EReal) (wo : S128x20000.Idx → EReal)
    (bo : S20000.Idx → EReal) : S8x20000.Idx → EReal :=
  fun i => Cert.GinSpec.head (Cert.GinSpec.rowOf p (i 0)) wm bm wo bo (i 1)

/-- The stored vector at any index, from the hypothesis at an index given by its coordinates. -/
theorem head_pay_at
    (hpay : ∀ (p : Vec Ideal S8x64 .f32) (wm : Vec Ideal S64x128 .f32) (bm : Vec Ideal S128 .f32) (wo : Vec Ideal S128x20000 .f32)
        (bo : Vec Ideal S20000 .f32) (b : Fin 8) (n : Fin 20000),
      k2_pay1 (F := Ideal) p wm bm wo bo (ix2 b n) = Cert.GinSpec.head (Cert.GinSpec.rowOf p b) wm bm wo bo n)
    (p : Vec Ideal S8x64 .f32) (wm : Vec Ideal S64x128 .f32) (bm : Vec Ideal S128 .f32) (wo : Vec Ideal S128x20000 .f32)
    (bo : Vec Ideal S20000 .f32) (j : S8x20000.Idx) :
    k2_pay1 (F := Ideal) p wm bm wo bo j = headOf p wm bm wo bo j :=
  (congrArg (k2_pay1 (F := Ideal) p wm bm wo bo) (eq_ix2 j)).trans (hpay p wm bm wo bo (j 0) (j 1))

/-- The printed index maps over the grid's one point: every window's block index is zero on every axis. -/
theorem head_idx : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-! ## Each input block is its whole array -/

theorem head_blk_0 (c : Dev nD) (t : Fin cfg2.N) : (blk2 V c 0 t : S8x64.Idx → EReal) = (V c main_v54 : S8x64.Idx → EReal) := by
  obtain ⟨e0, e1, -⟩ := head_idx t
  funext y
  show (V c main_v54 : S8x64.Idx → EReal) (((cfg2.win 0).blk t).view.emb y) = _
  congr 1
  funext a; apply Fin.ext
  match a with
  | ⟨0, _⟩ => show win2_0.index t (0 : Fin 2) * 8 + 1 * (y 0).val = (y 0).val; omega
  | ⟨1, _⟩ => show win2_0.index t (1 : Fin 2) * 64 + 1 * (y 1).val = (y 1).val; omega

theorem head_blk_1 (c : Dev nD) (t : Fin cfg2.N) : (blk2 V c 1 t : S64x128.Idx → EReal) = (V c main_arg11 : S64x128.Idx → EReal) := by
  obtain ⟨-, -, e0, e1, -⟩ := head_idx t
  funext y
  show (V c main_arg11 : S64x128.Idx → EReal) (((cfg2.win 1).blk t).view.emb y) = _
  congr 1
  funext a; apply Fin.ext
  match a with
  | ⟨0, _⟩ => show win2_1.index t (0 : Fin 2) * 64 + 1 * (y 0).val = (y 0).val; omega
  | ⟨1, _⟩ => show win2_1.index t (1 : Fin 2) * 128 + 1 * (y 1).val = (y 1).val; omega

theorem head_blk_2 (c : Dev nD) (t : Fin cfg2.N) : (blk2 V c 2 t : S128.Idx → EReal) = (V c main_arg12 : S128.Idx → EReal) := by
  obtain ⟨-, -, -, -, e0, -⟩ := head_idx t
  funext y
  show (V c main_arg12 : S128.Idx → EReal) (((cfg2.win 2).blk t).view.emb y) = _
  congr 1
  funext a; apply Fin.ext
  match a with
  | ⟨0, _⟩ => show win2_2.index t (0 : Fin 1) * 128 + 1 * (y 0).val = (y 0).val; omega

theorem head_blk_3 (c : Dev nD) (t : Fin cfg2.N) : (blk2 V c 3 t : S128x20000.Idx → EReal) = (V c main_arg13 : S128x20000.Idx → EReal) := by
  obtain ⟨-, -, -, -, -, e0, e1, -⟩ := head_idx t
  funext y
  show (V c main_arg13 : S128x20000.Idx → EReal) (((cfg2.win 3).blk t).view.emb y) = _
  congr 1
  funext a; apply Fin.ext
  match a with
  | ⟨0, _⟩ => show win2_3.index t (0 : Fin 2) * 128 + 1 * (y 0).val = (y 0).val; omega
  | ⟨1, _⟩ => show win2_3.index t (1 : Fin 2) * 20000 + 1 * (y 1).val = (y 1).val; omega

theorem head_blk_4 (c : Dev nD) (t : Fin cfg2.N) : (blk2 V c 4 t : S20000.Idx → EReal) = (V c main_arg14 : S20000.Idx → EReal) := by
  obtain ⟨-, -, -, -, -, -, -, e0, -⟩ := head_idx t
  funext y
  show (V c main_arg14 : S20000.Idx → EReal) (((cfg2.win 4).blk t).view.emb y) = _
  congr 1
  funext a; apply Fin.ext
  match a with
  | ⟨0, _⟩ => show win2_4.index t (0 : Fin 1) * 20000 + 1 * (y 0).val = (y 0).val; omega

/-! ## What the one point writes back, and the array -/

/-- The point writes back the block of headOf of the five arrays as the region finds them. -/
theorem head_flushed_eq
    (hpay : ∀ (p : Vec Ideal S8x64 .f32) (wm : Vec Ideal S64x128 .f32) (bm : Vec Ideal S128 .f32) (wo : Vec Ideal S128x20000 .f32)
        (bo : Vec Ideal S20000 .f32) (b : Fin 8) (n : Fin 20000),
      k2_pay1 (F := Ideal) p wm bm wo bo (ix2 b n) = Cert.GinSpec.head (Cert.GinSpec.rowOf p b) wm bm wo bo n)
    (c : Dev nD) (t : Fin cfg2.N) :
    (dat2 (F := Ideal) V c).flushed 5 t
      = ((cfg2.win 5).blk t).view.read (Elt Ideal)
          (headOf (V c main_v54) (V c main_arg11) (V c main_arg12) (V c main_arg13) (V c main_arg14)) := by
  show (cfg2.win 5).cut (grid2.coords t) ((dat2 V c).after 5 t) = _
  rw [dat2_after_5]
  unfold out2
  rw [View.canon_unit_zero head_zeros2]
  simp only [View.ld_unit_zero (S := S8x64) head_zeros2, View.ld_unit_zero (S := S64x128) head_zeros2,
    View.ld_unit_zero (S := S128) head_zeros1, View.ld_unit_zero (S := S128x20000) head_zeros2,
    View.ld_unit_zero (S := S20000) head_zeros1]
  obtain ⟨-, -, -, -, -, -, -, -, e0, e1⟩ := head_idx t
  funext j
  show k2_pay1 (F := Ideal) (blk2 V c 0 t) (blk2 V c 1 t) (blk2 V c 2 t) (blk2 V c 3 t) (blk2 V c 4 t) j
    = headOf (V c main_v54) (V c main_arg11) (V c main_arg12) (V c main_arg13) (V c main_arg14) (((cfg2.win 5).blk t).view.emb j)
  rw [head_pay_at hpay, head_blk_0, head_blk_1, head_blk_2, head_blk_3, head_blk_4]
  have hj : ((cfg2.win 5).blk t).view.emb j = j := by
    funext a; apply Fin.ext
    match a with
    | ⟨0, _⟩ => show win2_5.index t (0 : Fin 2) * 8 + 1 * (j 0).val = (j 0).val; omega
    | ⟨1, _⟩ => show win2_5.index t (1 : Fin 2) * 20000 + 1 * (j 1).val = (j 1).val; omega
  rw [hj]

/-- An index of the output array is in the point's block iff each coordinate is in the block's range on its axis. -/
theorem head_mem_blk (t : Fin cfg2.N) (i : S8x20000.Idx) :
    i ∈ ((cfg2.win 5).blk t).view.set ↔ ∀ a : Fin 2, win2_5.index t a * S8x20000.size a ≤ (i a).val ∧ (i a).val < win2_5.index t a * S8x20000.size a + S8x20000.size a := by
  show i ∈ ((View.whole main_v55).slice (win2_5.rect t)).set ↔ _
  rw [View.set_slice_whole, Rect.mem_set_unit]
  exact Iff.rfl

/-- The one point's block is the whole output array. -/
theorem head_covered (i : S8x20000.Idx) :
    ∃ t : Fin cfg2.N, (cfg2.win 5).flush t = true ∧ i ∈ ((cfg2.win 5).blk t).view.set := by
  refine ⟨t2_0, flush2_5 t2_0, ?_⟩
  rw [head_mem_blk]
  obtain ⟨-, -, -, -, -, -, -, -, e0, e1⟩ := head_idx t2_0
  have h0 : (i 0).val < 8 := (i 0).isLt
  have h1 : (i 1).val < 20000 := (i 1).isLt
  intro a
  match a with
  | ⟨0, _⟩ => show win2_5.index t2_0 (0 : Fin 2) * 8 ≤ (i 0).val ∧ (i 0).val < win2_5.index t2_0 (0 : Fin 2) * 8 + 8; omega
  | ⟨1, _⟩ => show win2_5.index t2_0 (1 : Fin 2) * 20000 ≤ (i 1).val ∧ (i 1).val < win2_5.index t2_0 (1 : Fin 2) * 20000 + 20000; omega

/-- THE OUTPUT ARRAY after the region: at row b and column n the head of row b of the pooled array as the region
    finds it, with the weights and biases as the region finds them. -/
theorem head_array (c : Dev nD)
    (hpay : ∀ (p : Vec Ideal S8x64 .f32) (wm : Vec Ideal S64x128 .f32) (bm : Vec Ideal S128 .f32) (wo : Vec Ideal S128x20000 .f32)
        (bo : Vec Ideal S20000 .f32) (b : Fin 8) (n : Fin 20000),
      k2_pay1 (F := Ideal) p wm bm wo bo (ix2 b n) = Cert.GinSpec.head (Cert.GinSpec.rowOf p b) wm bm wo bo n) :
    (dat2 (F := Ideal) V c).arrAt 5 cfg2.N
      = fun i => Cert.GinSpec.head (Cert.GinSpec.rowOf (V c main_v54) (i 0)) (V c main_arg11) (V c main_arg12) (V c main_arg13)
          (V c main_arg14) (i 1) :=
  (dat2 V c).arrAt_eq_of_cover 5
    (headOf (V c main_v54) (V c main_arg11) (V c main_arg12) (V c main_arg13) (V c main_arg14))
    (fun t _ => head_flushed_eq V hpay c t) head_covered

end Cert.KernelIdeal.Hand

end
-- ==== Proof.PayloadHead.lean ====
/-
  The last region's stored value read at an index: at (b, n) it is the head of row b of the pooled array,
  logistic(Σ_k relu(Σ_i p(b, i) · mlp_w(i, k) + mlp_b(k)) · out_w(k, n) + out_b(n)).
-/
import proofs.«126217_j34187939676288_1_alg».proof.Proof.Gen.KernelIdeal.Skeleton
import proofs.«126217_j34187939676288_1_alg».proof.Proof.PayloadLemmas

noncomputable section

namespace Cert.KernelIdeal.Hand

open Cert.KernelIdeal Cert.KernelIdeal.Gen
open Idealize.ShloMosaic Idealize.ShloMosaic.ValueIdx
open scoped BigOperators

/-- The head's two products are plain: [8, 64] by [64, 128], and [8, 128] by [128, 20000]. -/
theorem dot_head1_plain : dot_S8x64_S64x128_S8x128_1_0_0_1_n_n = DotDims.plain 8 64 128 := rfl
theorem dot_head2_plain : dot_S8x128_S128x20000_S8x20000_1_0_0_1_n_n = DotDims.plain 8 128 20000 := rfl

/-- The value the last region stores at (b, n) is the head of row b of the pooled array it loaded. -/
theorem k2_pay1_apply (p : Vec Ideal S8x64 .f32) (mw : Vec Ideal S64x128 .f32) (mb : Vec Ideal S128 .f32)
    (ow : Vec Ideal S128x20000 .f32) (ob : Vec Ideal S20000 .f32) (b : Fin 8) (n : Fin 20000) :
    k2_pay1 (F := Ideal) p mw mb ow ob (ix2 b n) = Cert.GinSpec.head (Cert.GinSpec.rowOf p b) mw mb ow ob n := by
  unfold k2_pay1 Cert.GinSpec.head
  refine congrArg Ideal.logistic ?_
  refine (Cert.GinSpec.dense_apply _ dot_head2_plain none _ _ ob _ _ b n).trans ?_
  refine congrArg (· + ob (ix1 n)) (Finset.sum_congr rfl fun k _ => ?_)
  refine congrArg (· * ow (ix2 k n)) ?_
  refine (Cert.GinSpec.relu_dense_apply _ dot_head1_plain none _ _ mb _ _ b k).trans ?_
  rw [shapeCast_self]
  rfl

end Cert.KernelIdeal.Hand

end
-- ==== Proof.RefHead.lean ====
/-
  The reference's dense stages read at an index, as the specification's functions of the stage that feeds each block.

  The head: the reference's result at (b, n) is logistic(Σ_k relu(Σ_i pooled(b, i) · mlp_w(i, k) + mlp_b(k)) · out_w(k, n)
  + out_b(n)); the reference spells the logistic as 1 / (1 + exp(−z)) with the f32 word of 1.0, which is the extended
  real 1.
-/
import proofs.«126217_j34187939676288_1_alg».proof.Proof.RefRead
import proofs.«126217_j34187939676288_1_alg».proof.Proof.Spec
import Idealize.ShloMosaic.Lib.IdealHost

noncomputable section

namespace Cert.ReferenceIdeal.Hand

open Cert.ReferenceIdeal Cert.ReferenceIdeal.Read
open Idealize.ShloMosaic Idealize.ShloMosaic.ValueIdx
open scoped BigOperators

variable (x0 : (⟨S8x20000x2, .f32⟩ : BufTy).Contents (Elt Ideal)) (x1 : (⟨S8x1x20000, .f32⟩ : BufTy).Contents (Elt Ideal))
  (x2 : (⟨S8x2x320000, .i32⟩ : BufTy).Contents (Elt Ideal)) (x3 : (⟨S3x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S64x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal)) (x11 : (⟨S64x128, .f32⟩ : BufTy).Contents (Elt Ideal))
  (x12 : (⟨S128, .f32⟩ : BufTy).Contents (Elt Ideal)) (x13 : (⟨S128x20000, .f32⟩ : BufTy).Contents (Elt Ideal))
  (x14 : (⟨S20000, .f32⟩ : BufTy).Contents (Elt Ideal))

/-! ## The head: relu(p · mlp_w + mlp_b) · out_w + out_b through the logistic -/

theorem lidx_v80 (b : Fin 8) (n : Fin 20000) (k : Fin 128) : lidx_main_v80 (ix2 b n) k = ix2 b k :=
  funext fun a => Fin.ext (by match a with | ⟨0, _⟩ => rfl | ⟨1, _⟩ => rfl)
theorem ridx_v80 (b : Fin 8) (n : Fin 20000) (k : Fin 128) : ridx_main_v80 (ix2 b n) k = ix2 k n :=
  funext fun a => Fin.ext (by match a with | ⟨0, _⟩ => rfl | ⟨1, _⟩ => rfl)
theorem idx_v82 (b : Fin 8) (n : Fin 20000) : idx_main_v82 (ix2 b n) = ix2 (0 : Fin 1) n :=
  funext fun a => Fin.ext (by match a with | ⟨0, _⟩ => rfl | ⟨1, _⟩ => rfl)
theorem idx_v81 (u : Fin 1) (n : Fin 20000) : idx_main_v81 (ix2 u n) = ix1 n :=
  funext fun a => Fin.ext (by match a with | ⟨0, _⟩ => rfl)
theorem lidx_v75 (b : Fin 8) (k : Fin 128) (i : Fin 64) : lidx_main_v75 (ix2 b k) i = ix2 b i :=
  funext fun a => Fin.ext (by match a with | ⟨0, _⟩ => rfl | ⟨1, _⟩ => rfl)
theorem ridx_v75 (b : Fin 8) (k : Fin 128) (i : Fin 64) : ridx_main_v75 (ix2 b k) i = ix2 i k :=
  funext fun a => Fin.ext (by match a with | ⟨0, _⟩ => rfl | ⟨1, _⟩ => rfl)
theorem idx_v77 (b : Fin 8) (k : Fin 128) : idx_main_v77 (ix2 b k) = ix2 (0 : Fin 1) k :=
  funext fun a => Fin.ext (by match a with | ⟨0, _⟩ => rfl | ⟨1, _⟩ => rfl)
theorem idx_v76 (u : Fin 1) (k : Fin 128) : idx_main_v76 (ix2 u k) = ix1 k :=
  funext fun a => Fin.ext (by match a with | ⟨0, _⟩ => rfl)

/-- The head's hidden unit k on graph b is relu(Σ_i pooled(b, i) · mlp_w(i, k) + mlp_b(k)). -/
theorem ref_head_hidden (b : Fin 8) (k : Fin 128) :
    val_main_v79 (F := Ideal) x0 x1 x2 x3 x4 x5 x6 x7 x8 x9 x10 x11 x12 (ix2 b k)
      = Cert.GinSpec.hidden (Cert.GinSpec.rowOf (val_main_v74 (F := Ideal) x0 x1 x2 x3 x4 x5 x6 x7 x8 x9 x10) b) x11 x12 k := by
  rw [val_main_v79_apply, val_main_v78_apply, val_main_v75_apply, val_main_v77_apply, val_main_v76_apply,
    val_main_call4_v0_apply, val_main_call4_cst_apply, idx_v77, idx_v76]
  simp only [lidx_v75, ridx_v75]
  rfl

/-- The reference's result at (b, n) is the head of graph b's pooled row. -/
theorem ref_head (b : Fin 8) (n : Fin 20000) :
    val_main_v89 (F := Ideal) x0 x1 x2 x3 x4 x5 x6 x7 x8 x9 x10 x11 x12 x13 x14 (ix2 b n)
      = Cert.GinSpec.head (Cert.GinSpec.rowOf (val_main_v74 (F := Ideal) x0 x1 x2 x3 x4 x5 x6 x7 x8 x9 x10) b) x11 x12 x13 x14 n := by
  rw [val_main_v89_apply, val_main_v88_apply, val_main_cst_11_apply, val_main_v87_apply, val_main_v86_apply,
    val_main_cst_10_apply, val_main_v85_apply, val_main_v84_apply, val_main_v83_apply, val_main_v80_apply,
    val_main_v82_apply, val_main_v81_apply, idx_v82, idx_v81]
  simp only [lidx_v80, ridx_v80, ref_head_hidden, Ideal.ofBits_def, Ideal.ofBits_one_f32, Ideal.hostDivf_def, Ideal.addf_def,
    Ideal.hostUnary_exp_def, Ideal.hostNegf_def, Ideal.negf_def]
  unfold Cert.GinSpec.head Ideal.logistic
  rfl

end Cert.ReferenceIdeal.Hand

end
-- ==== Proof.JoinHead.lean ====
/-
  The head at Ideal: both programs apply to the pooled features [8, 64] the dense map to 128 hidden units with a relu,
  the dense map to 20000 outputs, and the logistic function — which the reference spells 1 / (1 + exp(−z)) and the kernel
  names; at Ideal the name is that expression. So, given equal pooled features, the result arrays are equal.
-/
import proofs.«126217_j34187939676288_1_alg».proof.Proof.HostGlue
import proofs.«126217_j34187939676288_1_alg».proof.Proof.HeadArray
import proofs.«126217_j34187939676288_1_alg».proof.Proof.PayloadHead
import proofs.«126217_j34187939676288_1_alg».proof.Proof.RefHead

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The head: given the pooled features are the reference's, the result array [8, 20000] is the reference's result. -/
theorem head_eq (c : Dev nD)
    (hp : (B4 m c main_v54 : (⟨S8x64, .f32⟩ : BufTy).Contents (Elt Ideal)) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    (B5 m c main_v55 : (⟨S8x20000, .f32⟩ : BufTy).Contents (Elt Ideal))
      = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [show B5 m c (Proc.devRef .tc main_v55) = _ from result_eq m c, head_array (E4 m) c k2_pay1_apply]
  funext i
  obtain ⟨b, n, rfl⟩ : ∃ (b : Fin 8) (n : Fin 20000), i = ix2 b n := ⟨i 0, i 1, eq_ix2 i⟩
  rw [Cert.ReferenceIdeal.Hand.ref_head]
  rw [show E4 m c main_v54 = _ from hp,
    show E4 m c main_arg11 = _ from asLaunched4 m c main_arg11 (by decide) (by decide) (by decide) (by decide),
    show E4 m c main_arg12 = _ from asLaunched4 m c main_arg12 (by decide) (by decide) (by decide) (by decide),
    show E4 m c main_arg13 = _ from asLaunched4 m c main_arg13 (by decide) (by decide) (by decide) (by decide),
    show E4 m c main_arg14 = _ from asLaunched4 m c main_arg14 (by decide) (by decide) (by decide) (by decide)]
  rfl

end Cert.KernelIdeal.Hand

end
-- ==== Proof.Joined.lean ====
/-
  The kernel's result is the reference's, at Ideal: the chain of the five items read against the reference's stages.

  Layer by layer both programs compute the same function of the same rows: the first region's output array is the
  reference's first convolution with its outer relu; the second stretch of host operations forms from it the
  reference's second aggregate; the pooled region's accumulator after its twenty node tiles is the reference's sum over
  the node axis of the second convolution; and the head is the same two dense maps followed by the logistic function.
-/
import proofs.«126217_j34187939676288_1_alg».proof.Proof.JoinLayerOne
import proofs.«126217_j34187939676288_1_alg».proof.Proof.JoinPool
import proofs.«126217_j34187939676288_1_alg».proof.Proof.JoinHead

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The result buffer at the end of the kernel's run holds the reference's result stage of the arguments. -/
theorem result_is_reference (c : Dev nD) :
    (B5 m c (Proc.devRef .tc main_v55) : (⟨S8x20000, .f32⟩ : BufTy).Contents (Elt Ideal))
      = Cert.ReferenceIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  head_eq m c (pool_eq m c)
end Cert.KernelIdeal.Hand

end
-- ==== Proof.lean ====
/-
  The certificate of the graph-isomorphism network's kernel against its jnp reference.

  The kernel computes the network in three tiled regions among host operations: the first layer
  y = relu(relu((x + agg(x))·W1 + b1)·W2 + b2) over twenty tiles of 8000 node rows; the second layer of the same form over
  twenty tiles of 1000 nodes per graph, its rows summed per graph into an accumulator carried across the tiles; and the
  head sigmoid(relu(p·Wm + bm)·Wo + bo) in one block. The neighbour aggregates agg(·) — a gather along the edges' sources
  scatter-added at their targets — are formed by host operations, the same ones in both programs.

  The three frames: each program runs to the end without a fault and leaves its arguments as launched (the kernel's two
  readings by the run of their five items, the reference's by its run of host operations). The idealization rewrote no
  operation, so there is nothing to preserve. The value claim: at Ideal, where a change of float format is the identity
  and a sum may be regrouped, the kernel's result array is the reference's, layer by layer (the chain is in the modules
  under Proof/).
-/
import proofs.«126217_j34187939676288_1_alg».proof.Defs
import proofs.«126217_j34187939676288_1_alg».proof.Proof.Gen.Kernel
import proofs.«126217_j34187939676288_1_alg».proof.Proof.Gen.KernelIdeal
import proofs.«126217_j34187939676288_1_alg».proof.Proof.Gen.ReferenceIdeal
import proofs.«126217_j34187939676288_1_alg».proof.Proof.Gen.Pre_finite_inputs
import proofs.«126217_j34187939676288_1_alg».proof.Proof.FrameAll
import proofs.«126217_j34187939676288_1_alg».proof.Proof.FrameAllBits
import proofs.«126217_j34187939676288_1_alg».proof.Proof.Joined
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Hand.frame_all (F := Bits) m ρ

/-- So does its reading at Ideal. -/
theorem frame_kernelIdeal : Cert.frame_KernelIdeal := fun m ρ _ => Cert.KernelIdeal.Hand.frame_all (F := Ideal) m ρ

/-- The reference is host operations only: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At Ideal, from memories agreeing on the arguments, both programs end with the same result array: the kernel's is
    the head region's output, the reference's its last stage, and the two are one function of the arguments. -/
theorem algebraic : Cert.algebraic_KernelIdeal_ReferenceIdeal := by
  intro m ρ m' ρ' _ hagree
  refine ⟨fun c => Cert.KernelIdeal.Hand.B5 m c (Proc.devRef .tc Cert.KernelIdeal.main_v55),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.KernelIdeal.Hand.result_is_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
